-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩
abbrev S8192 : Shape := ⟨1, ![8192]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  reducesTo_S8192x1024_S8192_d1 : S8192x1024.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := mulf main_arg0 main_arg0
  let main_cst_0 : FVec F S_ .f32 := constant S_ .f32 0x00000000#32
  let main_v5 : FVec F S8192 .f32 := (fun x v => Host.reduceAdd x v reducesTo_S8192x1024_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x1024 : Shape := ⟨2, ![8192, 1024]⟩
abbrev S2048x1 : Shape := ⟨2, ![2048, 1]⟩
abbrev S2x8x128 : Shape := ⟨3, ![2, 8, 128]⟩
abbrev S1024x1024 : Shape := ⟨2, ![1024, 1024]⟩
abbrev S512x1024 : Shape := ⟨2, ![512, 1024]⟩
abbrev S1024x1 : Shape := ⟨2, ![1024, 1]⟩
abbrev S1x8x128 : Shape := ⟨3, ![1, 8, 128]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S512 : Shape := ⟨1, ![512]⟩
abbrev S512x1 : Shape := ⟨2, ![512, 1]⟩
abbrev S1024x512 : Shape := ⟨2, ![1024, 512]⟩
abbrev S1024 : Shape := ⟨1, ![1024]⟩
abbrev S1 : Shape := ⟨1, ![1]⟩
abbrev S1x1 : Shape := ⟨2, ![1, 1]⟩
abbrev S2048 : Shape := ⟨1, ![2048]⟩
abbrev S2x1x1 : Shape := ⟨3, ![2, 1, 1]⟩
abbrev S2 : Shape := ⟨1, ![2]⟩
abbrev S_ : Shape := ⟨0, ![]⟩

abbrev nBuf : Space → Nat
  | .hbm => 24
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S2048x1, .f32⟩
  | .hbm, ⟨2, _⟩ => ⟨S2x8x128, .f32⟩
  | .hbm, ⟨3, _⟩ => ⟨S2048, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1, .f32⟩
  | .local _ .vmem, ⟨5, _⟩ => ⟨S1024x1, .f32⟩
  | .local _ .vmem, ⟨6, _⟩ => ⟨S1x8x128, .f32⟩
  | .local _ .vmem, ⟨7, _⟩ => ⟨S1x8x128, .f32⟩
  | .local _ .vmem, ⟨8, _⟩ => ⟨S1024x1024, .bf16⟩
  | .local _ .vmem, ⟨9, _⟩ => ⟨S1024x1, .f32⟩
  | .local _ .vmem, ⟨10, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_19 : BitVec 32 := 0#32
  let c256_i32 : BitVec 32 := 256#32
  let v37 : BitVec 32 := Scalar.muli c0_i32_19 c256_i32
  v37
def k0_off1 (c0_i32_19 : BitVec 32) : Fin 2 → Nat :=
  let c256_i32 : BitVec 32 := 256#32
  let v37 : BitVec 32 := Scalar.muli c0_i32_19 c256_i32
  let v38 : BitVec 32 := v37
  let v39 : Index := Scalar.indexCast v38
  let c0_20 : Index := 0#32
  ![v39.toNat, 0]
def k0_mult2 : BitVec 32 :=
  let c1_i32 : BitVec 32 := 1#32
  let c256_i32_23 : BitVec 32 := 256#32
  let v52 : BitVec 32 := Scalar.muli c1_i32 c256_i32_23
  v52
def k0_mult3 : BitVec 32 :=
  let c2_i32 : BitVec 32 := 2#32
  let c256_i32_27 : BitVec 32 := 256#32
  let v67 : BitVec 32 := Scalar.muli c2_i32 c256_i32_27
  v67
def k0_mult4 : BitVec 32 :=
  let c3_i32 : BitVec 32 := 3#32
  let c256_i32_31 : BitVec 32 := 256#32
  let v82 : BitVec 32 := Scalar.muli c3_i32 c256_i32_31
  v82
def k0_cond3 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  h_S256x1024 : 0 < S256x1024.numel
  reduces_S256x1024_S256 : S256x1024.Reduces [1] S256
  shapeCasts_S256_S256x1 : S256.ShapeCasts S256x1
  broadcasts_S256x1_S256x1024 : S256x1.Broadcasts S256x1024
  bitsLt_bf16_f32 : FTy.bits .bf16 < FTy.bits .f32
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  reduces_S1024x512_S1024 : S1024x512.Reduces [1] S1024
  shapeCasts_S1024_S1024x1 : S1024.ShapeCasts S1024x1
  iota_S1024x512_d0_w32 : S1024x512.Iotas .tc 32 [0]
  iota_S1024x512_d1_w32 : S1024x512.Iotas .tc 32 [1]
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  shapeCasts_S2048x1_S2048 : S2048x1.ShapeCasts S2048
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  bcast_S_S2048 : S_.BroadcastsInDim S2048 (![] : Fin 0 → Fin S2048.rank)
  reducesTo_S2048_S_d0 : S2048.ReducesTo [0] S_
  dot_S1024x1024_S512x1024_S1024x512_1_1_0_0_n_n_wf : DotDims.WF S1024x1024 S512x1024 S1024x512 [1] [1] [0] [0] [] []
  hrank0 : 0 < grid0.rank
  k0_mult1_dvd : ∀ i : grid0.Coords, ∀ (k0_h1 : k0_cond1 i = 1#1), 256 ∣ k0_mult1.toNat
  k0_off1_inb : ∀ i : grid0.Coords, ∀ (k0_h1 : k0_cond1 i = 1#1), ∀ (r : Fin 4), ∀ a, (k0_off1 (BitVec.ofNat 32 r.val)) a + S256x1024.size a ≤ S1024x1024.size a
  k0_off1_packedbf16 : ∀ i : grid0.Coords, ∀ (k0_h1 : k0_cond1 i = 1#1), ∀ (r : Fin 4), (Rect.unit (s := S1024x1024) (k0_off1 (BitVec.ofNat 32 r.val)) S256x1024.size (k0_off1_inb i k0_h1 r)).PackedRows (EltTy.packing .bf16)
  k0_mult2_dvd : ∀ i : grid0.Coords, ∀ (k0_h1 : k0_cond1 i = 1#1), 256 ∣ k0_mult2.toNat
  k0_mult3_dvd : ∀ i : grid0.Coords, ∀ (k0_h1 : k0_cond1 i = 1#1), 256 ∣ k0_mult3.toNat
  k0_mult4_dvd : ∀ i : grid0.Coords, ∀ (k0_h1 : k0_cond1 i = 1#1), 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .f32 = 32 ∨ (Rect.block (s := S2048x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S2048x8192 : Shape := ⟨2, ![2048, 8192]⟩
abbrev S2048 : Shape := ⟨1, ![2048]⟩
abbrev S2048x1 : Shape := ⟨2, ![2048, 1]⟩
abbrev S2048x2 : Shape := ⟨2, ![2048, 2]⟩
abbrev S2048x2048 : Shape := ⟨2, ![2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192x1024, .f32⟩
  | .hbm, ⟨7, _⟩ => ⟨S8192x1024, .f32⟩
  | .hbm, ⟨8, _⟩ => ⟨S1024x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S2048x8192, .f32⟩
  | .hbm, ⟨14, _⟩ => ⟨S2048, .i32⟩
  | .hbm, ⟨15, _⟩ => ⟨S2048x8192, .f32⟩
  | .hbm, ⟨16, _⟩ => ⟨S_, .f32⟩
  | .hbm, ⟨17, _⟩ => ⟨S2048, .f32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048x1, .i32⟩
  | .hbm, ⟨34, _⟩ => ⟨S2048x2, .i32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048x2048, .f32⟩
  | .hbm, ⟨42, _⟩ => ⟨S2048x2048, .i32⟩
  | .hbm, ⟨43, _⟩ => ⟨S_, .i32⟩
  | .hbm, ⟨44, _⟩ => ⟨S2048x2048, .i32⟩
  | .hbm, ⟨45, _⟩ => ⟨S2048x2048, .i32⟩
  | .hbm, ⟨46, _⟩ => ⟨S2048x2048, .i32⟩
  | .hbm, ⟨47, _⟩ => ⟨S2048x2048, .i1⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_cst : Ref sig .tc := ⟨.hbm, 48, rfl⟩
abbrev main_call1_v5 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  slices_S8192x8192_S2048x8192_0_0 : S8192x8192.Slices ![0, 0] S2048x8192
  reducesTo_S2048x8192_S2048_d1 : S2048x8192.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  slices_S2048x8192_S2048x2048_0_0 : S2048x8192.Slices ![0, 0] S2048x2048
  bcast_S_S2048x2048 : S_.BroadcastsInDim S2048x2048 (![] : Fin 0 → Fin S2048x2048.rank)
  reducesTo_S2048x2048_S_d0_1 : S2048x2048.ReducesTo [0, 1] S_
  reducesTo_S2048_S_d0 : S2048.ReducesTo [0] S_
  dot_S8192x1024_S1024x8192_S8192x8192_1_0_0_1_n_n_wf : DotDims.WF S8192x1024 S1024x8192 S8192x8192 [1] [0] [0] [1] [] []
  gather_S2048x8192_S2048x2_S2048_n_01_n_n_01_1_11_wf : GatherDims.WF S2048x8192 S2048x2 S2048 [] [0, 1] [] [0, 1] [] 1 ![1, 1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S2048x8192_S2048x2_S2048_n_01_n_n_01_1_11 : GatherDims S2048x8192 S2048x2 S2048 where
  offsetDims := []
  collapsedSliceDims := [0, 1]
  operandBatchingDims := []
  startIndicesBatchingDims := []
  startIndexMap := [0, 1]
  indexVectorDim := 1
  sliceSizes := ![1, 1]
  wf := gather_S2048x8192_S2048x2_S2048_n_01_n_n_01_1_11_wf

class Facts : Prop extends Facts₀ where

variable [Facts]
-- ==== Proof.KFrameBase.lean ====
/-
  The shared ground of the kernel's frame proof, at any float instance: the contents the region finds
  (no host line precedes it), the two input windows' blocks of the ONE argument array, the three branch
  conditions of the body decided over the 2 x 16 grid (second coordinate k: k = 0, k < 4, k = 15), where the
  two output windows are idle (every point but k = 15), and the names of the staging and scratch memrefs.
-/
import proofs.«139039_j44513041056397_2_alg».proof.Proof.Gen.Kernel.Launch
import proofs.«139039_j44513041056397_2_alg».proof.Proof.Gen.Kernel.Skeleton
import proofs.«139039_j44513041056397_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents -/

/-- The core's buffers when the region is entered: the launch contents (the region is @main's first line). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

theorem hostOps1_fresh : (hostOps1 : List (HloOp τ sig (Elt F))).Forall fun op => op.fresh = ∅ := by
  simp only [List.Forall]; repeat' constructor

/-- @main is the region continued by the twenty-one host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The input windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left-hand rows' window holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The streamed rows' window holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, over the grid -/

/-- `k = 0`: the accumulators are reset and the resident rows normalised. -/
abbrev condA (i : grid0.Coords) : Prop := k0_cond1 i = 1#1
/-- `k < 4`: the tile meets the columns below 2048, where the strict upper triangle lives. -/
abbrev condB (i : grid0.Coords) : Prop := (Scalar.cmpi .ne (Scalar.extui (Scalar.cmpi .slt (BitVec.ofNat 32 (i 1).val) 4#32)) 0#32) = 1#1
/-- `k = 15`: the accumulators are written out. -/
abbrev condC (i : grid0.Coords) : Prop := k0_cond3 i = 1#1

theorem hcondA : ∀ t : Fin cfg0.N, condA (grid0.coords t) ↔ t.val % 16 = 0 :=
  (by decide +kernel : ∀ t : Fin grid0.N, condA (grid0.coords t) ↔ t.val % 16 = 0)
theorem hcondB : ∀ t : Fin cfg0.N, condB (grid0.coords t) ↔ t.val % 16 < 4 :=
  (by decide +kernel : ∀ t : Fin grid0.N, condB (grid0.coords t) ↔ t.val % 16 < 4)
theorem hcondC : ∀ t : Fin cfg0.N, condC (grid0.coords t) ↔ t.val % 16 = 15 :=
  (by decide +kernel : ∀ t : Fin grid0.N, condC (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬condC (grid0.coords t) → cfg0.idle 2 (grid0.coords t) = true := by decide +kernel
theorem idle3 : ∀ t : Fin cfg0.N, ¬condC (grid0.coords t) → cfg0.idle 3 (grid0.coords t) = true := by decide +kernel
theorem noFlush2 : ∀ t : Fin cfg0.N, ¬condC (grid0.coords t) → (cfg0.win 2).flush t = false := by decide +kernel
theorem noFlush3 : ∀ t : Fin cfg0.N, ¬condC (grid0.coords t) → (cfg0.win 3).flush t = false := by decide +kernel
theorem live2 : ∀ t : Fin cfg0.N, condC (grid0.coords t) → cfg0.idle 2 (grid0.coords t) = false := by decide +kernel
theorem live3 : ∀ t : Fin cfg0.N, condC (grid0.coords t) → cfg0.idle 3 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)
/-- The three scratch operands: the normalised resident rows, the running row sums of exponentials, the running
    triangle sum. -/
abbrev scZ : Memref sig .tc .vmem S1024x1024 .bf16 := Memref.whole cc0_scratch0
abbrev scE : Memref sig .tc .vmem S1024x1 .f32 := Memref.whole cc0_scratch1
abbrev scT : Memref sig .tc .vmem S8x128 .f32 := Memref.whole cc0_scratch2
abbrev VZ : View sig .tc .vmem S1024x1024 .bf16 := scZ.view
abbrev VE : View sig .tc .vmem S1024x1 .f32 := scE.view
abbrev VT : View sig .tc .vmem S8x128 .f32 := scT.view
/-- One staging buffer of each output window, through which its contents are stated. -/
abbrev VO2 : View sig .tc .vmem S1024x1 .f32 := (Memref.whole cc0_stg2_0 : Memref sig .tc .vmem S1024x1 .f32).view
abbrev VO3 : View sig .tc .vmem S1x8x128 .f32 := (Memref.whole cc0_stg3_0 : Memref sig .tc .vmem S1x8x128 .f32).view

/-- What the launch hands the region beside the windows: the three scratch buffers at some contents and the
    generator register at some state. -/
theorem PhiA0_eq (c : Dev nD) :
    (Pipeline.ΦA spec0 c : sProp 𝕄)
      = iprop(iprop((∃ d, owns (c : Thread nD τ) scZ fullShare d) ∗ (∃ d, owns (c : Thread nD τ) scE fullShare d) ∗ (∃ d, owns (c : Thread nD τ) scT fullShare d)) ∗ (∃ r, prngReg c r)) := by
  unfold Pipeline.ΦA; rw [scopedRest0_eq]; simp only [scZ, scE, scT, owns_whole]; try rfl

end Cert.Kernel.Fr

end
-- ==== Proof.KRunA.lean ====
/-
  The body at a point with k = 0: the reset branch and the triangle branch are taken. It zeroes both accumulators,
  normalises the resident rows in four chunks of 256 rows into the scratch, then accumulates as at every point.
-/
import proofs.«139039_j44513041056397_2_alg».proof.Proof.KFrameBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runA (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) :
    Σ' (LZ : List (View.Piece (Elt F) S1024x1024 .bf16)) (LE : List (View.Piece (Elt F) S1024x1 .f32)), { LT : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LZ) ∗ (∃ f, arg7.view.loc (c : Thread nD τ) ↦[arg7.view.set]{fullShare} arg7.view.writes (Elt F) f LE) ∗ (∃ f, arg8.view.loc (c : Thread nD τ) ↦[arg8.view.set]{fullShare} arg8.view.writes (Elt F) f LT)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%dz, %fz, -, HZ⟩, ⟨%de, %fe, -, HE⟩, ⟨%dt, %ft, -, HT⟩, Hk⟩
    obtain rfl := harg2.eq_unread hf0; obtain rfl := harg3.eq_unread hf1
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [HZ]; · iexists _; iexact HZ
    isplitl [HE]; · iexists _; iexact HE
    iexists _; iexact HT

end Cert.Kernel.Fr

end
-- ==== Proof.KRunB.lean ====
/-
  The body at a point with 1 ≤ k < 4: only the triangle branch is taken. It adds the tile's row sums of
  exponentials into the running sums and the tile's masked total into the running triangle sum.
-/
import proofs.«139039_j44513041056397_2_alg».proof.Proof.KFrameBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runB (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) :
    Σ' (LE : List (View.Piece (Elt F) S1024x1 .f32)), { LT : List (View.Piece (Elt F) S8x128 .f32) //
      ∀ (E : Set ℕ) (K : PUnit → sProp 𝕄),
        iprop(owns (c : Thread nD τ) arg3 fullShare x1 ∗ owns (c : Thread nD τ) arg6 fullShare xz ∗ owns (c : Thread nD τ) arg7 fullShare xe ∗ owns (c : Thread nD τ) arg8 fullShare xt
            ∗ (iprop(owns (c : Thread nD τ) arg3 fullShare x1 ∗ owns (c : Thread nD τ) arg6 fullShare xz ∗ (∃ f, arg7.view.loc (c : Thread nD τ) ↦[arg7.view.set]{fullShare} arg7.view.writes (Elt F) f LE) ∗ (∃ f, arg8.view.loc (c : Thread nD τ) ↦[arg8.view.set]{fullShare} arg8.view.writes (Elt F) f LT)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f1, %hf1, H1⟩, ⟨%fz, %hfz, HZ⟩, ⟨%fe, %hfe, HE⟩, ⟨%ft, %hft, HT⟩, Hk⟩
    obtain rfl := harg3.eq_unread hf1; obtain rfl := harg6.eq_unread hfz; obtain rfl := harg7.eq_unread hfe; obtain rfl := harg8.eq_unread hft
    sl_exec (disch := first | exact hA | exact hB | exact hC)
    sl_step
    iapply Hk
    isplitl [H1]
    · iexists _; isplitr; · ipureintro; exact harg3.read_unread _
      iexact H1
    isplitl [HZ]
    · iexists _; isplitr; · ipureintro; exact harg6.read_unread _
      iexact HZ
    isplitl [HE]; · iexists _; iexact HE
    iexists _; iexact HT

end Cert.Kernel.Fr

end
-- ==== Proof.KRunC.lean ====
/-
  The body at a point with 4 ≤ k < 15: no branch is taken. It reads the streamed rows' block and the
  normalised resident rows, and adds the tile's row sums of exponentials into the running sums.
-/
import proofs.«139039_j44513041056397_2_alg».proof.Proof.KFrameBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the running-sums scratch at such a point, with the body's triple. -/
noncomputable def runC (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : ¬condC i)
    (x1 : Vec F S512x1024 .f32) (xz : Vec F S1024x1024 .bf16) (xe : Vec F S1024x1 .f32) :
    { LE : List (View.Piece (Elt F) S1024x1 .f32) //
      ∀ (E : Set ℕ) (K : PUnit → sProp 𝕄),
        iprop(owns (c : Thread nD τ) arg3 fullShare x1 ∗ owns (c : Thread nD τ) arg6 fullShare xz ∗ owns (c : Thread nD τ) arg7 fullShare xe
            ∗ (iprop(owns (c : Thread nD τ) arg3 fullShare x1 ∗ owns (c : Thread nD τ) arg6 fullShare xz ∗ (∃ f, arg7.view.loc (c : Thread nD τ) ↦[arg7.view.set]{fullShare} arg7.view.writes (Elt F) f LE)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun E K => ?run⟩
  case run =>
    simp only [cc0__kernel_eq_skeleton]; unfold cc0__kernel_skel
    unfold owns
    iintro ⟨⟨%f1, %hf1, H1⟩, ⟨%fz, %hfz, HZ⟩, ⟨%fe, %hfe, HE⟩, Hk⟩
    obtain rfl := harg3.eq_unread hf1; obtain rfl := harg6.eq_unread hfz; obtain rfl := harg7.eq_unread hfe
    sl_exec (disch := first | exact hA | exact hB | exact hC)
    sl_step
    iapply Hk
    isplitl [H1]
    · iexists _; isplitr; · ipureintro; exact harg3.read_unread _
      iexact H1
    isplitl [HZ]
    · iexists _; isplitr; · ipureintro; exact harg6.read_unread _
      iexact HZ
    iexists _; iexact HE

end Cert.Kernel.Fr

end
-- ==== Proof.KRunD.lean ====
/-
  The body at a point with k = 15: only the last branch is taken. It adds the tile's row sums of exponentials
  into the running sums, then copies the running sums and the running triangle sum into the two output blocks.
-/
import proofs.«139039_j44513041056397_2_alg».proof.Proof.KFrameBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runD (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) :
    Σ' (LE : List (View.Piece (Elt F) S1024x1 .f32)) (L2 : List (View.Piece (Elt F) S1024x1 .f32)), { L3 : List (View.Piece (Elt F) S1x8x128 .f32) //
      ∀ (E : Set ℕ) (K : PUnit → sProp 𝕄),
        iprop(owns (c : Thread nD τ) arg3 fullShare x1 ∗ owns (c : Thread nD τ) arg6 fullShare xz ∗ owns (c : Thread nD τ) arg7 fullShare xe ∗ owns (c : Thread nD τ) arg8 fullShare xt ∗ (∃ d, owns (c : Thread nD τ) arg4 fullShare d) ∗ (∃ d, owns (c : Thread nD τ) arg5 fullShare d)
            ∗ (iprop(owns (c : Thread nD τ) arg3 fullShare x1 ∗ owns (c : Thread nD τ) arg6 fullShare xz ∗ (∃ f, arg7.view.loc (c : Thread nD τ) ↦[arg7.view.set]{fullShare} arg7.view.writes (Elt F) f LE) ∗ owns (c : Thread nD τ) arg8 fullShare xt ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun E K => ?run⟩
  case run =>
    simp only [cc0__kernel_eq_skeleton]; unfold cc0__kernel_skel
    simp only [k0_part1_eq_skeleton]
    unfold owns
    iintro ⟨⟨%f1, %hf1, H1⟩, ⟨%fz, %hfz, HZ⟩, ⟨%fe, %hfe, HE⟩, ⟨%ft, %hft, HT⟩, ⟨%d2, %f2, -, H2⟩, ⟨%d3, %f3, -, H3⟩, Hk⟩
    obtain rfl := harg3.eq_unread hf1; obtain rfl := harg6.eq_unread hfz; obtain rfl := harg7.eq_unread hfe; obtain rfl := harg8.eq_unread hft
    sl_exec (disch := first | exact hA | exact hB | exact hC)
    sl_step
    iapply Hk
    isplitl [H1]
    · iexists _; isplitr; · ipureintro; exact harg3.read_unread _
      iexact H1
    isplitl [HZ]
    · iexists _; isplitr; · ipureintro; exact harg6.read_unread _
      iexact HZ
    isplitl [HE]; · iexists _; iexact HE
    isplitl [HT]
    · iexists _; isplitr; · ipureintro; exact harg8.read_unread _
      iexact HT
    isplitl [H2]; · iexists _; iexact H2
    iexists _; iexact H3

end Cert.Kernel.Fr

end
-- ==== Proof.KFrame.lean ====
/-
  What the three scratch buffers and the two output blocks hold after every grid point, the proof data of
  the pipeline, and the body's obligation at every point, at any float instance. The scratch buffers are carried
  from point to point: the normalised resident rows are written at k = 0 and only read afterwards, the running
  sums are rewritten at every point, the running triangle sum at the points with k < 4; the output blocks
  are written at k = 15 only and are idle elsewhere.
-/
import proofs.«139039_j44513041056397_2_alg».proof.Proof.KRunA
import proofs.«139039_j44513041056397_2_alg».proof.Proof.KRunB
import proofs.«139039_j44513041056397_2_alg».proof.Proof.KRunC
import proofs.«139039_j44513041056397_2_alg».proof.Proof.KRunD

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's pieces cover the buffer they are stored into, and what they leave there -/

/-- The pieces of sZ in case A tile the whole buffer. -/
theorem cov_sZ_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) (y : S1024x1024.Idx) :
    ∃ pc ∈ (runA c i arg2 harg2 arg3 harg3 arg4 harg4 arg5 harg5 arg6 harg6 arg7 harg7 arg8 harg8 hA hB hC x0 x1).1, y ∈ pc.1.set :=
  View.cover_of_tiledL (runA c i arg2 harg2 arg3 harg3 arg4 harg4 arg5 harg5 arg6 harg6 arg7 harg7 arg8 harg8 hA hB hC x0 x1).1 S256x1024.size (by sl_kernel_rfl) y

/-- What the case leaves there (the normalised resident rows after the reset point): its pieces read back. -/
def sZ_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) : Vec F S1024x1024 .bf16 :=
  VZ.read (Elt F) (VZ.writes (Elt F) VZ.junk (runA c i arg2 harg2 arg3 harg3 arg4 harg4 arg5 harg5 arg6 harg6 arg7 harg7 arg8 harg8 hA hB hC x0 x1).1)

/-- The pieces of sE in case A tile the whole buffer. -/
theorem cov_sE_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) (y : S1024x1.Idx) :
    ∃ pc ∈ (runA c i arg2 harg2 arg3 harg3 arg4 harg4 arg5 harg5 arg6 harg6 arg7 harg7 arg8 harg8 hA hB hC x0 x1).2.1, y ∈ pc.1.set :=
  View.cover_of_tiledL (runA c i arg2 harg2 arg3 harg3 arg4 harg4 arg5 harg5 arg6 harg6 arg7 harg7 arg8 harg8 hA hB hC x0 x1).2.1 S1024x1.size (by sl_kernel_rfl) y

/-- What the case leaves there (the running sums after the reset point): its pieces read back. -/
def sE_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) : Vec F S1024x1 .f32 :=
  VE.read (Elt F) (VE.writes (Elt F) VE.junk (runA c i arg2 harg2 arg3 harg3 arg4 harg4 arg5 harg5 arg6 harg6 arg7 harg7 arg8 harg8 hA hB hC x0 x1).2.1)

/-- The pieces of sT in case A tile the whole buffer. -/
theorem cov_sT_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) (y : S8x128.Idx) :
    ∃ pc ∈ (runA c i arg2 harg2 arg3 harg3 arg4 harg4 arg5 harg5 arg6 harg6 arg7 harg7 arg8 harg8 hA hB hC x0 x1).2.2.1, y ∈ pc.1.set :=
  View.cover_of_tiledL (runA c i arg2 harg2 arg3 harg3 arg4 harg4 arg5 harg5 arg6 harg6 arg7 harg7 arg8 harg8 hA hB hC x0 x1).2.2.1 S8x128.size (by sl_kernel_rfl) y

/-- What the case leaves there (the running triangle sum after the reset point): its pieces read back. -/
def sT_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) : Vec F S8x128 .f32 :=
  VT.read (Elt F) (VT.writes (Elt F) VT.junk (runA c i arg2 harg2 arg3 harg3 arg4 harg4 arg5 harg5 arg6 harg6 arg7 harg7 arg8 harg8 hA hB hC x0 x1).2.2.1)

/-- The pieces of sE in case B tile the whole buffer. -/
theorem cov_sE_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) (y : S1024x1.Idx) :
    ∃ pc ∈ (runB c i arg2 harg2 arg3 harg3 arg4 harg4 arg5 harg5 arg6 harg6 arg7 harg7 arg8 harg8 hA hB hC x1 xz xe xt).1, y ∈ pc.1.set :=
  View.cover_of_tiledL (runB c i arg2 harg2 arg3 harg3 arg4 harg4 arg5 harg5 arg6 harg6 arg7 harg7 arg8 harg8 hA hB hC x1 xz xe xt).1 S1024x1.size (by sl_kernel_rfl) y

/-- What the case leaves there (the running sums after a point with 1 ≤ k < 4): its pieces read back. -/
def sE_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) : Vec F S1024x1 .f32 :=
  VE.read (Elt F) (VE.writes (Elt F) VE.junk (runB c i arg2 harg2 arg3 harg3 arg4 harg4 arg5 harg5 arg6 harg6 arg7 harg7 arg8 harg8 hA hB hC x1 xz xe xt).1)

/-- The pieces of sT in case B tile the whole buffer. -/
theorem cov_sT_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) (y : S8x128.Idx) :
    ∃ pc ∈ (runB c i arg2 harg2 arg3 harg3 arg4 harg4 arg5 harg5 arg6 harg6 arg7 harg7 arg8 harg8 hA hB hC x1 xz xe xt).2.1, y ∈ pc.1.set :=
  View.cover_of_tiledL (runB c i arg2 harg2 arg3 harg3 arg4 harg4 arg5 harg5 arg6 harg6 arg7 harg7 arg8 harg8 hA hB hC x1 xz xe xt).2.1 S8x128.size (by sl_kernel_rfl) y

/-- What the case leaves there (the running triangle sum after a point with 1 ≤ k < 4): its pieces read back. -/
def sT_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) : Vec F S8x128 .f32 :=
  VT.read (Elt F) (VT.writes (Elt F) VT.junk (runB c i arg2 harg2 arg3 harg3 arg4 harg4 arg5 harg5 arg6 harg6 arg7 harg7 arg8 harg8 hA hB hC x1 xz xe xt).2.1)

/-- The pieces of sE in case C tile the whole buffer. -/
theorem cov_sE_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : ¬condC i)
    (x1 : Vec F S512x1024 .f32) (xz : Vec F S1024x1024 .bf16) (xe : Vec F S1024x1 .f32) (y : S1024x1.Idx) :
    ∃ pc ∈ (runC c i arg2 harg2 arg3 harg3 arg4 harg4 arg5 harg5 arg6 harg6 arg7 harg7 arg8 harg8 hA hB hC x1 xz xe).1, y ∈ pc.1.set :=
  View.cover_of_tiledL (runC c i arg2 harg2 arg3 harg3 arg4 harg4 arg5 harg5 arg6 harg6 arg7 harg7 arg8 harg8 hA hB hC x1 xz xe).1 S1024x1.size (by sl_kernel_rfl) y

/-- What the case leaves there (the running sums after a point with 4 ≤ k < 15): its pieces read back. -/
def sE_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : ¬condC i)
    (x1 : Vec F S512x1024 .f32) (xz : Vec F S1024x1024 .bf16) (xe : Vec F S1024x1 .f32) : Vec F S1024x1 .f32 :=
  VE.read (Elt F) (VE.writes (Elt F) VE.junk (runC c i arg2 harg2 arg3 harg3 arg4 harg4 arg5 harg5 arg6 harg6 arg7 harg7 arg8 harg8 hA hB hC x1 xz xe).1)

/-- The pieces of sE in case D tile the whole buffer. -/
theorem cov_sE_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) (y : S1024x1.Idx) :
    ∃ pc ∈ (runD c i arg2 harg2 arg3 harg3 arg4 harg4 arg5 harg5 arg6 harg6 arg7 harg7 arg8 harg8 hA hB hC x1 xz xe xt).1, y ∈ pc.1.set :=
  View.cover_of_tiledL (runD c i arg2 harg2 arg3 harg3 arg4 harg4 arg5 harg5 arg6 harg6 arg7 harg7 arg8 harg8 hA hB hC x1 xz xe xt).1 S1024x1.size (by sl_kernel_rfl) y

/-- What the case leaves there (the running sums after the last point of a row block): its pieces read back. -/
def sE_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) : Vec F S1024x1 .f32 :=
  VE.read (Elt F) (VE.writes (Elt F) VE.junk (runD c i arg2 harg2 arg3 harg3 arg4 harg4 arg5 harg5 arg6 harg6 arg7 harg7 arg8 harg8 hA hB hC x1 xz xe xt).1)

/-- The pieces of o2 in case D tile the whole buffer. -/
theorem cov_o2_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) (y : S1024x1.Idx) :
    ∃ pc ∈ (runD c i arg2 harg2 arg3 harg3 arg4 harg4 arg5 harg5 arg6 harg6 arg7 harg7 arg8 harg8 hA hB hC x1 xz xe xt).2.1, y ∈ pc.1.set :=
  View.cover_of_tiledL (runD c i arg2 harg2 arg3 harg3 arg4 harg4 arg5 harg5 arg6 harg6 arg7 harg7 arg8 harg8 hA hB hC x1 xz xe xt).2.1 S1024x1.size (by sl_kernel_rfl) y

/-- What the case leaves there (the first output's block at the last point of a row block): its pieces read back. -/
def o2_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) : Vec F S1024x1 .f32 :=
  VO2.read (Elt F) (VO2.writes (Elt F) VO2.junk (runD c i arg2 harg2 arg3 harg3 arg4 harg4 arg5 harg5 arg6 harg6 arg7 harg7 arg8 harg8 hA hB hC x1 xz xe xt).2.1)

/-- The pieces of o3 in case D tile the whole buffer. -/
theorem cov_o3_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) (y : S1x8x128.Idx) :
    ∃ pc ∈ (runD c i arg2 harg2 arg3 harg3 arg4 harg4 arg5 harg5 arg6 harg6 arg7 harg7 arg8 harg8 hA hB hC x1 xz xe xt).2.2.1, y ∈ pc.1.set :=
  View.cover_of_tiledL (runD c i arg2 harg2 arg3 harg3 arg4 harg4 arg5 harg5 arg6 harg6 arg7 harg7 arg8 harg8 hA hB hC x1 xz xe xt).2.2.1 S1x8x128.size (by sl_kernel_rfl) y

/-- What the case leaves there (the second output's block at the last point of a row block): its pieces read back. -/
def o3_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) : Vec F S1x8x128 .f32 :=
  VO3.read (Elt F) (VO3.writes (Elt F) VO3.junk (runD c i arg2 harg2 arg3 harg3 arg4 harg4 arg5 harg5 arg6 harg6 arg7 harg7 arg8 harg8 hA hB hC x1 xz xe xt).2.2.1)

/-! ## Point by point -/

/-- An output block at a point where the body does not store it: nothing consults it. -/
def rest2 : Vec F S1024x1 .f32 := VO2.read (Elt F) (VO2.writes (Elt F) VO2.junk [])
def rest3 : Vec F S1x8x128 .f32 := VO3.read (Elt F) (VO3.writes (Elt F) VO3.junk [])

/-- The five buffers' contents after a point. -/
structure Outs (F : FTy → Type) [FloatOps F] where
  o2 : Vec F S1024x1 .f32
  o3 : Vec F S1x8x128 .f32
  z : Vec F S1024x1024 .bf16
  e : Vec F S1024x1 .f32
  t : Vec F S8x128 .f32

/-- THE ACCUMULATION: after the body at position `n`, by the case the position is in (its second grid
    coordinate is `n % 16`), a carried buffer the case does not store into at what the position before left. -/
def outsAt (c : Dev nD) : (n : ℕ) → n < cfg0.N → Outs F
  | 0, hn =>
    have hA : condA (grid0.coords ⟨0, hn⟩) := (hcondA ⟨0, hn⟩).mpr (Nat.zero_mod _)
    have hB : condB (grid0.coords ⟨0, hn⟩) := (hcondB ⟨0, hn⟩).mpr (by show 0 % 16 < 4; omega)
    have hC : ¬condC (grid0.coords ⟨0, hn⟩) := fun h => (fun h => by (try dsimp only at h); omega) ((hcondC ⟨0, hn⟩).mp h)
    { o2 := rest2, o3 := rest3,
      z := sZ_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scZ (Memref.isWhole_whole _) scE (Memref.isWhole_whole _) scT (Memref.isWhole_whole _) hA hB hC (iblk m c 0 ⟨0, hn⟩) (iblk m c 1 ⟨0, hn⟩),
      e := sE_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scZ (Memref.isWhole_whole _) scE (Memref.isWhole_whole _) scT (Memref.isWhole_whole _) hA hB hC (iblk m c 0 ⟨0, hn⟩) (iblk m c 1 ⟨0, hn⟩),
      t := sT_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scZ (Memref.isWhole_whole _) scE (Memref.isWhole_whole _) scT (Memref.isWhole_whole _) hA hB hC (iblk m c 0 ⟨0, hn⟩) (iblk m c 1 ⟨0, hn⟩) }
  | n + 1, hn =>
    if h0 : (n + 1) % 16 = 0 then
      have hA : condA (grid0.coords ⟨n + 1, hn⟩) := (hcondA ⟨n + 1, hn⟩).mpr h0
      have hB : condB (grid0.coords ⟨n + 1, hn⟩) := (hcondB ⟨n + 1, hn⟩).mpr (by show (n + 1) % 16 < 4; omega)
      have hC : ¬condC (grid0.coords ⟨n + 1, hn⟩) := fun h => (fun h => by (try dsimp only at h); omega) ((hcondC ⟨n + 1, hn⟩).mp h)
      { o2 := rest2, o3 := rest3,
        z := sZ_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 0 ⟨n + 1, hn⟩) (iblk m c 1 ⟨n + 1, hn⟩),
        e := sE_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 0 ⟨n + 1, hn⟩) (iblk m c 1 ⟨n + 1, hn⟩),
        t := sT_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 0 ⟨n + 1, hn⟩) (iblk m c 1 ⟨n + 1, hn⟩) }
    else if h1 : (n + 1) % 16 < 4 then
      have hA : ¬condA (grid0.coords ⟨n + 1, hn⟩) := fun h => h0 ((hcondA ⟨n + 1, hn⟩).mp h)
      have hB : condB (grid0.coords ⟨n + 1, hn⟩) := (hcondB ⟨n + 1, hn⟩).mpr h1
      have hC : ¬condC (grid0.coords ⟨n + 1, hn⟩) := fun h => (fun h => by (try dsimp only at h); omega) ((hcondC ⟨n + 1, hn⟩).mp h)
      { o2 := rest2, o3 := rest3,
        z := (outsAt c n (Nat.lt_of_succ_lt hn)).z,
        e := sE_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t,
        t := sT_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t }
    else if h2 : (n + 1) % 16 = 15 then
      have hA : ¬condA (grid0.coords ⟨n + 1, hn⟩) := fun h => h0 ((hcondA ⟨n + 1, hn⟩).mp h)
      have hB : ¬condB (grid0.coords ⟨n + 1, hn⟩) := fun h => h1 ((hcondB ⟨n + 1, hn⟩).mp h)
      have hC : condC (grid0.coords ⟨n + 1, hn⟩) := (hcondC ⟨n + 1, hn⟩).mpr h2
      { o2 := o2_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t,
        o3 := o3_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t,
        z := (outsAt c n (Nat.lt_of_succ_lt hn)).z,
        e := sE_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t,
        t := (outsAt c n (Nat.lt_of_succ_lt hn)).t }
    else
      have hA : ¬condA (grid0.coords ⟨n + 1, hn⟩) := fun h => h0 ((hcondA ⟨n + 1, hn⟩).mp h)
      have hB : ¬condB (grid0.coords ⟨n + 1, hn⟩) := fun h => h1 ((hcondB ⟨n + 1, hn⟩).mp h)
      have hC : ¬condC (grid0.coords ⟨n + 1, hn⟩) := fun h => h2 ((hcondC ⟨n + 1, hn⟩).mp h)
      { o2 := rest2, o3 := rest3,
        z := (outsAt c n (Nat.lt_of_succ_lt hn)).z,
        e := sE_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e,
        t := (outsAt c n (Nat.lt_of_succ_lt hn)).t }

/-! ## The accumulation at a point of each case -/

theorem outsAt_A (c : Dev nD) (t : Fin cfg0.N) (h0 : t.val % 16 = 0)
    (hA : condA (grid0.coords t)) (hB : condB (grid0.coords t)) (hC : ¬condC (grid0.coords t)) :
    outsAt m c t.val t.isLt =
      { o2 := rest2, o3 := rest3,
        z := sZ_A c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 0 t) (iblk m c 1 t),
        e := sE_A c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 0 t) (iblk m c 1 t),
        t := sT_A c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 0 t) (iblk m c 1 t) } := by
  obtain ⟨n, hn⟩ := t
  cases n with
  | zero => exact rfl
  | succ n => exact (dif_pos h0).trans rfl

theorem outsAt_B (c : Dev nD) (t : Fin cfg0.N) (h0 : ¬t.val % 16 = 0) (h1 : t.val % 16 < 4)
    (hA : ¬condA (grid0.coords t)) (hB : condB (grid0.coords t)) (hC : ¬condC (grid0.coords t)) :
    outsAt m c t.val t.isLt =
      { o2 := rest2, o3 := rest3,
        z := (outsAt m c (t.val - 1) (Nat.lt_of_le_of_lt (Nat.sub_le _ _) t.isLt)).z,
        e := sE_B c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t,
        t := sT_B c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t } := by
  obtain ⟨n, hn⟩ := t
  cases n with
  | zero => exact absurd (Nat.zero_mod _) h0
  | succ n => exact (dif_neg h0).trans ((dif_pos h1).trans rfl)

theorem outsAt_D (c : Dev nD) (t : Fin cfg0.N) (h0 : ¬t.val % 16 = 0) (h1 : ¬t.val % 16 < 4) (h2 : t.val % 16 = 15)
    (hA : ¬condA (grid0.coords t)) (hB : ¬condB (grid0.coords t)) (hC : condC (grid0.coords t)) :
    outsAt m c t.val t.isLt =
      { o2 := o2_D c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t,
        o3 := o3_D c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t,
        z := (outsAt m c (t.val - 1) (Nat.lt_of_le_of_lt (Nat.sub_le _ _) t.isLt)).z,
        e := sE_D c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t,
        t := (outsAt m c (t.val - 1) (Nat.lt_of_le_of_lt (Nat.sub_le _ _) t.isLt)).t } := by
  obtain ⟨n, hn⟩ := t
  cases n with
  | zero => exact absurd (Nat.zero_mod _) h0
  | succ n => exact (dif_neg h0).trans ((dif_neg h1).trans ((dif_pos h2).trans rfl))

theorem outsAt_C (c : Dev nD) (t : Fin cfg0.N) (h0 : ¬t.val % 16 = 0) (h1 : ¬t.val % 16 < 4) (h2 : ¬t.val % 16 = 15)
    (hA : ¬condA (grid0.coords t)) (hB : ¬condB (grid0.coords t)) (hC : ¬condC (grid0.coords t)) :
    outsAt m c t.val t.isLt =
      { o2 := rest2, o3 := rest3,
        z := (outsAt m c (t.val - 1) (Nat.lt_of_le_of_lt (Nat.sub_le _ _) t.isLt)).z,
        e := sE_C c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e,
        t := (outsAt m c (t.val - 1) (Nat.lt_of_le_of_lt (Nat.sub_le _ _) t.isLt)).t } := by
  obtain ⟨n, hn⟩ := t
  cases n with
  | zero => exact absurd (Nat.zero_mod _) h0
  | succ n => exact (dif_neg h0).trans ((dif_neg h1).trans ((dif_neg h2).trans rfl))

/-! ## The region's invariant -/

/-- Before position `n`: at the start what the launch hands over (every scratch at anything); afterwards the three
    scratch buffers at what the position before left, and the generator register at some state. -/
def PhiS (c : Dev nD) : (n : ℕ) → n ≤ cfg0.N → sProp 𝕄
  | 0, _ => Pipeline.ΦA spec0 c
  | n + 1, hn => iprop(iprop(owns (c : Thread nD τ) scZ fullShare ((outsAt m c n hn).z) ∗ owns (c : Thread nD τ) scE fullShare ((outsAt m c n hn).e) ∗ owns (c : Thread nD τ) scT fullShare ((outsAt m c n hn).t)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scZ fullShare ((outsAt m c n hn).z) ∗ owns (c : Thread nD τ) scE fullShare ((outsAt m c n hn).e) ∗ owns (c : Thread nD τ) scT fullShare ((outsAt m c n hn).t)) ∗ (∃ r, prngReg c r)) := rfl

theorem PhiS_pos (c : Dev nD) (n : ℕ) (h : n ≤ cfg0.N) (hz : n ≠ 0) :
    PhiS m c n h = iprop(iprop(owns (c : Thread nD τ) scZ fullShare ((outsAt m c (n - 1) (by omega)).z) ∗ owns (c : Thread nD τ) scE fullShare ((outsAt m c (n - 1) (by omega)).e) ∗ owns (c : Thread nD τ) scT fullShare ((outsAt m c (n - 1) (by omega)).t)) ∗ (∃ r, prngReg c r)) := by
  cases n with
  | zero => exact absurd rfl hz
  | succ n => rfl

/-! ## The proof data -/

/-- The pipeline's proof data on core `c`: the arrays as the region finds them; after the body each input's buffer at
    its block, each output's at the accumulation's component; the invariant above; nothing owed; the one argument
    array shared between the two input windows in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).o2
    | ⟨3, _⟩ => (outsAt m c t.val t.isLt).o3
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).o2 := by dsimp only [dats]
theorem after3 (c : Dev nD) (t : Fin cfg0.N) : (dats m 0 c).after 3 t = (outsAt m c t.val t.isLt).o3 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the point's second coordinate selects the case; the input windows' buffers hold their
    blocks; the invariant hands over the scratch buffers at what the point before left (at anything at the very
    first point) and takes them back at this point's contents; an output block is stored only when k = 15 and is
    handed back untouched otherwise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 32 := lt_of_lt_of_eq t.isLt (show cfg0.N = 32 from N_0)
  by_cases h0 : t.val % 16 = 0
  · have hA : condA (grid0.coords t) := (hcondA t).mpr h0
    have hB : condB (grid0.coords t) := (hcondB t).mpr (by omega)
    have hC : ¬condC (grid0.coords t) := fun h => by have := (hcondC t).mp h; omega
    rw [Dat.leavesExact_idle (dats m 0 c) 2 t (idle2 t hC) (noFlush2 t hC)]
    rw [Dat.leavesExact_idle (dats m 0 c) 3 t (idle3 t hC) (noFlush3 t hC)]
    rw [outsAt_A m c t h0 hA hB hC]
    unfold sZ_A sE_A sT_A; (try dsimp only)
    by_cases hz : t.val = 0
    ·
      rw [PhiS_castSucc m c t, PhiS_zero m c _ _ hz, PhiA0_eq]
      iintro ⟨⟨⟨HZ, HE, HT⟩, Hg⟩, Ho, ⟨%d0, H0⟩, ⟨%d1, H1⟩, H2, H3⟩
      iapply ((runA c (grid0.coords t) _ _ _ _ _ _ _ _ _ _ _ _ _ _ hA hB hC (iblk m c 0 t) (iblk m c 1 t)).2.2.2 Set.univ _)
      isplitl [H0]; · iexact H0
      isplitl [H1]; · iexact H1
      isplitl [HZ]; · iexact HZ
      isplitl [HE]; · iexact HE
      isplitl [HT]; · iexact HT
      iintro ⟨H0, H1, ⟨%fz, HZ⟩, ⟨%fe, HE⟩, ⟨%ft, HT⟩⟩
      isplitl [HZ HE HT Hg]
      · isplitr [Hg]
        · isplitl [HZ]
          · unfold owns; iexists _; isplitr
            swap; · iexact HZ
            ipureintro; exact View.read_writes_of_cover _ _ _ _ _ (cov_sZ_A c _ _ _ _ _ _ _ _ _ _ _ _ _ _ _ hA hB hC _ _)
          isplitl [HE]
          · unfold owns; iexists _; isplitr
            swap; · iexact HE
            ipureintro; exact View.read_writes_of_cover _ _ _ _ _ (cov_sE_A c _ _ _ _ _ _ _ _ _ _ _ _ _ _ _ hA hB hC _ _)
          unfold owns; iexists _; isplitr
          swap; · iexact HT
          ipureintro; exact View.read_writes_of_cover _ _ _ _ _ (cov_sT_A c _ _ _ _ _ _ _ _ _ _ _ _ _ _ _ hA hB hC _ _)
        iexact Hg
      isplitl [Ho]; · iexact Ho
      isplitl [H0]; · iexact H0
      isplitl [H1]; · iexact H1
      isplitl [H2]; · iexact H2
      iexact H3
    ·
      rw [PhiS_castSucc m c t, PhiS_pos m c _ _ hz]
      iintro ⟨⟨⟨HZ, HE, HT⟩, Hg⟩, Ho, ⟨%d0, H0⟩, ⟨%d1, H1⟩, H2, H3⟩
      iapply ((runA c (grid0.coords t) _ _ _ _ _ _ _ _ _ _ _ _ _ _ hA hB hC (iblk m c 0 t) (iblk m c 1 t)).2.2.2 Set.univ _)
      isplitl [H0]; · iexact H0
      isplitl [H1]; · iexact H1
      isplitl [HZ]; · iexists _; iexact HZ
      isplitl [HE]; · iexists _; iexact HE
      isplitl [HT]; · iexists _; iexact HT
      iintro ⟨H0, H1, ⟨%fz, HZ⟩, ⟨%fe, HE⟩, ⟨%ft, HT⟩⟩
      isplitl [HZ HE HT Hg]
      · isplitr [Hg]
        · isplitl [HZ]
          · unfold owns; iexists _; isplitr
            swap; · iexact HZ
            ipureintro; exact View.read_writes_of_cover _ _ _ _ _ (cov_sZ_A c _ _ _ _ _ _ _ _ _ _ _ _ _ _ _ hA hB hC _ _)
          isplitl [HE]
          · unfold owns; iexists _; isplitr
            swap; · iexact HE
            ipureintro; exact View.read_writes_of_cover _ _ _ _ _ (cov_sE_A c _ _ _ _ _ _ _ _ _ _ _ _ _ _ _ hA hB hC _ _)
          unfold owns; iexists _; isplitr
          swap; · iexact HT
          ipureintro; exact View.read_writes_of_cover _ _ _ _ _ (cov_sT_A c _ _ _ _ _ _ _ _ _ _ _ _ _ _ _ hA hB hC _ _)
        iexact Hg
      isplitl [Ho]; · iexact Ho
      isplitl [H0]; · iexact H0
      isplitl [H1]; · iexact H1
      isplitl [H2]; · iexact H2
      iexact H3
  · have hz : t.val ≠ 0 := fun h => h0 (by rw [h])
    have hA : ¬condA (grid0.coords t) := fun h => h0 ((hcondA t).mp h)
    by_cases h1 : t.val % 16 < 4
    · have hB : condB (grid0.coords t) := (hcondB t).mpr h1
      have hC : ¬condC (grid0.coords t) := fun h => by have := (hcondC t).mp h; omega
      rw [Dat.leavesExact_idle (dats m 0 c) 2 t (idle2 t hC) (noFlush2 t hC)]
      rw [Dat.leavesExact_idle (dats m 0 c) 3 t (idle3 t hC) (noFlush3 t hC)]
      rw [outsAt_B m c t h0 h1 hA hB hC]
      unfold sE_B sT_B; (try dsimp only)
      rw [PhiS_castSucc m c t, PhiS_pos m c _ _ hz]
      iintro ⟨⟨⟨HZ, HE, HT⟩, Hg⟩, Ho, ⟨%d0, H0⟩, ⟨%d1, H1⟩, H2, H3⟩
      iapply ((runB c (grid0.coords t) _ _ _ _ _ _ _ _ _ _ _ _ _ _ hA hB hC (iblk m c 1 t) _ _ _).2.2 Set.univ _)
      isplitl [H1]; · iexact H1
      isplitl [HZ]; · iexact HZ
      isplitl [HE]; · iexact HE
      isplitl [HT]; · iexact HT
      iintro ⟨H1, HZ, ⟨%fe, HE⟩, ⟨%ft, HT⟩⟩
      isplitl [HZ HE HT Hg]
      · isplitr [Hg]
        · isplitl [HZ]; · iexact HZ
          isplitl [HE]
          · unfold owns; iexists _; isplitr
            swap; · iexact HE
            ipureintro; exact View.read_writes_of_cover _ _ _ _ _ (cov_sE_B c _ _ _ _ _ _ _ _ _ _ _ _ _ _ _ hA hB hC _ _ _ _)
          unfold owns; iexists _; isplitr
          swap; · iexact HT
          ipureintro; exact View.read_writes_of_cover _ _ _ _ _ (cov_sT_B c _ _ _ _ _ _ _ _ _ _ _ _ _ _ _ hA hB hC _ _ _ _)
        iexact Hg
      isplitl [Ho]; · iexact Ho
      isplitl [H0]; · iexact H0
      isplitl [H1]; · iexact H1
      isplitl [H2]; · iexact H2
      iexact H3
    · have hB : ¬condB (grid0.coords t) := fun h => h1 ((hcondB t).mp h)
      by_cases h2 : t.val % 16 = 15
      · have hC : condC (grid0.coords t) := (hcondC t).mpr h2
        rw [show (dats m 0 c).leavesExact 2 t = owns (c : Thread nD τ) (ms2 t) fullShare ((dats m 0 c).after 2 t) from by
          unfold Dat.leavesExact; rw [live2 t hC], after2]
        rw [show (dats m 0 c).leavesExact 3 t = owns (c : Thread nD τ) (ms3 t) fullShare ((dats m 0 c).after 3 t) from by
          unfold Dat.leavesExact; rw [live3 t hC], after3]
        rw [outsAt_D m c t h0 h1 h2 hA hB hC]
        unfold sE_D o2_D o3_D; (try dsimp only)
        rw [PhiS_castSucc m c t, PhiS_pos m c _ _ hz]
        iintro ⟨⟨⟨HZ, HE, HT⟩, Hg⟩, Ho, ⟨%d0, H0⟩, ⟨%d1, H1⟩, ⟨%d2, H2⟩, ⟨%d3, H3⟩⟩
        iapply ((runD c (grid0.coords t) _ _ _ _ _ _ _ _ _ _ _ _ _ _ hA hB hC (iblk m c 1 t) _ _ _).2.2.2 Set.univ _)
        isplitl [H1]; · iexact H1
        isplitl [HZ]; · iexact HZ
        isplitl [HE]; · iexact HE
        isplitl [HT]; · iexact HT
        isplitl [H2]; · iexists _; iexact H2
        isplitl [H3]; · iexists _; iexact H3
        iintro ⟨H1, HZ, ⟨%fe, HE⟩, HT, ⟨%f2, H2⟩, ⟨%f3, H3⟩⟩
        isplitl [HZ HE HT Hg]
        · isplitr [Hg]
          · isplitl [HZ]; · iexact HZ
            isplitl [HE]
            · unfold owns; iexists _; isplitr
              swap; · iexact HE
              ipureintro; exact View.read_writes_of_cover _ _ _ _ _ (cov_sE_D c _ _ _ _ _ _ _ _ _ _ _ _ _ _ _ hA hB hC _ _ _ _)
            iexact HT
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cov_o2_D c _ _ _ _ _ _ _ _ _ _ _ _ _ _ _ hA hB hC _ _ _ _)
        unfold owns; iexists _; isplitr
        swap; · iexact H3
        ipureintro; exact View.read_writes_of_cover _ _ _ _ _ (cov_o3_D c _ _ _ _ _ _ _ _ _ _ _ _ _ _ _ hA hB hC _ _ _ _)
      · have hC : ¬condC (grid0.coords t) := fun h => h2 ((hcondC t).mp h)
        rw [Dat.leavesExact_idle (dats m 0 c) 2 t (idle2 t hC) (noFlush2 t hC)]
        rw [Dat.leavesExact_idle (dats m 0 c) 3 t (idle3 t hC) (noFlush3 t hC)]
        rw [outsAt_C m c t h0 h1 h2 hA hB hC]
        unfold sE_C; (try dsimp only)
        rw [PhiS_castSucc m c t, PhiS_pos m c _ _ hz]
        iintro ⟨⟨⟨HZ, HE, HT⟩, Hg⟩, Ho, ⟨%d0, H0⟩, ⟨%d1, H1⟩, H2, H3⟩
        iapply ((runC c (grid0.coords t) _ _ _ _ _ _ _ _ _ _ _ _ _ _ hA hB hC (iblk m c 1 t) _ _).2 Set.univ _)
        isplitl [H1]; · iexact H1
        isplitl [HZ]; · iexact HZ
        isplitl [HE]; · iexact HE
        iintro ⟨H1, HZ, ⟨%fe, HE⟩⟩
        isplitl [HZ HE HT Hg]
        · isplitr [Hg]
          · isplitl [HZ]; · iexact HZ
            isplitl [HE]
            · unfold owns; iexists _; isplitr
              swap; · iexact HE
              ipureintro; exact View.read_writes_of_cover _ _ _ _ _ (cov_sE_C c _ _ _ _ _ _ _ _ _ _ _ _ _ _ _ hA hB hC _ _ _)
            iexact HT
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HZ, HE, HT⟩, Hg⟩
  isplitl [HZ HE HT]
  · isplitl [HZ]; · iexists _; iexact HZ
    isplitl [HE]; · iexists _; iexact HE
    iexists _; iexact HT
  iexact Hg

theorem hout (c : Dev nD) : (dats m 0 c).Φ (Fin.last cfg0.N) ⊢ Pipeline.ΦA spec0 c :=
  Phi_out m c _ (by rw [Fin.val_last]; have : cfg0.N = 32 := N_0; omega)

end Cert.Kernel.Fr

end
-- ==== Proof.KLaunch.lean ====
/-
  The launch: @main is the region followed by twenty-one host lines. The two input windows read ONE argument
  array, so the array is dealt to them in two half shares at the region's entry and is never touched again:
  the host lines read the two results and the buffers that bypass the region only. The run ends with every
  window's array at the pipeline's account of it and every bypassing buffer at the host lines' value.
-/
import proofs.«139039_j44513041056397_2_alg».proof.Proof.KFrame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef restRefs unscopedRest chain)

/-! ## The argument array dealt to the two input windows -/

theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [bigSep_eq_bigSepL_of_eq [main_arg0, main_v0_0, main_v0_1] (by decide) (by decide)]
  simp only [bigSepL_cons_cons, bigSepL_singleton]
  rw [(Memref.isWhole_whole (sig := sig) (κ := .tc) main_arg0).set_eq_univ, (Memref.isWhole_whole (sig := sig) (κ := .tc) main_v0_0).set_eq_univ, (Memref.isWhole_whole (sig := sig) (κ := .tc) main_v0_1).set_eq_univ]
  show iprop((((c.tc : Thread nD τ).loc main_arg0) ↦{fullShare} V m c main_arg0) ∗ (((c.tc : Thread nD τ).loc main_v0_0) ↦{fullShare} V m c main_v0_0) ∗ (((c.tc : Thread nD τ).loc main_v0_1) ↦{fullShare} V m c main_v0_1))
    ⊢ iprop((((c.tc : Thread nD τ).loc main_arg0) ↦{fullShare.left} V m c main_arg0) ∗ (((c.tc : Thread nD τ).loc main_arg0) ↦{fullShare.right} V m c main_arg0)
      ∗ (((c.tc : Thread nD τ).loc main_v0_0) ↦{fullShare} V m c main_v0_0) ∗ (((c.tc : Thread nD τ).loc main_v0_1) ↦{fullShare} V m c main_v0_1))
  iintro ⟨Ha, H2, H3⟩
  ihave Ha' := (pointsTo_share (PosShare.mem_left_op_right fullShare)).1 $$ Ha
  icases Ha' with ⟨Hl, Hr⟩
  isplitl [Hl]; · iexact Hl
  isplitl [Hr]; · iexact Hr
  isplitl [H2]; · iexact H2
  iexact H3

/-! ## The host lines after the region -/

/-- The buffers that bypass the region, and with the two results in front the buffers the host lines touch. -/
abbrev restL : List (Ref sig .tc) := [main_v1, main_v2, main_v3, main_cst, main_v4, main_cst_0, main_v5, main_v6, main_v7, main_v8, main_v9, main_c, main_v10, main_v11, main_v12, main_v13, main_cst_1, main_v14, main_v15, main_cst_2, main_v16]
abbrev tailL : List (Ref sig .tc) := main_v0_0 :: main_v0_1 :: restL
def tailS : Finset (DevRef τ sig) := tailL.toFinset.map ⟨Proc.devRef (sig := sig) .tc, Proc.devRef_injective _⟩

/-- The core's buffers when the region is left: each window's array at the pipeline's account of it, every other
    buffer as the region found it. -/
def Wexit (c : Dev nD) : Valuation τ sig (Elt F) :=
  Pipeline.withArrays spec0 c (V0 m c) (fun w => (dats m 0 c).arrAt w cfg0.N)
/-- And after the host lines. -/
def Wfin (c : Dev nD) : Valuation τ sig (Elt F) := StableHlo.after hostOps1 (Wexit m c)

/-- A window whose array no other window has: the exit contents there are that window's. -/
theorem withArrays_at (c : Dev nD) (Vv : Valuation τ sig (Elt F))
    (A : (w : Fin 4) → Buf (Elt F) ((spec0 w).arr.view.loc (c.tc : Thread nD τ))) (w : Fin 4)
    (hu : ∀ w', arrRef spec0 w' = arrRef spec0 w → w' = w) :
    Pipeline.withArrays spec0 c Vv A (Proc.devRef .tc (arrRef spec0 w)) = A w := by
  unfold Pipeline.withArrays
  have h : ∃ w', Proc.devRef .tc (arrRef spec0 w') = Proc.devRef (τ := τ) .tc (arrRef spec0 w) := ⟨w, rfl⟩
  rw [dif_pos h]
  suffices ∀ (w' : Fin 4) (e : Proc.devRef .tc (arrRef spec0 w') = Proc.devRef (τ := τ) .tc (arrRef spec0 w)),
      cast (congrArg (fun b' : DevRef τ sig => b'.ty.Contents (Elt F)) e) (A w') = A w from this _ h.choose_spec
  intro w' e
  obtain rfl : w' = w := hu w' (Proc.devRef_injective _ e)
  rfl

theorem Wexit_res0 (c : Dev nD) : Wexit m c (Proc.devRef .tc main_v0_0) = (dats m 0 c).arrAt 2 cfg0.N :=
  withArrays_at c _ _ 2 (by decide)
theorem Wexit_res1 (c : Dev nD) : Wexit m c (Proc.devRef .tc main_v0_1) = (dats m 0 c).arrAt 3 cfg0.N :=
  withArrays_at c _ _ 3 (by decide)
theorem Wexit_rest (c : Dev nD) (r : Ref sig .tc) (hr : r ∈ restL) : Wexit m c (Proc.devRef .tc r) = V m c r :=
  Pipeline.withArrays_of_ne spec0 c (V0 m c) _ r (by revert r; decide)

/-- A chain over a list depends on the elements' terms only. -/
theorem bigSepL_congr' {I : Type} {M : Type} [URA M] : ∀ (l : List I) (Φ Ψ : I → sProp M), (∀ i ∈ l, Φ i = Ψ i) → bigSepL l Φ = bigSepL l Ψ
  | [], _, _, _ => rfl
  | i :: l, Φ, Ψ, h => by
    rw [bigSepL_cons, bigSepL_cons, h i List.mem_cons_self, bigSepL_congr' l Φ Ψ fun j hj => h j (List.mem_cons_of_mem _ hj)]

/-- The buffers the host lines touch, held at a valuation, one by one. -/
theorem held_tail (c : Dev nD) (W : Valuation τ sig (Elt F)) :
    (StableHlo.held (c.tc : Thread nD τ) tailS W : sProp 𝕄)
      = bigSepL tailL fun r => (((c.tc : Thread nD τ).loc r) ↦{fullShare} W (Proc.devRef .tc r) : sProp 𝕄) := by
  unfold StableHlo.held tailS
  rw [bigSep_map, bigSep_eq_bigSepL tailL (by decide)]
  rfl

/-- The buffers that bypass the region, at contents `Vf`, one by one. -/
theorem rest_chain (c : Dev nD) (Vf : (b : Ref sig .tc) → Buf (Elt F) ((c : Thread nD τ).loc b)) :
    (unscopedRest (Ix := Unit) (Name := ℕ) (U := UR sig nD τ) (Lvl := ℕ) spec0 c Vf : sProp 𝕄)
      = bigSepL restL fun r => (((c.tc : Thread nD τ).loc r) ↦{fullShare} Vf r : sProp 𝕄) := by
  rw [unscopedRest0_eq]; rfl

/-- Every host line touches only those buffers, -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals
    intro b hb
    simp only [StableHlo.nullary_bufs, StableHlo.unary_bufs, StableHlo.binary_bufs, StableHlo.reshape_bufs, Finset.mem_insert, Finset.mem_singleton] at hb
    unfold tailS
    rcases hb with rfl | rfl | rfl <;> exact Finset.mem_map.mpr ⟨_, by decide, rfl⟩
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- and writes neither result of the region. -/
theorem tail_keeps (r : Ref sig .tc) (hr : r = main_v0_0 ∨ r = main_v0_1) :
    ∀ op ∈ (hostOps1 : List (HloOp τ sig (Elt F))), Proc.devRef .tc r ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton]
    rcases hr with rfl | rfl <;> exact StableHlo.devRef_ne_of_ne (by decide)

theorem tail_in (c : Dev nD) :
    iprop(((((c.tc : Thread nD τ).loc main_v0_0)) ↦{fullShare} (dats m 0 c).arrAt 2 cfg0.N) ∗ ((((c.tc : Thread nD τ).loc main_v0_1)) ↦{fullShare} (dats m 0 c).arrAt 3 cfg0.N)
        ∗ bigSepL restL fun r => ((((c.tc : Thread nD τ).loc r)) ↦{fullShare} V m c r : sProp 𝕄))
      ⊢ (StableHlo.held (c.tc : Thread nD τ) tailS (Wexit m c) : sProp 𝕄) := by
  rw [held_tail]
  show _ ⊢ iprop(((((c.tc : Thread nD τ).loc main_v0_0)) ↦{fullShare} Wexit m c (Proc.devRef .tc main_v0_0)) ∗ ((((c.tc : Thread nD τ).loc main_v0_1)) ↦{fullShare} Wexit m c (Proc.devRef .tc main_v0_1))
        ∗ bigSepL restL fun r => ((((c.tc : Thread nD τ).loc r)) ↦{fullShare} Wexit m c (Proc.devRef .tc r) : sProp 𝕄))
  rw [Wexit_res0, Wexit_res1, bigSepL_congr' restL (fun r => ((((c.tc : Thread nD τ).loc r)) ↦{fullShare} Wexit m c (Proc.devRef .tc r) : sProp 𝕄)) (fun r => ((((c.tc : Thread nD τ).loc r)) ↦{fullShare} V m c r : sProp 𝕄)) (fun r hr => by rw [Wexit_rest m c r hr])]

theorem tail_out (c : Dev nD) :
    (StableHlo.held (c.tc : Thread nD τ) tailS (Wfin m c) : sProp 𝕄)
      ⊢ iprop(((((c.tc : Thread nD τ).loc main_v0_0)) ↦{fullShare} (dats m 0 c).arrAt 2 cfg0.N) ∗ ((((c.tc : Thread nD τ).loc main_v0_1)) ↦{fullShare} (dats m 0 c).arrAt 3 cfg0.N)
        ∗ bigSepL restL fun r => ((((c.tc : Thread nD τ).loc r)) ↦{fullShare} Wfin m c (Proc.devRef .tc r) : sProp 𝕄)) := by
  rw [held_tail]
  show iprop(((((c.tc : Thread nD τ).loc main_v0_0)) ↦{fullShare} Wfin m c (Proc.devRef .tc main_v0_0)) ∗ ((((c.tc : Thread nD τ).loc main_v0_1)) ↦{fullShare} Wfin m c (Proc.devRef .tc main_v0_1))
        ∗ bigSepL restL fun r => ((((c.tc : Thread nD τ).loc r)) ↦{fullShare} Wfin m c (Proc.devRef .tc r) : sProp 𝕄)) ⊢ _
  rw [show Wfin m c (Proc.devRef .tc main_v0_0) = (dats m 0 c).arrAt 2 cfg0.N from
        (StableHlo.after_of_forall_not_mem _ _ (tail_keeps main_v0_0 (.inl rfl))).trans (Wexit_res0 m c),
      show Wfin m c (Proc.devRef .tc main_v0_1) = (dats m 0 c).arrAt 3 cfg0.N from
        (StableHlo.after_of_forall_not_mem _ _ (tail_keeps main_v0_1 (.inr rfl))).trans (Wexit_res1 m c)]

theorem Wfin_eq (c : Dev nD) : StableHlo.after ([hostOps1] : List (List (HloOp τ sig (Elt F)))).flatten (Wexit m c) = Wfin m c := by
  unfold Wfin; rw [List.flatten_cons, List.flatten_nil, List.append_nil]

/-- The host lines, from the region's exit: the argument array's two half shares pass untouched. -/
theorem htail (c : Dev nD) (Q' : PUnit → sProp 𝕄) :
    iprop((iprop((dats m 0 c).arrays ((dats m 0 c).arrAt · cfg0.N)
              ∗ unscopedRest (Ix := Unit) (Name := ℕ) (U := UR sig nD τ) (Lvl := ℕ) spec0 c (fun b => Wfin m c (Proc.devRef .tc b))) -∗ Q' ⟨⟩)
        ∗ boundary (c.tc : Thread nD τ) ∗ (dats m 0 c).arrays ((dats m 0 c).arrAt · cfg0.N)
        ∗ unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (chain [StableHlo.seq hostOps1]) Q' := by
  unfold Dat.arrays
  rw [bigSep_W0, rest_chain, rest_chain]
  rw [(Memref.isWhole_whole (sig := sig) (κ := .tc) main_arg0).set_eq_univ, (Memref.isWhole_whole (sig := sig) (κ := .tc) main_v0_0).set_eq_univ, (Memref.isWhole_whole (sig := sig) (κ := .tc) main_v0_1).set_eq_univ]
  iintro ⟨Hk, Hb, ⟨Ha0, Ha1, Ha2, Ha3⟩, HR⟩
  ihave HH := (tail_in m c) $$ [Ha2 Ha3 HR]
  · isplitl [Ha2]; · iexact Ha2
    isplitl [Ha3]; · iexact Ha3
    iexact HR
  iapply (Pipeline.wp_seqs_then (fun q => Cfg.toPCfg (Val := Elt F) (cfgs q)) defs₀ Variants.none c tailS [] [hostOps1] tail_sub tail_fresh (Wexit m c)) $$ [Hb HH]
  · isplitl [Hb] <;> iassumption
  iintro ⟨Hb, HH⟩
  rw [Pipeline.chain_nil, wp_pure, Wfin_eq]
  imodintro
  ihave HO := (tail_out m c) $$ HH
  icases HO with ⟨Ha2, Ha3, HR⟩
  iapply Hk
  isplitr [HR]
  · isplitl [Ha0]; · iexact Ha0
    isplitl [Ha1]; · iexact Ha1
    isplitl [Ha2]; · iexact Ha2
    iexact Ha3
  iexact HR

/-! ## The run -/

/-- Every weakly fair execution of @main terminates; it ends with every window's array at the pipeline's account
    of it and every buffer that bypasses the region at the host lines' value. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ restRefs sig spec0, r.2.mem ((c.tc : Thread nD τ).loc b) = Wfin m c (Proc.devRef .tc b)) := by
  classical
  exact Pipeline.θ_run_region_pf_tail (fun q => Cfg.toPCfg (Val := Elt F) (cfgs q)) (fun q => (cfgs q).toPCfg_adm) (dats m) () cellOf_inj 0
    winFacts₀0 (Pipeline.OwnSemFacts.none _) (Pipeline.PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (Pipeline.cells (Pipeline.pin (fun q => Cfg.toPCfg (Val := Elt F) (cfgs q)) fun q => (cfgs q).toPCfg_adm) cellOf_inj) (Pipeline.launchToks (Pipeline.pin (fun q => Cfg.toPCfg (Val := Elt F) (cfgs q)) fun q => (cfgs q).toPCfg_adm) cellOf_inj))
    (hu₀ := by
      iintro Hu; imodintro
      isplitl [Hu]
      · iapply (show (ownU _ : sProp 𝕄) ⊢ BI.own (emb₁ (initOf (Pipeline.cells (Pipeline.pin (fun q => Cfg.toPCfg (Val := Elt F) (cfgs q)) fun q => (cfgs q).toPCfg_adm) cellOf_inj) (Pipeline.launchToks (Pipeline.pin (fun q => Cfg.toPCfg (Val := Elt F) (cfgs q)) fun q => (cfgs q).toPCfg_adm) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (fun b => Wfin m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ restRefs sig spec0, s.mem ((c.tc : Thread nD τ).loc b) = Wfin m c (Proc.devRef .tc b))
    (hY := fun c s' => by
      iintro ⟨-, HU, HSI⟩
      unfold Pipeline.unscopedRest
      imodintro
      iapply (pointsTo_read_all (restRefs sig spec0) (fun b => (c.tc : Thread nD τ).loc b) (fun b => Wfin m c (Proc.devRef .tc b)) s')
      isplitl [HU] <;> iassumption)
    (hQ := fun s h c => ⟨(h c).1, (h c).2.2⟩)

/-- THE FRAME: every weakly fair execution of @main terminates, and the argument array ends as it began (an input
    window's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.Kernel.Fr

end
-- ==== Proof.FrameBase.lean ====
/-
  The shared ground of the kernel's frame proof, at any float instance: the contents the region finds
  (no host line precedes it), the two input windows' blocks of the ONE argument array, the three branch
  conditions of the body decided over the 2 x 16 grid (second coordinate k: k = 0, k < 4, k = 15), where the
  two output windows are idle (every point but k = 15), and the names of the staging and scratch memrefs.
-/
import proofs.«139039_j44513041056397_2_alg».proof.Proof.Gen.KernelIdeal.Launch
import proofs.«139039_j44513041056397_2_alg».proof.Proof.Gen.KernelIdeal.Skeleton
import proofs.«139039_j44513041056397_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents -/

/-- The core's buffers when the region is entered: the launch contents (the region is @main's first line). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

theorem hostOps1_fresh : (hostOps1 : List (HloOp τ sig (Elt F))).Forall fun op => op.fresh = ∅ := by
  simp only [List.Forall]; repeat' constructor

/-- @main is the region continued by the twenty-one host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The input windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left-hand rows' window holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The streamed rows' window holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, over the grid -/

/-- `k = 0`: the accumulators are reset and the resident rows normalised. -/
abbrev condA (i : grid0.Coords) : Prop := k0_cond1 i = 1#1
/-- `k < 4`: the tile meets the columns below 2048, where the strict upper triangle lives. -/
abbrev condB (i : grid0.Coords) : Prop := (Scalar.cmpi .ne (Scalar.extui (Scalar.cmpi .slt (BitVec.ofNat 32 (i 1).val) 4#32)) 0#32) = 1#1
/-- `k = 15`: the accumulators are written out. -/
abbrev condC (i : grid0.Coords) : Prop := k0_cond3 i = 1#1

theorem hcondA : ∀ t : Fin cfg0.N, condA (grid0.coords t) ↔ t.val % 16 = 0 :=
  (by decide +kernel : ∀ t : Fin grid0.N, condA (grid0.coords t) ↔ t.val % 16 = 0)
theorem hcondB : ∀ t : Fin cfg0.N, condB (grid0.coords t) ↔ t.val % 16 < 4 :=
  (by decide +kernel : ∀ t : Fin grid0.N, condB (grid0.coords t) ↔ t.val % 16 < 4)
theorem hcondC : ∀ t : Fin cfg0.N, condC (grid0.coords t) ↔ t.val % 16 = 15 :=
  (by decide +kernel : ∀ t : Fin grid0.N, condC (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬condC (grid0.coords t) → cfg0.idle 2 (grid0.coords t) = true := by decide +kernel
theorem idle3 : ∀ t : Fin cfg0.N, ¬condC (grid0.coords t) → cfg0.idle 3 (grid0.coords t) = true := by decide +kernel
theorem noFlush2 : ∀ t : Fin cfg0.N, ¬condC (grid0.coords t) → (cfg0.win 2).flush t = false := by decide +kernel
theorem noFlush3 : ∀ t : Fin cfg0.N, ¬condC (grid0.coords t) → (cfg0.win 3).flush t = false := by decide +kernel
theorem live2 : ∀ t : Fin cfg0.N, condC (grid0.coords t) → cfg0.idle 2 (grid0.coords t) = false := by decide +kernel
theorem live3 : ∀ t : Fin cfg0.N, condC (grid0.coords t) → cfg0.idle 3 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)
/-- The three scratch operands: the normalised resident rows, the running row sums of exponentials, the running
    triangle sum. -/
abbrev scZ : Memref sig .tc .vmem S1024x1024 .bf16 := Memref.whole cc0_scratch0
abbrev scE : Memref sig .tc .vmem S1024x1 .f32 := Memref.whole cc0_scratch1
abbrev scT : Memref sig .tc .vmem S8x128 .f32 := Memref.whole cc0_scratch2
abbrev VZ : View sig .tc .vmem S1024x1024 .bf16 := scZ.view
abbrev VE : View sig .tc .vmem S1024x1 .f32 := scE.view
abbrev VT : View sig .tc .vmem S8x128 .f32 := scT.view
/-- One staging buffer of each output window, through which its contents are stated. -/
abbrev VO2 : View sig .tc .vmem S1024x1 .f32 := (Memref.whole cc0_stg2_0 : Memref sig .tc .vmem S1024x1 .f32).view
abbrev VO3 : View sig .tc .vmem S1x8x128 .f32 := (Memref.whole cc0_stg3_0 : Memref sig .tc .vmem S1x8x128 .f32).view

/-- What the launch hands the region beside the windows: the three scratch buffers at some contents and the
    generator register at some state. -/
theorem PhiA0_eq (c : Dev nD) :
    (Pipeline.ΦA spec0 c : sProp 𝕄)
      = iprop(iprop((∃ d, owns (c : Thread nD τ) scZ fullShare d) ∗ (∃ d, owns (c : Thread nD τ) scE fullShare d) ∗ (∃ d, owns (c : Thread nD τ) scT fullShare d)) ∗ (∃ r, prngReg c r)) := by
  unfold Pipeline.ΦA; rw [scopedRest0_eq]; simp only [scZ, scE, scT, owns_whole]; try rfl

end Cert.KernelIdeal.Fr

end
-- ==== Proof.RunA.lean ====
/-
  The body at a point with k = 0: the reset branch and the triangle branch are taken. It zeroes both accumulators,
  normalises the resident rows in four chunks of 256 rows into the scratch, then accumulates as at every point.
-/
import proofs.«139039_j44513041056397_2_alg».proof.Proof.FrameBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runA (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) :
    Σ' (LZ : List (View.Piece (Elt F) S1024x1024 .bf16)) (LE : List (View.Piece (Elt F) S1024x1 .f32)), { LT : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LZ) ∗ (∃ f, arg7.view.loc (c : Thread nD τ) ↦[arg7.view.set]{fullShare} arg7.view.writes (Elt F) f LE) ∗ (∃ f, arg8.view.loc (c : Thread nD τ) ↦[arg8.view.set]{fullShare} arg8.view.writes (Elt F) f LT)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%dz, %fz, -, HZ⟩, ⟨%de, %fe, -, HE⟩, ⟨%dt, %ft, -, HT⟩, Hk⟩
    obtain rfl := harg2.eq_unread hf0; obtain rfl := harg3.eq_unread hf1
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [HZ]; · iexists _; iexact HZ
    isplitl [HE]; · iexists _; iexact HE
    iexists _; iexact HT

end Cert.KernelIdeal.Fr

end
-- ==== Proof.RunB.lean ====
/-
  The body at a point with 1 ≤ k < 4: only the triangle branch is taken. It adds the tile's row sums of
  exponentials into the running sums and the tile's masked total into the running triangle sum.
-/
import proofs.«139039_j44513041056397_2_alg».proof.Proof.FrameBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runB (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) :
    Σ' (LE : List (View.Piece (Elt F) S1024x1 .f32)), { LT : List (View.Piece (Elt F) S8x128 .f32) //
      ∀ (E : Set ℕ) (K : PUnit → sProp 𝕄),
        iprop(owns (c : Thread nD τ) arg3 fullShare x1 ∗ owns (c : Thread nD τ) arg6 fullShare xz ∗ owns (c : Thread nD τ) arg7 fullShare xe ∗ owns (c : Thread nD τ) arg8 fullShare xt
            ∗ (iprop(owns (c : Thread nD τ) arg3 fullShare x1 ∗ owns (c : Thread nD τ) arg6 fullShare xz ∗ (∃ f, arg7.view.loc (c : Thread nD τ) ↦[arg7.view.set]{fullShare} arg7.view.writes (Elt F) f LE) ∗ (∃ f, arg8.view.loc (c : Thread nD τ) ↦[arg8.view.set]{fullShare} arg8.view.writes (Elt F) f LT)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f1, %hf1, H1⟩, ⟨%fz, %hfz, HZ⟩, ⟨%fe, %hfe, HE⟩, ⟨%ft, %hft, HT⟩, Hk⟩
    obtain rfl := harg3.eq_unread hf1; obtain rfl := harg6.eq_unread hfz; obtain rfl := harg7.eq_unread hfe; obtain rfl := harg8.eq_unread hft
    sl_exec (disch := first | exact hA | exact hB | exact hC)
    sl_step
    iapply Hk
    isplitl [H1]
    · iexists _; isplitr; · ipureintro; exact harg3.read_unread _
      iexact H1
    isplitl [HZ]
    · iexists _; isplitr; · ipureintro; exact harg6.read_unread _
      iexact HZ
    isplitl [HE]; · iexists _; iexact HE
    iexists _; iexact HT

end Cert.KernelIdeal.Fr

end
-- ==== Proof.RunC.lean ====
/-
  The body at a point with 4 ≤ k < 15: no branch is taken. It reads the streamed rows' block and the
  normalised resident rows, and adds the tile's row sums of exponentials into the running sums.
-/
import proofs.«139039_j44513041056397_2_alg».proof.Proof.FrameBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the running-sums scratch at such a point, with the body's triple. -/
noncomputable def runC (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : ¬condC i)
    (x1 : Vec F S512x1024 .f32) (xz : Vec F S1024x1024 .bf16) (xe : Vec F S1024x1 .f32) :
    { LE : List (View.Piece (Elt F) S1024x1 .f32) //
      ∀ (E : Set ℕ) (K : PUnit → sProp 𝕄),
        iprop(owns (c : Thread nD τ) arg3 fullShare x1 ∗ owns (c : Thread nD τ) arg6 fullShare xz ∗ owns (c : Thread nD τ) arg7 fullShare xe
            ∗ (iprop(owns (c : Thread nD τ) arg3 fullShare x1 ∗ owns (c : Thread nD τ) arg6 fullShare xz ∗ (∃ f, arg7.view.loc (c : Thread nD τ) ↦[arg7.view.set]{fullShare} arg7.view.writes (Elt F) f LE)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun E K => ?run⟩
  case run =>
    simp only [cc0__kernel_eq_skeleton]; unfold cc0__kernel_skel
    unfold owns
    iintro ⟨⟨%f1, %hf1, H1⟩, ⟨%fz, %hfz, HZ⟩, ⟨%fe, %hfe, HE⟩, Hk⟩
    obtain rfl := harg3.eq_unread hf1; obtain rfl := harg6.eq_unread hfz; obtain rfl := harg7.eq_unread hfe
    sl_exec (disch := first | exact hA | exact hB | exact hC)
    sl_step
    iapply Hk
    isplitl [H1]
    · iexists _; isplitr; · ipureintro; exact harg3.read_unread _
      iexact H1
    isplitl [HZ]
    · iexists _; isplitr; · ipureintro; exact harg6.read_unread _
      iexact HZ
    iexists _; iexact HE

end Cert.KernelIdeal.Fr

end
-- ==== Proof.RunD.lean ====
/-
  The body at a point with k = 15: only the last branch is taken. It adds the tile's row sums of exponentials
  into the running sums, then copies the running sums and the running triangle sum into the two output blocks.
-/
import proofs.«139039_j44513041056397_2_alg».proof.Proof.FrameBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def runD (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) :
    Σ' (LE : List (View.Piece (Elt F) S1024x1 .f32)) (L2 : List (View.Piece (Elt F) S1024x1 .f32)), { L3 : List (View.Piece (Elt F) S1x8x128 .f32) //
      ∀ (E : Set ℕ) (K : PUnit → sProp 𝕄),
        iprop(owns (c : Thread nD τ) arg3 fullShare x1 ∗ owns (c : Thread nD τ) arg6 fullShare xz ∗ owns (c : Thread nD τ) arg7 fullShare xe ∗ owns (c : Thread nD τ) arg8 fullShare xt ∗ (∃ d, owns (c : Thread nD τ) arg4 fullShare d) ∗ (∃ d, owns (c : Thread nD τ) arg5 fullShare d)
            ∗ (iprop(owns (c : Thread nD τ) arg3 fullShare x1 ∗ owns (c : Thread nD τ) arg6 fullShare xz ∗ (∃ f, arg7.view.loc (c : Thread nD τ) ↦[arg7.view.set]{fullShare} arg7.view.writes (Elt F) f LE) ∗ owns (c : Thread nD τ) arg8 fullShare xt ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun E K => ?run⟩
  case run =>
    simp only [cc0__kernel_eq_skeleton]; unfold cc0__kernel_skel
    simp only [k0_part1_eq_skeleton]
    unfold owns
    iintro ⟨⟨%f1, %hf1, H1⟩, ⟨%fz, %hfz, HZ⟩, ⟨%fe, %hfe, HE⟩, ⟨%ft, %hft, HT⟩, ⟨%d2, %f2, -, H2⟩, ⟨%d3, %f3, -, H3⟩, Hk⟩
    obtain rfl := harg3.eq_unread hf1; obtain rfl := harg6.eq_unread hfz; obtain rfl := harg7.eq_unread hfe; obtain rfl := harg8.eq_unread hft
    sl_exec (disch := first | exact hA | exact hB | exact hC)
    sl_step
    iapply Hk
    isplitl [H1]
    · iexists _; isplitr; · ipureintro; exact harg3.read_unread _
      iexact H1
    isplitl [HZ]
    · iexists _; isplitr; · ipureintro; exact harg6.read_unread _
      iexact HZ
    isplitl [HE]; · iexists _; iexact HE
    isplitl [HT]
    · iexists _; isplitr; · ipureintro; exact harg8.read_unread _
      iexact HT
    isplitl [H2]; · iexists _; iexact H2
    iexists _; iexact H3

end Cert.KernelIdeal.Fr

end
-- ==== Proof.Frame.lean ====
/-
  What the three scratch buffers and the two output blocks hold after every grid point, the proof data of
  the pipeline, and the body's obligation at every point, at any float instance. The scratch buffers are carried
  from point to point: the normalised resident rows are written at k = 0 and only read afterwards, the running
  sums are rewritten at every point, the running triangle sum at the points with k < 4; the output blocks
  are written at k = 15 only and are idle elsewhere.
-/
import proofs.«139039_j44513041056397_2_alg».proof.Proof.RunA
import proofs.«139039_j44513041056397_2_alg».proof.Proof.RunB
import proofs.«139039_j44513041056397_2_alg».proof.Proof.RunC
import proofs.«139039_j44513041056397_2_alg».proof.Proof.RunD

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's pieces cover the buffer they are stored into, and what they leave there -/

/-- The pieces of sZ in case A tile the whole buffer. -/
theorem cov_sZ_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) (y : S1024x1024.Idx) :
    ∃ pc ∈ (runA c i arg2 harg2 arg3 harg3 arg4 harg4 arg5 harg5 arg6 harg6 arg7 harg7 arg8 harg8 hA hB hC x0 x1).1, y ∈ pc.1.set :=
  View.cover_of_tiledL (runA c i arg2 harg2 arg3 harg3 arg4 harg4 arg5 harg5 arg6 harg6 arg7 harg7 arg8 harg8 hA hB hC x0 x1).1 S256x1024.size (by sl_kernel_rfl) y

/-- What the case leaves there (the normalised resident rows after the reset point): its pieces read back. -/
def sZ_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) : Vec F S1024x1024 .bf16 :=
  VZ.read (Elt F) (VZ.writes (Elt F) VZ.junk (runA c i arg2 harg2 arg3 harg3 arg4 harg4 arg5 harg5 arg6 harg6 arg7 harg7 arg8 harg8 hA hB hC x0 x1).1)

/-- The pieces of sE in case A tile the whole buffer. -/
theorem cov_sE_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) (y : S1024x1.Idx) :
    ∃ pc ∈ (runA c i arg2 harg2 arg3 harg3 arg4 harg4 arg5 harg5 arg6 harg6 arg7 harg7 arg8 harg8 hA hB hC x0 x1).2.1, y ∈ pc.1.set :=
  View.cover_of_tiledL (runA c i arg2 harg2 arg3 harg3 arg4 harg4 arg5 harg5 arg6 harg6 arg7 harg7 arg8 harg8 hA hB hC x0 x1).2.1 S1024x1.size (by sl_kernel_rfl) y

/-- What the case leaves there (the running sums after the reset point): its pieces read back. -/
def sE_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) : Vec F S1024x1 .f32 :=
  VE.read (Elt F) (VE.writes (Elt F) VE.junk (runA c i arg2 harg2 arg3 harg3 arg4 harg4 arg5 harg5 arg6 harg6 arg7 harg7 arg8 harg8 hA hB hC x0 x1).2.1)

/-- The pieces of sT in case A tile the whole buffer. -/
theorem cov_sT_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) (y : S8x128.Idx) :
    ∃ pc ∈ (runA c i arg2 harg2 arg3 harg3 arg4 harg4 arg5 harg5 arg6 harg6 arg7 harg7 arg8 harg8 hA hB hC x0 x1).2.2.1, y ∈ pc.1.set :=
  View.cover_of_tiledL (runA c i arg2 harg2 arg3 harg3 arg4 harg4 arg5 harg5 arg6 harg6 arg7 harg7 arg8 harg8 hA hB hC x0 x1).2.2.1 S8x128.size (by sl_kernel_rfl) y

/-- What the case leaves there (the running triangle sum after the reset point): its pieces read back. -/
def sT_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) : Vec F S8x128 .f32 :=
  VT.read (Elt F) (VT.writes (Elt F) VT.junk (runA c i arg2 harg2 arg3 harg3 arg4 harg4 arg5 harg5 arg6 harg6 arg7 harg7 arg8 harg8 hA hB hC x0 x1).2.2.1)

/-- The pieces of sE in case B tile the whole buffer. -/
theorem cov_sE_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) (y : S1024x1.Idx) :
    ∃ pc ∈ (runB c i arg2 harg2 arg3 harg3 arg4 harg4 arg5 harg5 arg6 harg6 arg7 harg7 arg8 harg8 hA hB hC x1 xz xe xt).1, y ∈ pc.1.set :=
  View.cover_of_tiledL (runB c i arg2 harg2 arg3 harg3 arg4 harg4 arg5 harg5 arg6 harg6 arg7 harg7 arg8 harg8 hA hB hC x1 xz xe xt).1 S1024x1.size (by sl_kernel_rfl) y

/-- What the case leaves there (the running sums after a point with 1 ≤ k < 4): its pieces read back. -/
def sE_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) : Vec F S1024x1 .f32 :=
  VE.read (Elt F) (VE.writes (Elt F) VE.junk (runB c i arg2 harg2 arg3 harg3 arg4 harg4 arg5 harg5 arg6 harg6 arg7 harg7 arg8 harg8 hA hB hC x1 xz xe xt).1)

/-- The pieces of sT in case B tile the whole buffer. -/
theorem cov_sT_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) (y : S8x128.Idx) :
    ∃ pc ∈ (runB c i arg2 harg2 arg3 harg3 arg4 harg4 arg5 harg5 arg6 harg6 arg7 harg7 arg8 harg8 hA hB hC x1 xz xe xt).2.1, y ∈ pc.1.set :=
  View.cover_of_tiledL (runB c i arg2 harg2 arg3 harg3 arg4 harg4 arg5 harg5 arg6 harg6 arg7 harg7 arg8 harg8 hA hB hC x1 xz xe xt).2.1 S8x128.size (by sl_kernel_rfl) y

/-- What the case leaves there (the running triangle sum after a point with 1 ≤ k < 4): its pieces read back. -/
def sT_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) : Vec F S8x128 .f32 :=
  VT.read (Elt F) (VT.writes (Elt F) VT.junk (runB c i arg2 harg2 arg3 harg3 arg4 harg4 arg5 harg5 arg6 harg6 arg7 harg7 arg8 harg8 hA hB hC x1 xz xe xt).2.1)

/-- The pieces of sE in case C tile the whole buffer. -/
theorem cov_sE_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : ¬condC i)
    (x1 : Vec F S512x1024 .f32) (xz : Vec F S1024x1024 .bf16) (xe : Vec F S1024x1 .f32) (y : S1024x1.Idx) :
    ∃ pc ∈ (runC c i arg2 harg2 arg3 harg3 arg4 harg4 arg5 harg5 arg6 harg6 arg7 harg7 arg8 harg8 hA hB hC x1 xz xe).1, y ∈ pc.1.set :=
  View.cover_of_tiledL (runC c i arg2 harg2 arg3 harg3 arg4 harg4 arg5 harg5 arg6 harg6 arg7 harg7 arg8 harg8 hA hB hC x1 xz xe).1 S1024x1.size (by sl_kernel_rfl) y

/-- What the case leaves there (the running sums after a point with 4 ≤ k < 15): its pieces read back. -/
def sE_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : ¬condC i)
    (x1 : Vec F S512x1024 .f32) (xz : Vec F S1024x1024 .bf16) (xe : Vec F S1024x1 .f32) : Vec F S1024x1 .f32 :=
  VE.read (Elt F) (VE.writes (Elt F) VE.junk (runC c i arg2 harg2 arg3 harg3 arg4 harg4 arg5 harg5 arg6 harg6 arg7 harg7 arg8 harg8 hA hB hC x1 xz xe).1)

/-- The pieces of sE in case D tile the whole buffer. -/
theorem cov_sE_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) (y : S1024x1.Idx) :
    ∃ pc ∈ (runD c i arg2 harg2 arg3 harg3 arg4 harg4 arg5 harg5 arg6 harg6 arg7 harg7 arg8 harg8 hA hB hC x1 xz xe xt).1, y ∈ pc.1.set :=
  View.cover_of_tiledL (runD c i arg2 harg2 arg3 harg3 arg4 harg4 arg5 harg5 arg6 harg6 arg7 harg7 arg8 harg8 hA hB hC x1 xz xe xt).1 S1024x1.size (by sl_kernel_rfl) y

/-- What the case leaves there (the running sums after the last point of a row block): its pieces read back. -/
def sE_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) : Vec F S1024x1 .f32 :=
  VE.read (Elt F) (VE.writes (Elt F) VE.junk (runD c i arg2 harg2 arg3 harg3 arg4 harg4 arg5 harg5 arg6 harg6 arg7 harg7 arg8 harg8 hA hB hC x1 xz xe xt).1)

/-- The pieces of o2 in case D tile the whole buffer. -/
theorem cov_o2_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) (y : S1024x1.Idx) :
    ∃ pc ∈ (runD c i arg2 harg2 arg3 harg3 arg4 harg4 arg5 harg5 arg6 harg6 arg7 harg7 arg8 harg8 hA hB hC x1 xz xe xt).2.1, y ∈ pc.1.set :=
  View.cover_of_tiledL (runD c i arg2 harg2 arg3 harg3 arg4 harg4 arg5 harg5 arg6 harg6 arg7 harg7 arg8 harg8 hA hB hC x1 xz xe xt).2.1 S1024x1.size (by sl_kernel_rfl) y

/-- What the case leaves there (the first output's block at the last point of a row block): its pieces read back. -/
def o2_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) : Vec F S1024x1 .f32 :=
  VO2.read (Elt F) (VO2.writes (Elt F) VO2.junk (runD c i arg2 harg2 arg3 harg3 arg4 harg4 arg5 harg5 arg6 harg6 arg7 harg7 arg8 harg8 hA hB hC x1 xz xe xt).2.1)

/-- The pieces of o3 in case D tile the whole buffer. -/
theorem cov_o3_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) (y : S1x8x128.Idx) :
    ∃ pc ∈ (runD c i arg2 harg2 arg3 harg3 arg4 harg4 arg5 harg5 arg6 harg6 arg7 harg7 arg8 harg8 hA hB hC x1 xz xe xt).2.2.1, y ∈ pc.1.set :=
  View.cover_of_tiledL (runD c i arg2 harg2 arg3 harg3 arg4 harg4 arg5 harg5 arg6 harg6 arg7 harg7 arg8 harg8 hA hB hC x1 xz xe xt).2.2.1 S1x8x128.size (by sl_kernel_rfl) y

/-- What the case leaves there (the second output's block at the last point of a row block): its pieces read back. -/
def o3_D (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) : Vec F S1x8x128 .f32 :=
  VO3.read (Elt F) (VO3.writes (Elt F) VO3.junk (runD c i arg2 harg2 arg3 harg3 arg4 harg4 arg5 harg5 arg6 harg6 arg7 harg7 arg8 harg8 hA hB hC x1 xz xe xt).2.2.1)

/-! ## Point by point -/

/-- An output block at a point where the body does not store it: nothing consults it. -/
def rest2 : Vec F S1024x1 .f32 := VO2.read (Elt F) (VO2.writes (Elt F) VO2.junk [])
def rest3 : Vec F S1x8x128 .f32 := VO3.read (Elt F) (VO3.writes (Elt F) VO3.junk [])

/-- The five buffers' contents after a point. -/
structure Outs (F : FTy → Type) [FloatOps F] where
  o2 : Vec F S1024x1 .f32
  o3 : Vec F S1x8x128 .f32
  z : Vec F S1024x1024 .bf16
  e : Vec F S1024x1 .f32
  t : Vec F S8x128 .f32

/-- THE ACCUMULATION: after the body at position `n`, by the case the position is in (its second grid
    coordinate is `n % 16`), a carried buffer the case does not store into at what the position before left. -/
def outsAt (c : Dev nD) : (n : ℕ) → n < cfg0.N → Outs F
  | 0, hn =>
    have hA : condA (grid0.coords ⟨0, hn⟩) := (hcondA ⟨0, hn⟩).mpr (Nat.zero_mod _)
    have hB : condB (grid0.coords ⟨0, hn⟩) := (hcondB ⟨0, hn⟩).mpr (by show 0 % 16 < 4; omega)
    have hC : ¬condC (grid0.coords ⟨0, hn⟩) := fun h => (fun h => by (try dsimp only at h); omega) ((hcondC ⟨0, hn⟩).mp h)
    { o2 := rest2, o3 := rest3,
      z := sZ_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scZ (Memref.isWhole_whole _) scE (Memref.isWhole_whole _) scT (Memref.isWhole_whole _) hA hB hC (iblk m c 0 ⟨0, hn⟩) (iblk m c 1 ⟨0, hn⟩),
      e := sE_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scZ (Memref.isWhole_whole _) scE (Memref.isWhole_whole _) scT (Memref.isWhole_whole _) hA hB hC (iblk m c 0 ⟨0, hn⟩) (iblk m c 1 ⟨0, hn⟩),
      t := sT_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scZ (Memref.isWhole_whole _) scE (Memref.isWhole_whole _) scT (Memref.isWhole_whole _) hA hB hC (iblk m c 0 ⟨0, hn⟩) (iblk m c 1 ⟨0, hn⟩) }
  | n + 1, hn =>
    if h0 : (n + 1) % 16 = 0 then
      have hA : condA (grid0.coords ⟨n + 1, hn⟩) := (hcondA ⟨n + 1, hn⟩).mpr h0
      have hB : condB (grid0.coords ⟨n + 1, hn⟩) := (hcondB ⟨n + 1, hn⟩).mpr (by show (n + 1) % 16 < 4; omega)
      have hC : ¬condC (grid0.coords ⟨n + 1, hn⟩) := fun h => (fun h => by (try dsimp only at h); omega) ((hcondC ⟨n + 1, hn⟩).mp h)
      { o2 := rest2, o3 := rest3,
        z := sZ_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 0 ⟨n + 1, hn⟩) (iblk m c 1 ⟨n + 1, hn⟩),
        e := sE_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 0 ⟨n + 1, hn⟩) (iblk m c 1 ⟨n + 1, hn⟩),
        t := sT_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 0 ⟨n + 1, hn⟩) (iblk m c 1 ⟨n + 1, hn⟩) }
    else if h1 : (n + 1) % 16 < 4 then
      have hA : ¬condA (grid0.coords ⟨n + 1, hn⟩) := fun h => h0 ((hcondA ⟨n + 1, hn⟩).mp h)
      have hB : condB (grid0.coords ⟨n + 1, hn⟩) := (hcondB ⟨n + 1, hn⟩).mpr h1
      have hC : ¬condC (grid0.coords ⟨n + 1, hn⟩) := fun h => (fun h => by (try dsimp only at h); omega) ((hcondC ⟨n + 1, hn⟩).mp h)
      { o2 := rest2, o3 := rest3,
        z := (outsAt c n (Nat.lt_of_succ_lt hn)).z,
        e := sE_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t,
        t := sT_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t }
    else if h2 : (n + 1) % 16 = 15 then
      have hA : ¬condA (grid0.coords ⟨n + 1, hn⟩) := fun h => h0 ((hcondA ⟨n + 1, hn⟩).mp h)
      have hB : ¬condB (grid0.coords ⟨n + 1, hn⟩) := fun h => h1 ((hcondB ⟨n + 1, hn⟩).mp h)
      have hC : condC (grid0.coords ⟨n + 1, hn⟩) := (hcondC ⟨n + 1, hn⟩).mpr h2
      { o2 := o2_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t,
        o3 := o3_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t,
        z := (outsAt c n (Nat.lt_of_succ_lt hn)).z,
        e := sE_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e (outsAt c n (Nat.lt_of_succ_lt hn)).t,
        t := (outsAt c n (Nat.lt_of_succ_lt hn)).t }
    else
      have hA : ¬condA (grid0.coords ⟨n + 1, hn⟩) := fun h => h0 ((hcondA ⟨n + 1, hn⟩).mp h)
      have hB : ¬condB (grid0.coords ⟨n + 1, hn⟩) := fun h => h1 ((hcondB ⟨n + 1, hn⟩).mp h)
      have hC : ¬condC (grid0.coords ⟨n + 1, hn⟩) := fun h => h2 ((hcondC ⟨n + 1, hn⟩).mp h)
      { o2 := rest2, o3 := rest3,
        z := (outsAt c n (Nat.lt_of_succ_lt hn)).z,
        e := sE_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scZ (Memref.isWhole_whole _) scE (Memref.isWhole_whole _) scT (Memref.isWhole_whole _) hA hB hC (iblk m c 1 ⟨n + 1, hn⟩) (outsAt c n (Nat.lt_of_succ_lt hn)).z (outsAt c n (Nat.lt_of_succ_lt hn)).e,
        t := (outsAt c n (Nat.lt_of_succ_lt hn)).t }

/-! ## The accumulation at a point of each case -/

theorem outsAt_A (c : Dev nD) (t : Fin cfg0.N) (h0 : t.val % 16 = 0)
    (hA : condA (grid0.coords t)) (hB : condB (grid0.coords t)) (hC : ¬condC (grid0.coords t)) :
    outsAt m c t.val t.isLt =
      { o2 := rest2, o3 := rest3,
        z := sZ_A c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 0 t) (iblk m c 1 t),
        e := sE_A c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 0 t) (iblk m c 1 t),
        t := sT_A c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 0 t) (iblk m c 1 t) } := by
  obtain ⟨n, hn⟩ := t
  cases n with
  | zero => exact rfl
  | succ n => exact (dif_pos h0).trans rfl

theorem outsAt_B (c : Dev nD) (t : Fin cfg0.N) (h0 : ¬t.val % 16 = 0) (h1 : t.val % 16 < 4)
    (hA : ¬condA (grid0.coords t)) (hB : condB (grid0.coords t)) (hC : ¬condC (grid0.coords t)) :
    outsAt m c t.val t.isLt =
      { o2 := rest2, o3 := rest3,
        z := (outsAt m c (t.val - 1) (Nat.lt_of_le_of_lt (Nat.sub_le _ _) t.isLt)).z,
        e := sE_B c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t,
        t := sT_B c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t } := by
  obtain ⟨n, hn⟩ := t
  cases n with
  | zero => exact absurd (Nat.zero_mod _) h0
  | succ n => exact (dif_neg h0).trans ((dif_pos h1).trans rfl)

theorem outsAt_D (c : Dev nD) (t : Fin cfg0.N) (h0 : ¬t.val % 16 = 0) (h1 : ¬t.val % 16 < 4) (h2 : t.val % 16 = 15)
    (hA : ¬condA (grid0.coords t)) (hB : ¬condB (grid0.coords t)) (hC : condC (grid0.coords t)) :
    outsAt m c t.val t.isLt =
      { o2 := o2_D c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t,
        o3 := o3_D c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t,
        z := (outsAt m c (t.val - 1) (Nat.lt_of_le_of_lt (Nat.sub_le _ _) t.isLt)).z,
        e := sE_D c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e (outsAt m c (t.val - 1) (Nat.lt_of_le_of_lt (Nat.sub_le _ _) t.isLt)).t,
        t := (outsAt m c (t.val - 1) (Nat.lt_of_le_of_lt (Nat.sub_le _ _) t.isLt)).t } := by
  obtain ⟨n, hn⟩ := t
  cases n with
  | zero => exact absurd (Nat.zero_mod _) h0
  | succ n => exact (dif_neg h0).trans ((dif_neg h1).trans ((dif_pos h2).trans rfl))

theorem outsAt_C (c : Dev nD) (t : Fin cfg0.N) (h0 : ¬t.val % 16 = 0) (h1 : ¬t.val % 16 < 4) (h2 : ¬t.val % 16 = 15)
    (hA : ¬condA (grid0.coords t)) (hB : ¬condB (grid0.coords t)) (hC : ¬condC (grid0.coords t)) :
    outsAt m c t.val t.isLt =
      { o2 := rest2, o3 := rest3,
        z := (outsAt m c (t.val - 1) (Nat.lt_of_le_of_lt (Nat.sub_le _ _) t.isLt)).z,
        e := sE_C c (grid0.coords t) (ms0 t) (hs0 t) (ms1 t) (hs1 t) (ms2 t) (hs2 t) (ms3 t) (hs3 t) scZ (Memref.isWhole_whole _) scE (Memref.isWhole_whole _) scT (Memref.isWhole_whole _) hA hB hC (iblk m c 1 t) (outsAt m c (t.val - 1) (Nat.lt_of_le_of_lt (Nat.sub_le _ _) t.isLt)).z (outsAt m c (t.val - 1) (Nat.lt_of_le_of_lt (Nat.sub_le _ _) t.isLt)).e,
        t := (outsAt m c (t.val - 1) (Nat.lt_of_le_of_lt (Nat.sub_le _ _) t.isLt)).t } := by
  obtain ⟨n, hn⟩ := t
  cases n with
  | zero => exact absurd (Nat.zero_mod _) h0
  | succ n => exact (dif_neg h0).trans ((dif_neg h1).trans ((dif_neg h2).trans rfl))

/-! ## The region's invariant -/

/-- Before position `n`: at the start what the launch hands over (every scratch at anything); afterwards the three
    scratch buffers at what the position before left, and the generator register at some state. -/
def PhiS (c : Dev nD) : (n : ℕ) → n ≤ cfg0.N → sProp 𝕄
  | 0, _ => Pipeline.ΦA spec0 c
  | n + 1, hn => iprop(iprop(owns (c : Thread nD τ) scZ fullShare ((outsAt m c n hn).z) ∗ owns (c : Thread nD τ) scE fullShare ((outsAt m c n hn).e) ∗ owns (c : Thread nD τ) scT fullShare ((outsAt m c n hn).t)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scZ fullShare ((outsAt m c n hn).z) ∗ owns (c : Thread nD τ) scE fullShare ((outsAt m c n hn).e) ∗ owns (c : Thread nD τ) scT fullShare ((outsAt m c n hn).t)) ∗ (∃ r, prngReg c r)) := rfl

theorem PhiS_pos (c : Dev nD) (n : ℕ) (h : n ≤ cfg0.N) (hz : n ≠ 0) :
    PhiS m c n h = iprop(iprop(owns (c : Thread nD τ) scZ fullShare ((outsAt m c (n - 1) (by omega)).z) ∗ owns (c : Thread nD τ) scE fullShare ((outsAt m c (n - 1) (by omega)).e) ∗ owns (c : Thread nD τ) scT fullShare ((outsAt m c (n - 1) (by omega)).t)) ∗ (∃ r, prngReg c r)) := by
  cases n with
  | zero => exact absurd rfl hz
  | succ n => rfl

/-! ## The proof data -/

/-- The pipeline's proof data on core `c`: the arrays as the region finds them; after the body each input's buffer at
    its block, each output's at the accumulation's component; the invariant above; nothing owed; the one argument
    array shared between the two input windows in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).o2
    | ⟨3, _⟩ => (outsAt m c t.val t.isLt).o3
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).o2 := by dsimp only [dats]
theorem after3 (c : Dev nD) (t : Fin cfg0.N) : (dats m 0 c).after 3 t = (outsAt m c t.val t.isLt).o3 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the point's second coordinate selects the case; the input windows' buffers hold their
    blocks; the invariant hands over the scratch buffers at what the point before left (at anything at the very
    first point) and takes them back at this point's contents; an output block is stored only when k = 15 and is
    handed back untouched otherwise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 32 := lt_of_lt_of_eq t.isLt (show cfg0.N = 32 from N_0)
  by_cases h0 : t.val % 16 = 0
  · have hA : condA (grid0.coords t) := (hcondA t).mpr h0
    have hB : condB (grid0.coords t) := (hcondB t).mpr (by omega)
    have hC : ¬condC (grid0.coords t) := fun h => by have := (hcondC t).mp h; omega
    rw [Dat.leavesExact_idle (dats m 0 c) 2 t (idle2 t hC) (noFlush2 t hC)]
    rw [Dat.leavesExact_idle (dats m 0 c) 3 t (idle3 t hC) (noFlush3 t hC)]
    rw [outsAt_A m c t h0 hA hB hC]
    unfold sZ_A sE_A sT_A; (try dsimp only)
    by_cases hz : t.val = 0
    ·
      rw [PhiS_castSucc m c t, PhiS_zero m c _ _ hz, PhiA0_eq]
      iintro ⟨⟨⟨HZ, HE, HT⟩, Hg⟩, Ho, ⟨%d0, H0⟩, ⟨%d1, H1⟩, H2, H3⟩
      iapply ((runA c (grid0.coords t) _ _ _ _ _ _ _ _ _ _ _ _ _ _ hA hB hC (iblk m c 0 t) (iblk m c 1 t)).2.2.2 Set.univ _)
      isplitl [H0]; · iexact H0
      isplitl [H1]; · iexact H1
      isplitl [HZ]; · iexact HZ
      isplitl [HE]; · iexact HE
      isplitl [HT]; · iexact HT
      iintro ⟨H0, H1, ⟨%fz, HZ⟩, ⟨%fe, HE⟩, ⟨%ft, HT⟩⟩
      isplitl [HZ HE HT Hg]
      · isplitr [Hg]
        · isplitl [HZ]
          · unfold owns; iexists _; isplitr
            swap; · iexact HZ
            ipureintro; exact View.read_writes_of_cover _ _ _ _ _ (cov_sZ_A c _ _ _ _ _ _ _ _ _ _ _ _ _ _ _ hA hB hC _ _)
          isplitl [HE]
          · unfold owns; iexists _; isplitr
            swap; · iexact HE
            ipureintro; exact View.read_writes_of_cover _ _ _ _ _ (cov_sE_A c _ _ _ _ _ _ _ _ _ _ _ _ _ _ _ hA hB hC _ _)
          unfold owns; iexists _; isplitr
          swap; · iexact HT
          ipureintro; exact View.read_writes_of_cover _ _ _ _ _ (cov_sT_A c _ _ _ _ _ _ _ _ _ _ _ _ _ _ _ hA hB hC _ _)
        iexact Hg
      isplitl [Ho]; · iexact Ho
      isplitl [H0]; · iexact H0
      isplitl [H1]; · iexact H1
      isplitl [H2]; · iexact H2
      iexact H3
    ·
      rw [PhiS_castSucc m c t, PhiS_pos m c _ _ hz]
      iintro ⟨⟨⟨HZ, HE, HT⟩, Hg⟩, Ho, ⟨%d0, H0⟩, ⟨%d1, H1⟩, H2, H3⟩
      iapply ((runA c (grid0.coords t) _ _ _ _ _ _ _ _ _ _ _ _ _ _ hA hB hC (iblk m c 0 t) (iblk m c 1 t)).2.2.2 Set.univ _)
      isplitl [H0]; · iexact H0
      isplitl [H1]; · iexact H1
      isplitl [HZ]; · iexists _; iexact HZ
      isplitl [HE]; · iexists _; iexact HE
      isplitl [HT]; · iexists _; iexact HT
      iintro ⟨H0, H1, ⟨%fz, HZ⟩, ⟨%fe, HE⟩, ⟨%ft, HT⟩⟩
      isplitl [HZ HE HT Hg]
      · isplitr [Hg]
        · isplitl [HZ]
          · unfold owns; iexists _; isplitr
            swap; · iexact HZ
            ipureintro; exact View.read_writes_of_cover _ _ _ _ _ (cov_sZ_A c _ _ _ _ _ _ _ _ _ _ _ _ _ _ _ hA hB hC _ _)
          isplitl [HE]
          · unfold owns; iexists _; isplitr
            swap; · iexact HE
            ipureintro; exact View.read_writes_of_cover _ _ _ _ _ (cov_sE_A c _ _ _ _ _ _ _ _ _ _ _ _ _ _ _ hA hB hC _ _)
          unfold owns; iexists _; isplitr
          swap; · iexact HT
          ipureintro; exact View.read_writes_of_cover _ _ _ _ _ (cov_sT_A c _ _ _ _ _ _ _ _ _ _ _ _ _ _ _ hA hB hC _ _)
        iexact Hg
      isplitl [Ho]; · iexact Ho
      isplitl [H0]; · iexact H0
      isplitl [H1]; · iexact H1
      isplitl [H2]; · iexact H2
      iexact H3
  · have hz : t.val ≠ 0 := fun h => h0 (by rw [h])
    have hA : ¬condA (grid0.coords t) := fun h => h0 ((hcondA t).mp h)
    by_cases h1 : t.val % 16 < 4
    · have hB : condB (grid0.coords t) := (hcondB t).mpr h1
      have hC : ¬condC (grid0.coords t) := fun h => by have := (hcondC t).mp h; omega
      rw [Dat.leavesExact_idle (dats m 0 c) 2 t (idle2 t hC) (noFlush2 t hC)]
      rw [Dat.leavesExact_idle (dats m 0 c) 3 t (idle3 t hC) (noFlush3 t hC)]
      rw [outsAt_B m c t h0 h1 hA hB hC]
      unfold sE_B sT_B; (try dsimp only)
      rw [PhiS_castSucc m c t, PhiS_pos m c _ _ hz]
      iintro ⟨⟨⟨HZ, HE, HT⟩, Hg⟩, Ho, ⟨%d0, H0⟩, ⟨%d1, H1⟩, H2, H3⟩
      iapply ((runB c (grid0.coords t) _ _ _ _ _ _ _ _ _ _ _ _ _ _ hA hB hC (iblk m c 1 t) _ _ _).2.2 Set.univ _)
      isplitl [H1]; · iexact H1
      isplitl [HZ]; · iexact HZ
      isplitl [HE]; · iexact HE
      isplitl [HT]; · iexact HT
      iintro ⟨H1, HZ, ⟨%fe, HE⟩, ⟨%ft, HT⟩⟩
      isplitl [HZ HE HT Hg]
      · isplitr [Hg]
        · isplitl [HZ]; · iexact HZ
          isplitl [HE]
          · unfold owns; iexists _; isplitr
            swap; · iexact HE
            ipureintro; exact View.read_writes_of_cover _ _ _ _ _ (cov_sE_B c _ _ _ _ _ _ _ _ _ _ _ _ _ _ _ hA hB hC _ _ _ _)
          unfold owns; iexists _; isplitr
          swap; · iexact HT
          ipureintro; exact View.read_writes_of_cover _ _ _ _ _ (cov_sT_B c _ _ _ _ _ _ _ _ _ _ _ _ _ _ _ hA hB hC _ _ _ _)
        iexact Hg
      isplitl [Ho]; · iexact Ho
      isplitl [H0]; · iexact H0
      isplitl [H1]; · iexact H1
      isplitl [H2]; · iexact H2
      iexact H3
    · have hB : ¬condB (grid0.coords t) := fun h => h1 ((hcondB t).mp h)
      by_cases h2 : t.val % 16 = 15
      · have hC : condC (grid0.coords t) := (hcondC t).mpr h2
        rw [show (dats m 0 c).leavesExact 2 t = owns (c : Thread nD τ) (ms2 t) fullShare ((dats m 0 c).after 2 t) from by
          unfold Dat.leavesExact; rw [live2 t hC], after2]
        rw [show (dats m 0 c).leavesExact 3 t = owns (c : Thread nD τ) (ms3 t) fullShare ((dats m 0 c).after 3 t) from by
          unfold Dat.leavesExact; rw [live3 t hC], after3]
        rw [outsAt_D m c t h0 h1 h2 hA hB hC]
        unfold sE_D o2_D o3_D; (try dsimp only)
        rw [PhiS_castSucc m c t, PhiS_pos m c _ _ hz]
        iintro ⟨⟨⟨HZ, HE, HT⟩, Hg⟩, Ho, ⟨%d0, H0⟩, ⟨%d1, H1⟩, ⟨%d2, H2⟩, ⟨%d3, H3⟩⟩
        iapply ((runD c (grid0.coords t) _ _ _ _ _ _ _ _ _ _ _ _ _ _ hA hB hC (iblk m c 1 t) _ _ _).2.2.2 Set.univ _)
        isplitl [H1]; · iexact H1
        isplitl [HZ]; · iexact HZ
        isplitl [HE]; · iexact HE
        isplitl [HT]; · iexact HT
        isplitl [H2]; · iexists _; iexact H2
        isplitl [H3]; · iexists _; iexact H3
        iintro ⟨H1, HZ, ⟨%fe, HE⟩, HT, ⟨%f2, H2⟩, ⟨%f3, H3⟩⟩
        isplitl [HZ HE HT Hg]
        · isplitr [Hg]
          · isplitl [HZ]; · iexact HZ
            isplitl [HE]
            · unfold owns; iexists _; isplitr
              swap; · iexact HE
              ipureintro; exact View.read_writes_of_cover _ _ _ _ _ (cov_sE_D c _ _ _ _ _ _ _ _ _ _ _ _ _ _ _ hA hB hC _ _ _ _)
            iexact HT
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cov_o2_D c _ _ _ _ _ _ _ _ _ _ _ _ _ _ _ hA hB hC _ _ _ _)
        unfold owns; iexists _; isplitr
        swap; · iexact H3
        ipureintro; exact View.read_writes_of_cover _ _ _ _ _ (cov_o3_D c _ _ _ _ _ _ _ _ _ _ _ _ _ _ _ hA hB hC _ _ _ _)
      · have hC : ¬condC (grid0.coords t) := fun h => h2 ((hcondC t).mp h)
        rw [Dat.leavesExact_idle (dats m 0 c) 2 t (idle2 t hC) (noFlush2 t hC)]
        rw [Dat.leavesExact_idle (dats m 0 c) 3 t (idle3 t hC) (noFlush3 t hC)]
        rw [outsAt_C m c t h0 h1 h2 hA hB hC]
        unfold sE_C; (try dsimp only)
        rw [PhiS_castSucc m c t, PhiS_pos m c _ _ hz]
        iintro ⟨⟨⟨HZ, HE, HT⟩, Hg⟩, Ho, ⟨%d0, H0⟩, ⟨%d1, H1⟩, H2, H3⟩
        iapply ((runC c (grid0.coords t) _ _ _ _ _ _ _ _ _ _ _ _ _ _ hA hB hC (iblk m c 1 t) _ _).2 Set.univ _)
        isplitl [H1]; · iexact H1
        isplitl [HZ]; · iexact HZ
        isplitl [HE]; · iexact HE
        iintro ⟨H1, HZ, ⟨%fe, HE⟩⟩
        isplitl [HZ HE HT Hg]
        · isplitr [Hg]
          · isplitl [HZ]; · iexact HZ
            isplitl [HE]
            · unfold owns; iexists _; isplitr
              swap; · iexact HE
              ipureintro; exact View.read_writes_of_cover _ _ _ _ _ (cov_sE_C c _ _ _ _ _ _ _ _ _ _ _ _ _ _ _ hA hB hC _ _ _)
            iexact HT
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HZ, HE, HT⟩, Hg⟩
  isplitl [HZ HE HT]
  · isplitl [HZ]; · iexists _; iexact HZ
    isplitl [HE]; · iexists _; iexact HE
    iexists _; iexact HT
  iexact Hg

theorem hout (c : Dev nD) : (dats m 0 c).Φ (Fin.last cfg0.N) ⊢ Pipeline.ΦA spec0 c :=
  Phi_out m c _ (by rw [Fin.val_last]; have : cfg0.N = 32 := N_0; omega)

end Cert.KernelIdeal.Fr

end
-- ==== Proof.Launch.lean ====
/-
  The launch: @main is the region followed by twenty-one host lines. The two input windows read ONE argument
  array, so the array is dealt to them in two half shares at the region's entry and is never touched again:
  the host lines read the two results and the buffers that bypass the region only. The run ends with every
  window's array at the pipeline's account of it and every bypassing buffer at the host lines' value.
-/
import proofs.«139039_j44513041056397_2_alg».proof.Proof.Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef restRefs unscopedRest chain)

/-! ## The argument array dealt to the two input windows -/

theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [bigSep_eq_bigSepL_of_eq [main_arg0, main_v0_0, main_v0_1] (by decide) (by decide)]
  simp only [bigSepL_cons_cons, bigSepL_singleton]
  rw [(Memref.isWhole_whole (sig := sig) (κ := .tc) main_arg0).set_eq_univ, (Memref.isWhole_whole (sig := sig) (κ := .tc) main_v0_0).set_eq_univ, (Memref.isWhole_whole (sig := sig) (κ := .tc) main_v0_1).set_eq_univ]
  show iprop((((c.tc : Thread nD τ).loc main_arg0) ↦{fullShare} V m c main_arg0) ∗ (((c.tc : Thread nD τ).loc main_v0_0) ↦{fullShare} V m c main_v0_0) ∗ (((c.tc : Thread nD τ).loc main_v0_1) ↦{fullShare} V m c main_v0_1))
    ⊢ iprop((((c.tc : Thread nD τ).loc main_arg0) ↦{fullShare.left} V m c main_arg0) ∗ (((c.tc : Thread nD τ).loc main_arg0) ↦{fullShare.right} V m c main_arg0)
      ∗ (((c.tc : Thread nD τ).loc main_v0_0) ↦{fullShare} V m c main_v0_0) ∗ (((c.tc : Thread nD τ).loc main_v0_1) ↦{fullShare} V m c main_v0_1))
  iintro ⟨Ha, H2, H3⟩
  ihave Ha' := (pointsTo_share (PosShare.mem_left_op_right fullShare)).1 $$ Ha
  icases Ha' with ⟨Hl, Hr⟩
  isplitl [Hl]; · iexact Hl
  isplitl [Hr]; · iexact Hr
  isplitl [H2]; · iexact H2
  iexact H3

/-! ## The host lines after the region -/

/-- The buffers that bypass the region, and with the two results in front the buffers the host lines touch. -/
abbrev restL : List (Ref sig .tc) := [main_v1, main_v2, main_v3, main_cst, main_v4, main_cst_0, main_v5, main_v6, main_v7, main_v8, main_v9, main_c, main_v10, main_v11, main_v12, main_v13, main_cst_1, main_v14, main_v15, main_cst_2, main_v16]
abbrev tailL : List (Ref sig .tc) := main_v0_0 :: main_v0_1 :: restL
def tailS : Finset (DevRef τ sig) := tailL.toFinset.map ⟨Proc.devRef (sig := sig) .tc, Proc.devRef_injective _⟩

/-- The core's buffers when the region is left: each window's array at the pipeline's account of it, every other
    buffer as the region found it. -/
def Wexit (c : Dev nD) : Valuation τ sig (Elt F) :=
  Pipeline.withArrays spec0 c (V0 m c) (fun w => (dats m 0 c).arrAt w cfg0.N)
/-- And after the host lines. -/
def Wfin (c : Dev nD) : Valuation τ sig (Elt F) := StableHlo.after hostOps1 (Wexit m c)

/-- A window whose array no other window has: the exit contents there are that window's. -/
theorem withArrays_at (c : Dev nD) (Vv : Valuation τ sig (Elt F))
    (A : (w : Fin 4) → Buf (Elt F) ((spec0 w).arr.view.loc (c.tc : Thread nD τ))) (w : Fin 4)
    (hu : ∀ w', arrRef spec0 w' = arrRef spec0 w → w' = w) :
    Pipeline.withArrays spec0 c Vv A (Proc.devRef .tc (arrRef spec0 w)) = A w := by
  unfold Pipeline.withArrays
  have h : ∃ w', Proc.devRef .tc (arrRef spec0 w') = Proc.devRef (τ := τ) .tc (arrRef spec0 w) := ⟨w, rfl⟩
  rw [dif_pos h]
  suffices ∀ (w' : Fin 4) (e : Proc.devRef .tc (arrRef spec0 w') = Proc.devRef (τ := τ) .tc (arrRef spec0 w)),
      cast (congrArg (fun b' : DevRef τ sig => b'.ty.Contents (Elt F)) e) (A w') = A w from this _ h.choose_spec
  intro w' e
  obtain rfl : w' = w := hu w' (Proc.devRef_injective _ e)
  rfl

theorem Wexit_res0 (c : Dev nD) : Wexit m c (Proc.devRef .tc main_v0_0) = (dats m 0 c).arrAt 2 cfg0.N :=
  withArrays_at c _ _ 2 (by decide)
theorem Wexit_res1 (c : Dev nD) : Wexit m c (Proc.devRef .tc main_v0_1) = (dats m 0 c).arrAt 3 cfg0.N :=
  withArrays_at c _ _ 3 (by decide)
theorem Wexit_rest (c : Dev nD) (r : Ref sig .tc) (hr : r ∈ restL) : Wexit m c (Proc.devRef .tc r) = V m c r :=
  Pipeline.withArrays_of_ne spec0 c (V0 m c) _ r (by revert r; decide)

/-- A chain over a list depends on the elements' terms only. -/
theorem bigSepL_congr' {I : Type} {M : Type} [URA M] : ∀ (l : List I) (Φ Ψ : I → sProp M), (∀ i ∈ l, Φ i = Ψ i) → bigSepL l Φ = bigSepL l Ψ
  | [], _, _, _ => rfl
  | i :: l, Φ, Ψ, h => by
    rw [bigSepL_cons, bigSepL_cons, h i List.mem_cons_self, bigSepL_congr' l Φ Ψ fun j hj => h j (List.mem_cons_of_mem _ hj)]

/-- The buffers the host lines touch, held at a valuation, one by one. -/
theorem held_tail (c : Dev nD) (W : Valuation τ sig (Elt F)) :
    (StableHlo.held (c.tc : Thread nD τ) tailS W : sProp 𝕄)
      = bigSepL tailL fun r => (((c.tc : Thread nD τ).loc r) ↦{fullShare} W (Proc.devRef .tc r) : sProp 𝕄) := by
  unfold StableHlo.held tailS
  rw [bigSep_map, bigSep_eq_bigSepL tailL (by decide)]
  rfl

/-- The buffers that bypass the region, at contents `Vf`, one by one. -/
theorem rest_chain (c : Dev nD) (Vf : (b : Ref sig .tc) → Buf (Elt F) ((c : Thread nD τ).loc b)) :
    (unscopedRest (Ix := Unit) (Name := ℕ) (U := UR sig nD τ) (Lvl := ℕ) spec0 c Vf : sProp 𝕄)
      = bigSepL restL fun r => (((c.tc : Thread nD τ).loc r) ↦{fullShare} Vf r : sProp 𝕄) := by
  rw [unscopedRest0_eq]; rfl

/-- Every host line touches only those buffers, -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals
    intro b hb
    simp only [StableHlo.nullary_bufs, StableHlo.unary_bufs, StableHlo.binary_bufs, StableHlo.reshape_bufs, Finset.mem_insert, Finset.mem_singleton] at hb
    unfold tailS
    rcases hb with rfl | rfl | rfl <;> exact Finset.mem_map.mpr ⟨_, by decide, rfl⟩
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- and writes neither result of the region. -/
theorem tail_keeps (r : Ref sig .tc) (hr : r = main_v0_0 ∨ r = main_v0_1) :
    ∀ op ∈ (hostOps1 : List (HloOp τ sig (Elt F))), Proc.devRef .tc r ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton]
    rcases hr with rfl | rfl <;> exact StableHlo.devRef_ne_of_ne (by decide)

theorem tail_in (c : Dev nD) :
    iprop(((((c.tc : Thread nD τ).loc main_v0_0)) ↦{fullShare} (dats m 0 c).arrAt 2 cfg0.N) ∗ ((((c.tc : Thread nD τ).loc main_v0_1)) ↦{fullShare} (dats m 0 c).arrAt 3 cfg0.N)
        ∗ bigSepL restL fun r => ((((c.tc : Thread nD τ).loc r)) ↦{fullShare} V m c r : sProp 𝕄))
      ⊢ (StableHlo.held (c.tc : Thread nD τ) tailS (Wexit m c) : sProp 𝕄) := by
  rw [held_tail]
  show _ ⊢ iprop(((((c.tc : Thread nD τ).loc main_v0_0)) ↦{fullShare} Wexit m c (Proc.devRef .tc main_v0_0)) ∗ ((((c.tc : Thread nD τ).loc main_v0_1)) ↦{fullShare} Wexit m c (Proc.devRef .tc main_v0_1))
        ∗ bigSepL restL fun r => ((((c.tc : Thread nD τ).loc r)) ↦{fullShare} Wexit m c (Proc.devRef .tc r) : sProp 𝕄))
  rw [Wexit_res0, Wexit_res1, bigSepL_congr' restL (fun r => ((((c.tc : Thread nD τ).loc r)) ↦{fullShare} Wexit m c (Proc.devRef .tc r) : sProp 𝕄)) (fun r => ((((c.tc : Thread nD τ).loc r)) ↦{fullShare} V m c r : sProp 𝕄)) (fun r hr => by rw [Wexit_rest m c r hr])]

theorem tail_out (c : Dev nD) :
    (StableHlo.held (c.tc : Thread nD τ) tailS (Wfin m c) : sProp 𝕄)
      ⊢ iprop(((((c.tc : Thread nD τ).loc main_v0_0)) ↦{fullShare} (dats m 0 c).arrAt 2 cfg0.N) ∗ ((((c.tc : Thread nD τ).loc main_v0_1)) ↦{fullShare} (dats m 0 c).arrAt 3 cfg0.N)
        ∗ bigSepL restL fun r => ((((c.tc : Thread nD τ).loc r)) ↦{fullShare} Wfin m c (Proc.devRef .tc r) : sProp 𝕄)) := by
  rw [held_tail]
  show iprop(((((c.tc : Thread nD τ).loc main_v0_0)) ↦{fullShare} Wfin m c (Proc.devRef .tc main_v0_0)) ∗ ((((c.tc : Thread nD τ).loc main_v0_1)) ↦{fullShare} Wfin m c (Proc.devRef .tc main_v0_1))
        ∗ bigSepL restL fun r => ((((c.tc : Thread nD τ).loc r)) ↦{fullShare} Wfin m c (Proc.devRef .tc r) : sProp 𝕄)) ⊢ _
  rw [show Wfin m c (Proc.devRef .tc main_v0_0) = (dats m 0 c).arrAt 2 cfg0.N from
        (StableHlo.after_of_forall_not_mem _ _ (tail_keeps main_v0_0 (.inl rfl))).trans (Wexit_res0 m c),
      show Wfin m c (Proc.devRef .tc main_v0_1) = (dats m 0 c).arrAt 3 cfg0.N from
        (StableHlo.after_of_forall_not_mem _ _ (tail_keeps main_v0_1 (.inr rfl))).trans (Wexit_res1 m c)]

theorem Wfin_eq (c : Dev nD) : StableHlo.after ([hostOps1] : List (List (HloOp τ sig (Elt F)))).flatten (Wexit m c) = Wfin m c := by
  unfold Wfin; rw [List.flatten_cons, List.flatten_nil, List.append_nil]

/-- The host lines, from the region's exit: the argument array's two half shares pass untouched. -/
theorem htail (c : Dev nD) (Q' : PUnit → sProp 𝕄) :
    iprop((iprop((dats m 0 c).arrays ((dats m 0 c).arrAt · cfg0.N)
              ∗ unscopedRest (Ix := Unit) (Name := ℕ) (U := UR sig nD τ) (Lvl := ℕ) spec0 c (fun b => Wfin m c (Proc.devRef .tc b))) -∗ Q' ⟨⟩)
        ∗ boundary (c.tc : Thread nD τ) ∗ (dats m 0 c).arrays ((dats m 0 c).arrAt · cfg0.N)
        ∗ unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (chain [StableHlo.seq hostOps1]) Q' := by
  unfold Dat.arrays
  rw [bigSep_W0, rest_chain, rest_chain]
  rw [(Memref.isWhole_whole (sig := sig) (κ := .tc) main_arg0).set_eq_univ, (Memref.isWhole_whole (sig := sig) (κ := .tc) main_v0_0).set_eq_univ, (Memref.isWhole_whole (sig := sig) (κ := .tc) main_v0_1).set_eq_univ]
  iintro ⟨Hk, Hb, ⟨Ha0, Ha1, Ha2, Ha3⟩, HR⟩
  ihave HH := (tail_in m c) $$ [Ha2 Ha3 HR]
  · isplitl [Ha2]; · iexact Ha2
    isplitl [Ha3]; · iexact Ha3
    iexact HR
  iapply (Pipeline.wp_seqs_then (fun q => Cfg.toPCfg (Val := Elt F) (cfgs q)) defs₀ Variants.none c tailS [] [hostOps1] tail_sub tail_fresh (Wexit m c)) $$ [Hb HH]
  · isplitl [Hb] <;> iassumption
  iintro ⟨Hb, HH⟩
  rw [Pipeline.chain_nil, wp_pure, Wfin_eq]
  imodintro
  ihave HO := (tail_out m c) $$ HH
  icases HO with ⟨Ha2, Ha3, HR⟩
  iapply Hk
  isplitr [HR]
  · isplitl [Ha0]; · iexact Ha0
    isplitl [Ha1]; · iexact Ha1
    isplitl [Ha2]; · iexact Ha2
    iexact Ha3
  iexact HR

/-! ## The run -/

/-- Every weakly fair execution of @main terminates; it ends with every window's array at the pipeline's account
    of it and every buffer that bypasses the region at the host lines' value. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ restRefs sig spec0, r.2.mem ((c.tc : Thread nD τ).loc b) = Wfin m c (Proc.devRef .tc b)) := by
  classical
  exact Pipeline.θ_run_region_pf_tail (fun q => Cfg.toPCfg (Val := Elt F) (cfgs q)) (fun q => (cfgs q).toPCfg_adm) (dats m) () cellOf_inj 0
    winFacts₀0 (Pipeline.OwnSemFacts.none _) (Pipeline.PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (Pipeline.cells (Pipeline.pin (fun q => Cfg.toPCfg (Val := Elt F) (cfgs q)) fun q => (cfgs q).toPCfg_adm) cellOf_inj) (Pipeline.launchToks (Pipeline.pin (fun q => Cfg.toPCfg (Val := Elt F) (cfgs q)) fun q => (cfgs q).toPCfg_adm) cellOf_inj))
    (hu₀ := by
      iintro Hu; imodintro
      isplitl [Hu]
      · iapply (show (ownU _ : sProp 𝕄) ⊢ BI.own (emb₁ (initOf (Pipeline.cells (Pipeline.pin (fun q => Cfg.toPCfg (Val := Elt F) (cfgs q)) fun q => (cfgs q).toPCfg_adm) cellOf_inj) (Pipeline.launchToks (Pipeline.pin (fun q => Cfg.toPCfg (Val := Elt F) (cfgs q)) fun q => (cfgs q).toPCfg_adm) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (fun b => Wfin m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ restRefs sig spec0, s.mem ((c.tc : Thread nD τ).loc b) = Wfin m c (Proc.devRef .tc b))
    (hY := fun c s' => by
      iintro ⟨-, HU, HSI⟩
      unfold Pipeline.unscopedRest
      imodintro
      iapply (pointsTo_read_all (restRefs sig spec0) (fun b => (c.tc : Thread nD τ).loc b) (fun b => Wfin m c (Proc.devRef .tc b)) s')
      isplitl [HU] <;> iassumption)
    (hQ := fun s h c => ⟨(h c).1, (h c).2.2⟩)

/-- THE FRAME: every weakly fair execution of @main terminates, and the argument array ends as it began (an input
    window's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.KernelIdeal.Fr

end
-- ==== Proof.KerPieces.lean ====
/-
  What each case of the body leaves in the buffers it stores into, as the body's own arithmetic of what it
  loaded: the running sums are the loaded sums plus the tile's row sums of exponentials, the running triangle
  sum the loaded one plus the tile's masked total, the output blocks copies of the two; at the reset point the
  resident rows' scratch is the four chunks of 256 normalised rows, and the accumulators start from zero.
-/
import proofs.«139039_j44513041056397_2_alg».proof.Proof.Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl
theorem hz3 : (![0, 0, 0] : Fin 3 → ℕ) = fun _ => 0 := by funext a; fin_cases a <;> rfl

/-! ## The points after the reset -/

theorem sE_B_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) :
    sE_B c i arg2 harg2 arg3 harg3 arg4 harg4 arg5 harg5 arg6 harg6 arg7 harg7 arg8 harg8 hA hB hC x1 xz xe xt = k0_pay4 x1 xz xe := by
  unfold sE_B
  rw [View.read_writes_eq_canon _ _ _ (cov_sE_B c i arg2 harg2 arg3 harg3 arg4 harg4 arg5 harg5 arg6 harg6 arg7 harg7 arg8 harg8 hA hB hC x1 xz xe xt)]
  unfold runB
  dsimp only
  refine (View.canon_unit_zero (S := S1024x1) hz2 _ _).trans ?_
  simp only [View.readAt_eq_ld, Memref.IsWhole.read_unread, View.ld_unit_zero (S := S512x1024) hz2, View.ld_unit_zero (S := S1024x1024) hz2, View.ld_unit_zero (S := S1024x1) hz2, View.ld_unit_zero (S := S8x128) hz2, View.ld_unit_zero (S := S1x8x128) hz3]

theorem sT_B_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : condB i) (hC : ¬condC i)
    (x1 : Vec F S512x1024 .f32) (xz : Vec F S1024x1024 .bf16) (xe : Vec F S1024x1 .f32) (xt : Vec F S8x128 .f32) :
    sT_B c i arg2 harg2 arg3 harg3 arg4 harg4 arg5 harg5 arg6 harg6 arg7 harg7 arg8 harg8 hA hB hC x1 xz xe xt = k0_pay5 i x1 xz xt := by
  unfold sT_B
  rw [View.read_writes_eq_canon _ _ _ (cov_sT_B c i arg2 harg2 arg3 harg3 arg4 harg4 arg5 harg5 arg6 harg6 arg7 harg7 arg8 harg8 hA hB hC x1 xz xe xt)]
  unfold runB
  dsimp only
  refine (View.canon_unit_zero (S := S8x128) hz2 _ _).trans ?_
  simp only [View.readAt_eq_ld, Memref.IsWhole.read_unread, View.ld_unit_zero (S := S512x1024) hz2, View.ld_unit_zero (S := S1024x1024) hz2, View.ld_unit_zero (S := S1024x1) hz2, View.ld_unit_zero (S := S8x128) hz2, View.ld_unit_zero (S := S1x8x128) hz3]

theorem sE_C_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : ¬condC i)
    (x1 : Vec F S512x1024 .f32) (xz : Vec F S1024x1024 .bf16) (xe : Vec F S1024x1 .f32) :
    sE_C c i arg2 harg2 arg3 harg3 arg4 harg4 arg5 harg5 arg6 harg6 arg7 harg7 arg8 harg8 hA hB hC x1 xz xe = k0_pay4 x1 xz xe := by
  unfold sE_C
  rw [View.read_writes_eq_canon _ _ _ (cov_sE_C c i arg2 harg2 arg3 harg3 arg4 harg4 arg5 harg5 arg6 harg6 arg7 harg7 arg8 harg8 hA hB hC x1 xz xe)]
  unfold runC
  dsimp only
  refine (View.canon_unit_zero (S := S1024x1) hz2 _ _).trans ?_
  simp only [View.readAt_eq_ld, Memref.IsWhole.read_unread, View.ld_unit_zero (S := S512x1024) hz2, View.ld_unit_zero (S := S1024x1024) hz2, View.ld_unit_zero (S := S1024x1) hz2, View.ld_unit_zero (S := S8x128) hz2, View.ld_unit_zero (S := S1x8x128) hz3]

theorem sE_D_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) :
    sE_D c i arg2 harg2 arg3 harg3 arg4 harg4 arg5 harg5 arg6 harg6 arg7 harg7 arg8 harg8 hA hB hC x1 xz xe xt = k0_pay4 x1 xz xe := by
  unfold sE_D
  rw [View.read_writes_eq_canon _ _ _ (cov_sE_D c i arg2 harg2 arg3 harg3 arg4 harg4 arg5 harg5 arg6 harg6 arg7 harg7 arg8 harg8 hA hB hC x1 xz xe xt)]
  unfold runD
  dsimp only
  sl_unfold_run_names
  refine (View.canon_unit_zero (S := S1024x1) hz2 _ _).trans ?_
  simp only [View.readAt_eq_ld, Memref.IsWhole.read_unread, View.ld_unit_zero (S := S512x1024) hz2, View.ld_unit_zero (S := S1024x1024) hz2, View.ld_unit_zero (S := S1024x1) hz2, View.ld_unit_zero (S := S8x128) hz2, View.ld_unit_zero (S := S1x8x128) hz3]

theorem o2_D_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) :
    o2_D c i arg2 harg2 arg3 harg3 arg4 harg4 arg5 harg5 arg6 harg6 arg7 harg7 arg8 harg8 hA hB hC x1 xz xe xt = k0_pay4 x1 xz xe := by
  unfold o2_D
  rw [View.read_writes_eq_canon _ _ _ (cov_o2_D c i arg2 harg2 arg3 harg3 arg4 harg4 arg5 harg5 arg6 harg6 arg7 harg7 arg8 harg8 hA hB hC x1 xz xe xt)]
  unfold runD
  dsimp only
  sl_unfold_run_names
  refine (View.canon_unit_zero (S := S1024x1) hz2 _ _).trans ?_
  refine (View.readCov_unit_zero (S := S1024x1) _ hz2 _ _).trans ?_
  simp only [View.readAt_eq_ld, Memref.IsWhole.read_unread, View.ld_unit_zero (S := S512x1024) hz2, View.ld_unit_zero (S := S1024x1024) hz2, View.ld_unit_zero (S := S1024x1) hz2, View.ld_unit_zero (S := S8x128) hz2, View.ld_unit_zero (S := S1x8x128) hz3]

theorem o3_D_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : ¬condA i) (hB : ¬condB i) (hC : condC i)
    (x1 : Vec F S512x1024 .f32) (xz : Vec F S1024x1024 .bf16) (xe : Vec F S1024x1 .f32) (xt : Vec F S8x128 .f32) :
    o3_D c i arg2 harg2 arg3 harg3 arg4 harg4 arg5 harg5 arg6 harg6 arg7 harg7 arg8 harg8 hA hB hC x1 xz xe xt = k0_pay6 xt := by
  unfold o3_D
  rw [View.read_writes_eq_canon _ _ _ (cov_o3_D c i arg2 harg2 arg3 harg3 arg4 harg4 arg5 harg5 arg6 harg6 arg7 harg7 arg8 harg8 hA hB hC x1 xz xe xt)]
  unfold runD
  dsimp only
  refine (View.canon_unit_zero (S := S1x8x128) hz3 _ _).trans ?_
  simp only [View.readAt_eq_ld, Memref.IsWhole.read_unread, View.ld_unit_zero (S := S512x1024) hz2, View.ld_unit_zero (S := S1024x1024) hz2, View.ld_unit_zero (S := S1024x1) hz2, View.ld_unit_zero (S := S8x128) hz2, View.ld_unit_zero (S := S1x8x128) hz3]

/-! ## The reset point -/

/-- The four chunks of 256 normalised rows, as the stores leave them (last first). -/
def zPieces (x0 : Vec F S1024x1024 .f32) : List (View.Piece (Elt F) S1024x1024 .bf16) :=
  [⟨Rect.unit (s := S1024x1024) ![768, 0] S256x1024.size (by decide), k0_pay2 (View.ld x0 (Rect.unit (s := S1024x1024) ![768, 0] S256x1024.size (by decide)))⟩,
   ⟨Rect.unit (s := S1024x1024) ![512, 0] S256x1024.size (by decide), k0_pay1 (View.ld x0 (Rect.unit (s := S1024x1024) ![512, 0] S256x1024.size (by decide)))⟩,
   ⟨Rect.unit (s := S1024x1024) ![256, 0] S256x1024.size (by decide), k0_pay10 (View.ld x0 (Rect.unit (s := S1024x1024) ![256, 0] S256x1024.size (by decide)))⟩,
   ⟨Rect.unit (s := S1024x1024) ![0, 0] S256x1024.size (by decide), k0_pay9 (View.ld x0 (Rect.unit (s := S1024x1024) ![0, 0] S256x1024.size (by decide)))⟩]

/-- The four chunks tile the scratch. -/
theorem zPieces_cover (x0 : Vec F S1024x1024 .f32) (y : S1024x1024.Idx) : ∃ pc ∈ zPieces x0, y ∈ pc.1.set :=
  View.cover_of_tiledL (zPieces x0) S256x1024.size (by sl_kernel_rfl) y

/-- The resident rows, normalised: what the scratch holds from the reset point on. -/
def zA (x0 : Vec F S1024x1024 .f32) : Vec F S1024x1024 .bf16 := View.canon (zPieces x0)

theorem sZ_A_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) :
    sZ_A c i arg2 harg2 arg3 harg3 arg4 harg4 arg5 harg5 arg6 harg6 arg7 harg7 arg8 harg8 hA hB hC x0 x1 = zA x0 := by
  unfold sZ_A
  rw [View.read_writes_eq_canon _ _ _ (cov_sZ_A c i arg2 harg2 arg3 harg3 arg4 harg4 arg5 harg5 arg6 harg6 arg7 harg7 arg8 harg8 hA hB hC x0 x1)]
  unfold runA
  dsimp only
  sl_unfold_run_names
  simp only [View.readAt_eq_ld, Memref.IsWhole.read_unread]
  rfl

/-- A load of the whole scratch after stores that tile it reads what the stores left. -/
theorem readCov_whole_Z (arg6 : Memref sig .tc .vmem S1024x1024 .bf16) (L : List (View.Piece (Elt F) S1024x1024 .bf16))
    (hc : ∀ y, ∃ pc ∈ L, y ∈ pc.1.set) (inb : ∀ a, (![0, 0] : Fin 2 → ℕ) a + S1024x1024.size a ≤ S1024x1024.size a) :
    arg6.view.readCov L (Rect.unit (s := S1024x1024) ![0, 0] S1024x1024.size inb).toLoadRect = View.canon L :=
  (View.readCov_eq_canon_ld _ _ _ hc).trans (View.ld_unit_zero (S := S1024x1024) hz2 _ _)

set_option maxHeartbeats 1600000 in
theorem sE_A_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) :
    sE_A c i arg2 harg2 arg3 harg3 arg4 harg4 arg5 harg5 arg6 harg6 arg7 harg7 arg8 harg8 hA hB hC x0 x1 = k0_pay4 x1 (zA x0) k0_pay7 := by
  unfold sE_A
  rw [View.read_writes_eq_canon _ _ _ (cov_sE_A c i arg2 harg2 arg3 harg3 arg4 harg4 arg5 harg5 arg6 harg6 arg7 harg7 arg8 harg8 hA hB hC x0 x1)]
  unfold runA
  dsimp only
  sl_unfold_run_names
  refine (View.canon_cons_unit_zero (S := S1024x1) hz2 _ _ _).trans ?_
  simp only [View.readAt_eq_ld, Memref.IsWhole.read_unread, View.ld_unit_zero (S := S512x1024) hz2]
  refine congr (congrArg (k0_pay4 x1) (?_ : _ = zA x0)) (?_ : _ = k0_pay7)
  · exact readCov_whole_Z arg6 (zPieces x0) (zPieces_cover x0) _
  · exact View.readCov_unit_zero (S := S1024x1) _ hz2 _ _

set_option maxHeartbeats 1600000 in
theorem sT_A_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1x8x128 .f32) (harg5 : arg5.IsWhole) (arg6 : Memref sig .tc .vmem S1024x1024 .bf16) (harg6 : arg6.IsWhole) (arg7 : Memref sig .tc .vmem S1024x1 .f32) (harg7 : arg7.IsWhole) (arg8 : Memref sig .tc .vmem S8x128 .f32) (harg8 : arg8.IsWhole) (hA : condA i) (hB : condB i) (hC : ¬condC i)
    (x0 : Vec F S1024x1024 .f32) (x1 : Vec F S512x1024 .f32) :
    sT_A c i arg2 harg2 arg3 harg3 arg4 harg4 arg5 harg5 arg6 harg6 arg7 harg7 arg8 harg8 hA hB hC x0 x1 = k0_pay5 i x1 (zA x0) k0_pay8 := by
  unfold sT_A
  rw [View.read_writes_eq_canon _ _ _ (cov_sT_A c i arg2 harg2 arg3 harg3 arg4 harg4 arg5 harg5 arg6 harg6 arg7 harg7 arg8 harg8 hA hB hC x0 x1)]
  unfold runA
  dsimp only
  sl_unfold_run_names
  refine (View.canon_cons_unit_zero (S := S8x128) hz2 _ _ _).trans ?_
  simp only [View.readAt_eq_ld, Memref.IsWhole.read_unread, View.ld_unit_zero (S := S512x1024) hz2]
  refine congr (congrArg (k0_pay5 i x1) (?_ : _ = zA x0)) (?_ : _ = k0_pay8)
  · exact readCov_whole_Z arg6 (zPieces x0) (zPieces_cover x0) _
  · exact View.readCov_unit_zero (S := S8x128) _ hz2 _ _

end Cert.KernelIdeal.Fr

end
-- ==== Proof.Spec.lean ====
/-
  The two programs' results as formulas of the input matrix, read at natural-number positions.

  Rows are normalised to unit length; s(i,j) is twice the inner product of the normalised rows i and j
  (the temperature is 1/2). For each of the first 2048 rows the loss needs the sum over ALL 8192 columns of
  exp s(i,j) less the diagonal term, and the sum of s(i,j) over the strict upper triangle i < j < 2048.
  The kernel normalises by a reciprocal square root, accumulates the exponentials tile by tile (16 tiles of
  512 columns), takes the diagonal term to be exp 2, and sums the triangle per block of 1024 rows over the
  four tiles that meet the columns below 2048. The reference divides by the square root, reads the diagonal
  term off the matrix of exponentials, and sums the triangle in one go.
-/
import Idealize.ShloMosaic.PureOps.Ideal
import Idealize.ShloMosaic.Lib.ValueIdx

noncomputable section

open scoped BigOperators

namespace Cert.Proof.Spec

open Idealize.ShloMosaic

/-- The four float literals of the two programs: 2, 1/2, 0 and -2047/1024, as the words both programs print. -/
def two : EReal := Ideal.ofBits .f32 0x40000000#32
def half : EReal := Ideal.ofBits .f32 0x3F000000#32
def zero : EReal := Ideal.ofBits .f32 0x00000000#32
def scale : EReal := Ideal.ofBits .f32 0xBFFFE000#32

variable (X : ℕ → ℕ → EReal) (cnt : ℕ → EReal)

/-- The sum of squares of row `i`. -/
def ssq (i : ℕ) : EReal := ∑ d ∈ Finset.range 1024, X i d * X i d

/-! ## The kernel's side -/

/-- Row `i` normalised by the reciprocal square root. -/
def zk (i d : ℕ) : EReal := X i d * Ideal.rsqrt (ssq X i)
/-- Twice the inner product of the normalised rows `i` and `j`. -/
def sk (i j : ℕ) : EReal := (∑ d ∈ Finset.range 1024, zk X i d * zk X j d) * two
/-- Row `i`'s sum of exponentials, tile by tile. -/
def kerE (i : ℕ) : EReal := ∑ k ∈ Finset.range 16, ∑ c ∈ Finset.range 512, Ideal.exp (sk X i (512 * k + c))
/-- Row block `a`'s strict-upper-triangle sum over the four tiles below column 2048. -/
def kerT (a : ℕ) : EReal :=
  ∑ k ∈ Finset.range 4, ∑ r ∈ Finset.range 1024, ∑ c ∈ Finset.range 512,
    if 1024 * a + r < 512 * k + c ∧ 512 * k + c < 2048 then sk X (1024 * a + r) (512 * k + c) else zero
/-- The kernel's result. -/
def kerRes : EReal :=
  scale * ((zero + ∑ i ∈ Finset.range 2048, cnt i * Ideal.log (kerE X i - Ideal.exp two))
    - (zero + ∑ a ∈ Finset.range 2, kerT X a))

/-! ## The reference's side -/

/-- Row `i` divided by its norm. -/
def zr (i d : ℕ) : EReal := Ideal.div (X i d) (Ideal.sqrt (zero + ssq X i))
/-- The inner product of the normalised rows `i` and `j` divided by the temperature. -/
def sr (i j : ℕ) : EReal := Ideal.div (∑ d ∈ Finset.range 1024, zr X i d * zr X j d) half
/-- Row `i`'s sum of exponentials over all columns. -/
def refE (i : ℕ) : EReal := zero + ∑ j ∈ Finset.range 8192, Ideal.exp (sr X i j)
/-- The strict-upper-triangle sum. -/
def refT : EReal := zero + ∑ i ∈ Finset.range 2048, ∑ j ∈ Finset.range 2048, if j ≤ i then zero else sr X i j
/-- The reference's result. -/
def refRes : EReal :=
  scale * ((zero + ∑ i ∈ Finset.range 2048, cnt i * Ideal.log (refE X i - Ideal.exp (sr X i i))) - refT X)

end Cert.Proof.Spec

end
-- ==== Proof.LibColumn.lean ====
/-
  Layout and reduction operations of a row sum that keeps its axis, read at an index given by coordinates, at any
  extents: a vector cast to a column, a column broadcast over the lanes, a one-element array broadcast everywhere,
  and the float sum along the lanes of a matrix and down a column, each as a sum over a literal Fin range.
-/
import Idealize.ShloMosaic.Lib.ValueIdx
import Idealize.ShloMosaic.Lib.ValueLayout
import Idealize.ShloMosaic.Lib.Pipeline.Value
import Idealize.ShloMosaic.PureOps.Ideal.Laws

open scoped BigOperators

namespace Cert.Proof.Column

open Idealize.ShloMosaic Idealize.ShloMosaic.ValueIdx

variable {α : Type}

/-- An [a] array cast to the column [a, 1] reads, at (i, u), the operand at i, whatever the unit coordinate u:
    both positions in row-major order are i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, j), the column's entry of row i. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A [1, 1] array broadcast to [a, b] reads its one element everywhere. -/
theorem broadcastTo_11_ab_apply {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

variable {φ : FTy}

/-- The float sum along the lanes (axis 1) of an [a, b] matrix reads, at row i, the sum of that row's entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun c => ?_)
  match c with
  | ⟨0, _⟩ => rfl
  | ⟨1, _⟩ => rfl

/-- The float sum down an [a, 1] column (axis 0) reads, at its one index, the sum of the column's entries. -/
theorem colSum_apply {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction (F := Ideal) .add [0] ⟨1, ![1]⟩ src acc h hφ hacc (ix1 u) = ∑ k : Fin a, src (ix2 k (0 : Fin 1)) := by
  refine (Ideal.multiReduction_add_single src acc h hφ hacc (ix1 u)).trans ?_
  refine Finset.sum_congr rfl fun k _ => congrArg src (funext fun c => ?_)
  match c with
  | ⟨0, _⟩ => rfl
  | ⟨1, _⟩ => exact Fin.ext (by show u.val = 0; omega)

end Cert.Proof.Column
-- ==== Proof.KerPayNorm.lean ====
/-
  The kernel body's stored values read at an index, at the ideal values.

  Each of the four row-normalisation values is the block's entry times the reciprocal square root of its row's
  sum of squares. The score tile at (r, c) is twice the inner product of the stored normalised row r with the
  normalised row c of the column block. The running row sums add, at row r, the sum of the exponentials of the
  tile's row r. The two initial values are the zero word everywhere, and the last cast adds a unit axis.
-/
import proofs.«139039_j44513041056397_2_alg».proof.Proof.Gen.KernelIdeal.Skeleton
import proofs.«139039_j44513041056397_2_alg».proof.Proof.Spec
import proofs.«139039_j44513041056397_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx
open Cert.Proof

/-! ## A row normalised by the reciprocal square root of its sum of squares -/

/-- The entry (r, d) of an [a, b] block times the reciprocal square root of the sum of squares of row r: the lane sum
    of the squares, cast to a column, its reciprocal square root broadcast back over the lanes. -/
theorem norm_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec FTy.f32.bits) = FKind.add.neutral .f32 hφ)
    (hsc : (⟨1, ![a]⟩ : Shape).ShapeCasts ⟨2, ![a, 1]⟩) (hbc : (⟨2, ![a, 1]⟩ : Shape).Broadcasts ⟨2, ![a, b]⟩)
    (r : Fin a) (d : Fin b) :
    mulf v (broadcastTo ⟨2, ![a, b]⟩ (rsqrt (shapeCast ⟨2, ![a, 1]⟩
      (multiReduction (F := Ideal) .add [1] ⟨1, ![a]⟩ (mulf v v) 0x00000000#32 hred hφ hacc) hsc)) hbc) (ix2 r d)
      = v (ix2 r d) * Ideal.rsqrt (∑ e : Fin b, v (ix2 r e) * v (ix2 r e)) := by
  refine (mulf_apply _ _ _).trans (congrArg (v (ix2 r d) * ·) ?_)
  refine (Column.broadcastTo_a1_ab_apply _ hbc r d).trans ?_
  refine congrArg Ideal.rsqrt ?_
  refine (Column.shapeCast_a_a1_apply _ hsc r 0).trans ?_
  exact Column.laneSum_apply (mulf v v) _ hred hφ hacc r

/-- The same value after the narrowing format change (the identity on extended reals) and a cast to the same shape. -/
theorem norm_stored_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec FTy.f32.bits) = FKind.add.neutral .f32 hφ)
    (hsc : (⟨1, ![a]⟩ : Shape).ShapeCasts ⟨2, ![a, 1]⟩) (hbc : (⟨2, ![a, 1]⟩ : Shape).Broadcasts ⟨2, ![a, b]⟩)
    (hlt : FTy.bits .bf16 < FTy.bits .f32) (hself : (⟨2, ![a, b]⟩ : Shape).ShapeCasts ⟨2, ![a, b]⟩)
    (r : Fin a) (d : Fin b) :
    shapeCast ⟨2, ![a, b]⟩ (truncf .bf16 (mulf v (broadcastTo ⟨2, ![a, b]⟩ (rsqrt (shapeCast ⟨2, ![a, 1]⟩
      (multiReduction (F := Ideal) .add [1] ⟨1, ![a]⟩ (mulf v v) 0x00000000#32 hred hφ hacc) hsc)) hbc)) hlt) hself (ix2 r d)
      = v (ix2 r d) * Ideal.rsqrt (∑ e : Fin b, v (ix2 r e) * v (ix2 r e)) :=
  (congrFun (shapeCast_self _ hself) (ix2 r d)).trans (norm_apply v hred hφ hacc hsc hbc r d)

theorem pay9_apply (v : FVec Ideal S256x1024 .f32) (r : Fin 256) (d : Fin 1024) :
    k0_pay9 (F := Ideal) v (ix2 r d) = v (ix2 r d) * Ideal.rsqrt (∑ e : Fin 1024, v (ix2 r e) * v (ix2 r e)) :=
  norm_stored_apply v _ _ _ _ _ _ _ r d

theorem pay10_apply (v : FVec Ideal S256x1024 .f32) (r : Fin 256) (d : Fin 1024) :
    k0_pay10 (F := Ideal) v (ix2 r d) = v (ix2 r d) * Ideal.rsqrt (∑ e : Fin 1024, v (ix2 r e) * v (ix2 r e)) :=
  norm_stored_apply v _ _ _ _ _ _ _ r d

theorem pay1_apply (v : FVec Ideal S256x1024 .f32) (r : Fin 256) (d : Fin 1024) :
    k0_pay1 (F := Ideal) v (ix2 r d) = v (ix2 r d) * Ideal.rsqrt (∑ e : Fin 1024, v (ix2 r e) * v (ix2 r e)) :=
  norm_stored_apply v _ _ _ _ _ _ _ r d

theorem pay2_apply (v : FVec Ideal S256x1024 .f32) (r : Fin 256) (d : Fin 1024) :
    k0_pay2 (F := Ideal) v (ix2 r d) = v (ix2 r d) * Ideal.rsqrt (∑ e : Fin 1024, v (ix2 r e) * v (ix2 r e)) :=
  norm_stored_apply v _ _ _ _ _ _ _ r d

/-! ## The initial values and the last cast -/

theorem pay7_apply (j : S1024x1.Idx) : k0_pay7 (F := Ideal) j = Spec.zero := by
  unfold k0_pay7
  exact (congrFun (shapeCast_self _ _) j).trans rfl

theorem pay8_apply (j : S8x128.Idx) : k0_pay8 (F := Ideal) j = Spec.zero := by
  unfold k0_pay8
  exact (congrFun (shapeCast_self _ _) j).trans rfl

theorem pay6_apply (v31 : FVec Ideal S8x128 .f32) (s : Fin 8) (l : Fin 128) :
    k0_pay6 (F := Ideal) v31 (ix3 0 s l) = v31 (ix2 s l) :=
  shapeCast_ab_1ab_apply v31 _ 0 s l

end Cert.KernelIdeal.Pay

end
-- ==== Proof.KerPayDot.lean ====
/-
  The score tile and the running row sums read at an index, at the ideal values.

  The matrix product contracts the lanes of both operands: at (r, c) it is the sum over the lanes of the stored
  normalised row r times the column block's row c, normalised in place; the tile is twice that. The running row
  sum of row r gains the sum over the tile's 512 columns of the exponentials.
-/
import proofs.«139039_j44513041056397_2_alg».proof.Proof.KerPayNorm

noncomputable section

open scoped BigOperators

namespace Cert.KernelIdeal.Pay

open Cert.KernelIdeal Cert.KernelIdeal.Gen Idealize.ShloMosaic Idealize.ShloMosaic.ValueIdx
open Cert.Proof

/-- The dimension numbers of the tile's product: both operands contract their lane axis. -/
abbrev dotRows : DotDims S1024x1024 S512x1024 S1024x512 := dot_S1024x1024_S512x1024_S1024x512_1_1_0_0_n_n

theorem dotRows_lhs0 (j : S1024x512.Idx) (q : dotRows.contr.Idx) : (dotRows.lhsIdx j q 0).val = (j 0).val := by
  unfold DotDims.lhsIdx
  rw [dif_neg (show ¬(0 : Fin S1024x1024.rank) ∈ dotRows.lhsBatch by decide),
    dif_pos (show (0 : Fin S1024x1024.rank) ∈ dotRows.lhsNonContracting by decide)]
  rfl

theorem dotRows_lhs1 (j : S1024x512.Idx) (q : dotRows.contr.Idx) :
    (dotRows.lhsIdx j q 1).val = (q ⟨0, by decide⟩).val :=
  dotRows.lhsIdx_val_of_single rfl j q

theorem dotRows_rhs0 (j : S1024x512.Idx) (q : dotRows.contr.Idx) : (dotRows.rhsIdx j q 0).val = (j 1).val := by
  unfold DotDims.rhsIdx
  rw [dif_neg (show ¬(0 : Fin S512x1024.rank) ∈ dotRows.rhsBatch by decide),
    dif_pos (show (0 : Fin S512x1024.rank) ∈ dotRows.rhsNonContracting by decide)]
  rfl

theorem dotRows_rhs1 (j : S1024x512.Idx) (q : dotRows.contr.Idx) :
    (dotRows.rhsIdx j q 1).val = (q ⟨0, by decide⟩).val :=
  dotRows.rhsIdx_val_of_single rfl j q

/-- The product into the zero accumulator read at (r, c): the sum over the lanes k of the left operand at (r, k)
    times the right operand at (c, k). -/
theorem matmul_rows_apply (lhs : FVec Ideal S1024x1024 .bf16) (rhs : FVec Ideal S512x1024 .bf16)
    (r : Fin 1024) (c : Fin 512) :
    matmul dotRows none lhs rhs (constant (F := Ideal) S1024x512 .f32 0x00000000#32) (ix2 r c)
      = ∑ k : Fin 1024, lhs (ix2 r k) * rhs (ix2 c k) := by
  simp only [matmul]
  rw [Ideal.matmul_constant_zero_apply, ← Equiv.sum_comp (contrEquiv1 dotRows 1024 rfl rfl).symm]
  refine Finset.sum_congr rfl fun k _ => ?_
  have hk := contrEquiv1_symm_val dotRows 1024 rfl rfl k
  have el : dotRows.lhsIdx (ix2 r c) ((contrEquiv1 dotRows 1024 rfl rfl).symm k) = ix2 r k :=
    funext fun a => Fin.ext (by
      match a with
      | ⟨0, _⟩ => exact dotRows_lhs0 _ _
      | ⟨1, _⟩ => exact (dotRows_lhs1 _ _).trans hk)
  have er : dotRows.rhsIdx (ix2 r c) ((contrEquiv1 dotRows 1024 rfl rfl).symm k) = ix2 c k :=
    funext fun a => Fin.ext (by
      match a with
      | ⟨0, _⟩ => exact dotRows_rhs0 _ _
      | ⟨1, _⟩ => exact (dotRows_rhs1 _ _).trans hk)
  rw [el, er]

theorem pay3_apply (v3 : FVec Ideal S512x1024 .f32) (v11 : FVec Ideal S1024x1024 .bf16) (r : Fin 1024) (c : Fin 512) :
    k0_pay3 (F := Ideal) v3 v11 (ix2 r c)
      = (∑ d : Fin 1024, v11 (ix2 r d) * (v3 (ix2 c d) * Ideal.rsqrt (∑ e : Fin 1024, v3 (ix2 c e) * v3 (ix2 c e))))
        * Cert.Proof.Spec.two := by
  unfold k0_pay3
  refine (mulf_apply _ _ _).trans ?_
  refine congrArg₂ (· * ·) ?_ rfl
  refine (matmul_rows_apply v11 _ r c).trans ?_
  refine Finset.sum_congr rfl fun k _ => congrArg (v11 (ix2 r k) * ·) ?_
  exact norm_apply v3 _ _ _ _ _ c k

theorem pay4_apply (v3 : FVec Ideal S512x1024 .f32) (v11 : FVec Ideal S1024x1024 .bf16) (v16 : FVec Ideal S1024x1 .f32)
    (r : Fin 1024) :
    k0_pay4 (F := Ideal) v3 v11 v16 (ix2 r 0)
      = v16 (ix2 r 0) + ∑ c : Fin 512, Ideal.exp (k0_pay3 (F := Ideal) v3 v11 (ix2 r c)) := by
  unfold k0_pay4
  refine (congrFun (shapeCast_self _ _) _).trans ?_
  refine (addf_apply _ _ _).trans (congrArg (v16 (ix2 r 0) + ·) ?_)
  refine (Column.shapeCast_a_a1_apply _ _ r 0).trans ?_
  exact Column.laneSum_apply (exp (k0_pay3 (F := Ideal) v3 v11)) _ _ _ _ r

end Cert.KernelIdeal.Pay

end
-- ==== Proof.KerPayMask.lean ====
/-
  The masked tile sum read at an index, at the ideal values.

  The tile's mask at (r, c) compares 32-bit words: the global row 1024 * (block row) + r, the global column
  512 * (tile) + c, and the bound 2048. All of them are naturals far below 2^31, so the signed comparisons of the
  words are the comparisons of the naturals, and the conjunction of the two one-bit results is the conjunction of
  the two inequalities. The stored value adds, at every position of the accumulator, the sum over the tile of the
  entries the mask keeps (the others count as the zero word).
-/
import proofs.«139039_j44513041056397_2_alg».proof.Proof.KerPayDot
import Idealize.ShloMosaic.Lib.Affine

noncomputable section

open scoped BigOperators

namespace Cert.KernelIdeal.Pay

open Cert.KernelIdeal Cert.KernelIdeal.Gen Idealize.ShloMosaic Idealize.ShloMosaic.ValueIdx
open Cert.Proof

/-- A signed less-than of two words that read as the integers ex and ey holds exactly when ex < ey. -/
theorem slt_iff {x y : BitVec 32} {ex ey : ℤ} (hx : Affine.IsInt x ex) (hy : Affine.IsInt y ey) :
    IntOp.cmpi .slt x y = 1#1 ↔ ex < ey :=
  ⟨fun h => Classical.byContradiction fun hn => Affine.slt_fails hx hy hn h, Affine.slt_holds hx hy⟩

/-- The mask's bit at row r and column c of the tile at block row a and tile b, as word arithmetic, is one exactly
    when the global row is left of the global column and the global column is below 2048. -/
theorem mask_iff (a b r c : ℕ) (ha : a < 2) (hb : b < 16) (hr : r < 1024) (hc : c < 512) :
    IntOp.andi
      (IntOp.cmpi .slt (IntOp.addi (BitVec.ofNat 32 r) (Scalar.muli (BitVec.ofNat 32 a) 1024#32))
        (IntOp.addi (BitVec.ofNat 32 c) (Scalar.muli (BitVec.ofNat 32 b) 512#32)))
      (IntOp.cmpi .slt (IntOp.addi (BitVec.ofNat 32 c) (Scalar.muli (BitVec.ofNat 32 b) 512#32)) 2048#32) = 1#1
      ↔ (1024 * a + r < 512 * b + c ∧ 512 * b + c < 2048) := by
  have hx := Affine.addi (Affine.ofNat r ⟨rfl, by omega⟩)
    (Affine.muli (Affine.ofNat a ⟨rfl, by omega⟩) (Affine.ofNat 1024 ⟨rfl, by omega⟩) ⟨rfl, by omega, by omega⟩)
    ⟨rfl, by omega, by omega⟩
  have hy := Affine.addi (Affine.ofNat c ⟨rfl, by omega⟩)
    (Affine.muli (Affine.ofNat b ⟨rfl, by omega⟩) (Affine.ofNat 512 ⟨rfl, by omega⟩) ⟨rfl, by omega, by omega⟩)
    ⟨rfl, by omega, by omega⟩
  have hz := Affine.ofNat 2048 ⟨rfl, by omega⟩
  refine IntOp.andi_eq_one.trans ((and_congr (slt_iff hx hy) (slt_iff hy hz)).trans ?_)
  constructor <;> intro h <;> omega

/-- The tile's mask as the body computes it: row iota plus the block row's offset, column iota plus the tile's offset,
    the two signed comparisons and their conjunction. -/
def mask (i : grid0.Coords) : IVec S1024x512 1 :=
  andi
    (cmpi .slt
      (addi (iota .tc S1024x512 32 [0] iota_S1024x512_d0_w32)
        (broadcast S1024x512 (Scalar.muli (BitVec.ofNat 32 (i 0).val) 1024#32)))
      (addi (iota .tc S1024x512 32 [1] iota_S1024x512_d1_w32)
        (broadcast S1024x512 (Scalar.muli (BitVec.ofNat 32 (i 1).val) 512#32))))
    (cmpi .slt
      (addi (iota .tc S1024x512 32 [1] iota_S1024x512_d1_w32)
        (broadcast S1024x512 (Scalar.muli (BitVec.ofNat 32 (i 1).val) 512#32)))
      (broadcast S1024x512 2048#32))

theorem mask_apply (i : grid0.Coords) (r : Fin 1024) (c : Fin 512) :
    mask i (ix2 r c) = 1#1
      ↔ (1024 * (i 0).val + r.val < 512 * (i 1).val + c.val ∧ 512 * (i 1).val + c.val < 2048) := by
  have e0 : iota .tc S1024x512 32 [0] iota_S1024x512_d0_w32 (ix2 r c) = BitVec.ofNat 32 r.val :=
    iota_single_apply .tc S1024x512 32 0 _ (ix2 r c)
  have e1 : iota .tc S1024x512 32 [1] iota_S1024x512_d1_w32 (ix2 r c) = BitVec.ofNat 32 c.val :=
    iota_single_apply .tc S1024x512 32 1 _ (ix2 r c)
  show IntOp.andi
      (IntOp.cmpi .slt
        (IntOp.addi (iota .tc S1024x512 32 [0] iota_S1024x512_d0_w32 (ix2 r c))
          (Scalar.muli (BitVec.ofNat 32 (i 0).val) 1024#32))
        (IntOp.addi (iota .tc S1024x512 32 [1] iota_S1024x512_d1_w32 (ix2 r c))
          (Scalar.muli (BitVec.ofNat 32 (i 1).val) 512#32)))
      (IntOp.cmpi .slt
        (IntOp.addi (iota .tc S1024x512 32 [1] iota_S1024x512_d1_w32 (ix2 r c))
          (Scalar.muli (BitVec.ofNat 32 (i 1).val) 512#32))
        2048#32) = 1#1 ↔ _
  rw [e0, e1]
  exact mask_iff (i 0).val (i 1).val r.val c.val (i 0).isLt (i 1).isLt r.isLt c.isLt

/-- A value kept where the mask's bit is one and replaced by the zero word elsewhere. -/
theorem select_mask_apply (i : grid0.Coords) (x : EReal) (r : Fin 1024) (c : Fin 512) :
    Scalar.select (mask i (ix2 r c)) x Spec.zero
      = if 1024 * (i 0).val + r.val < 512 * (i 1).val + c.val ∧ 512 * (i 1).val + c.val < 2048 then x else Spec.zero := by
  by_cases hP : 1024 * (i 0).val + r.val < 512 * (i 1).val + c.val ∧ 512 * (i 1).val + c.val < 2048
  · rw [if_pos hP, (mask_apply i r c).mpr hP]; exact select_one _ _
  · rw [if_neg hP, eq_zero_of_ne_one (fun h => hP ((mask_apply i r c).mp h))]; exact select_zero _ _

theorem pay5_apply (i : grid0.Coords) (v3 : FVec Ideal S512x1024 .f32) (v11 : FVec Ideal S1024x1024 .bf16)
    (v47 : FVec Ideal S8x128 .f32) (s : Fin 8) (l : Fin 128) :
    k0_pay5 (F := Ideal) i v3 v11 v47 (ix2 s l) = v47 (ix2 s l) + ∑ r : Fin 1024, ∑ c : Fin 512,
      if 1024 * (i 0).val + r.val < 512 * (i 1).val + c.val ∧ 512 * (i 1).val + c.val < 2048
        then k0_pay3 (F := Ideal) v3 v11 (ix2 r c) else Cert.Proof.Spec.zero := by
  unfold k0_pay5
  refine (congrFun (shapeCast_self _ _) _).trans ?_
  refine (addf_apply _ _ _).trans (congrArg (v47 (ix2 s l) + ·) ?_)
  refine (Column.broadcastTo_11_ab_apply _ _ s l).trans ?_
  refine (congrFun (shapeCast_self _ _) _).trans ?_
  refine (Column.shapeCast_a_a1_apply _ _ 0 0).trans ?_
  refine (Column.colSum_apply _ _ _ _ _ 0).trans ?_
  refine Finset.sum_congr rfl fun r _ => ?_
  refine (Column.shapeCast_a_a1_apply _ _ r 0).trans ?_
  refine (Column.laneSum_apply _ _ _ _ _ r).trans ?_
  refine Finset.sum_congr rfl fun c _ => ?_
  exact select_mask_apply i (k0_pay3 (F := Ideal) v3 v11 (ix2 r c)) r c

end Cert.KernelIdeal.Pay

end
-- ==== Proof.LibTiles.lean ====
/-
  General lemmas for sums over tiles of an array.

  A rank-2 array read at a pair of natural numbers (`at2`: zero outside the array) and a rank-1 array read at a natural
  number (`at1`), with the lemmas that identify them with the array at an index whose coordinates have those values;
  a sum over a range of length `m · n` as `m` consecutive runs of length `n` (`sum_range_mul`), which turns a sum over
  a whole axis into a sum over blocks and positions inside a block; and a sum over `Fin n` of a function of the value
  as the sum over `Finset.range n` (`sum_fin_range`). Nothing here mentions a program.
-/
import Idealize.ShloMosaic.PureOps.Ideal
import Idealize.ShloMosaic.Lib.ValueIdx

noncomputable section

open scoped BigOperators

namespace Cert.Proof.Spec

open Idealize.ShloMosaic Idealize.ShloMosaic.ValueIdx

/-! ## Arrays read at natural-number positions -/

/-- A matrix at row `R`, column `C`; zero outside it. -/
def at2 {n0 n1 : Nat} (x : (⟨2, ![n0, n1]⟩ : Shape).Idx → EReal) (R C : ℕ) : EReal :=
  if h : R < n0 ∧ C < n1 then x (ix2 ⟨R, h.1⟩ ⟨C, h.2⟩) else 0

/-- A vector at position `R`; zero outside it. -/
def at1 {n : Nat} (x : (⟨1, ![n]⟩ : Shape).Idx → EReal) (R : ℕ) : EReal :=
  if h : R < n then x (ix1 ⟨R, h⟩) else 0

theorem at2_ix2 {n0 n1 : Nat} (x : (⟨2, ![n0, n1]⟩ : Shape).Idx → EReal) (a : Fin n0) (b : Fin n1) :
    at2 x a.val b.val = x (ix2 a b) := by
  unfold at2; rw [dif_pos ⟨a.isLt, b.isLt⟩]

theorem at1_ix1 {n : Nat} (x : (⟨1, ![n]⟩ : Shape).Idx → EReal) (a : Fin n) : at1 x a.val = x (ix1 a) := by
  unfold at1; rw [dif_pos a.isLt]

/-- An index given by the values of its two coordinates. -/
theorem at2_of_val {n0 n1 : Nat} (x : (⟨2, ![n0, n1]⟩ : Shape).Idx → EReal) (i : (⟨2, ![n0, n1]⟩ : Shape).Idx)
    (R C : ℕ) (h0 : (i 0).val = R) (h1 : (i 1).val = C) : x i = at2 x R C := by
  subst h0; subst h1
  exact (congrArg x (eq_ix2 i)).trans (at2_ix2 x (i 0) (i 1)).symm

theorem at1_of_val {n : Nat} (x : (⟨1, ![n]⟩ : Shape).Idx → EReal) (i : (⟨1, ![n]⟩ : Shape).Idx)
    (R : ℕ) (h0 : (i 0).val = R) : x i = at1 x R := by
  subst h0
  exact (congrArg x (eq_ix1 i)).trans (at1_ix1 x (i 0)).symm

/-! ## Sums -/

section Sums
variable {M : Type*} [AddCommMonoid M]

/-- A range of length `m · n` is `m` consecutive runs of length `n`. -/
theorem sum_range_mul (f : ℕ → M) (m n : ℕ) :
    ∑ i ∈ Finset.range (m * n), f i = ∑ a ∈ Finset.range m, ∑ b ∈ Finset.range n, f (n * a + b) := by
  induction m with
  | zero => simp
  | succ m ih =>
    rw [Nat.succ_mul, Finset.sum_range_add, ih, Finset.sum_range_succ, Nat.mul_comm m n]

/-- A sum over `Fin n` of a function of the value is the sum over the range. -/
theorem sum_fin_range (f : ℕ → M) (n : ℕ) : ∑ i : Fin n, f i.val = ∑ i ∈ Finset.range n, f i :=
  Fin.sum_univ_eq_sum_range f n

end Sums

end Cert.Proof.Spec

end
-- ==== Proof.AlgebraNorm.lean ====
/-
  The two normalisations over the reals.

  A finite input matrix is the inclusion of a real matrix; a row's sum of squares is then a real number, positive
  as soon as it is not zero, and the row scaled by the reciprocal square root of that number and the row divided by
  its square root are one and the same real row. The float literals 0, 2 and 1/2 are evaluated here, once.
-/
import proofs.«139039_j44513041056397_2_alg».proof.Proof.Spec
import Idealize.ShloMosaic.PureOps.Ideal.Laws

noncomputable section

open scoped BigOperators

namespace Cert.Proof.Spec

open Idealize.ShloMosaic

/-! ## The literals -/

/-- The word of `+0.0` denotes `0`. -/
theorem zero_eq : zero = 0 := by
  unfold zero; simp [Ideal.ofBits, Ideal.ieee]

/-- The word of `2.0` denotes the real `2`. -/
theorem two_eq : two = ((2 : ℝ) : EReal) := by
  unfold two; simp [Ideal.ofBits, Ideal.ieee, -EReal.coe_mul]; norm_num

/-- The word of `0.5` denotes the real `1/2`. -/
theorem half_eq : half = ((1 / 2 : ℝ) : EReal) := by
  unfold half; simp [Ideal.ofBits, Ideal.ieee, -EReal.coe_mul]; norm_num

/-! ## Finite sums of reals -/

/-- The inclusion of the reals commutes with finite sums. -/
theorem coe_sum (s : Finset ℕ) (f : ℕ → ℝ) :
    ((∑ d ∈ s, f d : ℝ) : EReal) = ∑ d ∈ s, (f d : EReal) := by
  induction s using Finset.induction_on with
  | empty => simp
  | insert a s ha ih => rw [Finset.sum_insert ha, Finset.sum_insert ha, EReal.coe_add, ih]

/-! ## The real matrix behind a finite input -/

variable (X : ℕ → ℕ → EReal)

/-- The real entries of the matrix. -/
def xr (i d : ℕ) : ℝ := (X i d).toReal

/-- The real sum of squares of row `i`. -/
def sR (i : ℕ) : ℝ := ∑ d ∈ Finset.range 1024, xr X i d * xr X i d

/-- Row `i` divided by its norm, over the reals. -/
def zR (i d : ℕ) : ℝ := xr X i d * (Real.sqrt (sR X i))⁻¹

/-- Twice the inner product of the real normalised rows `i` and `j`. -/
def SR (i j : ℕ) : ℝ := (∑ d ∈ Finset.range 1024, zR X i d * zR X j d) * 2

/-- A finite entry is the inclusion of its real part. -/
theorem X_eq (hfin : ∀ i d, i < 8192 → d < 1024 → ∃ r : ℝ, X i d = (r : EReal))
    {i d : ℕ} (hi : i < 8192) (hd : d < 1024) : X i d = (xr X i d : EReal) := by
  obtain ⟨r, hr⟩ := hfin i d hi hd
  rw [xr, hr, EReal.toReal_coe]

/-- The sum of squares of a finite row is the real sum of squares. -/
theorem ssq_eq (hfin : ∀ i d, i < 8192 → d < 1024 → ∃ r : ℝ, X i d = (r : EReal))
    {i : ℕ} (hi : i < 8192) : ssq X i = (sR X i : EReal) := by
  unfold ssq sR
  rw [coe_sum]
  refine Finset.sum_congr rfl fun d hd => ?_
  rw [X_eq X hfin hi (Finset.mem_range.mp hd), EReal.coe_mul]

/-- A nonzero sum of squares is positive. -/
theorem sR_pos (hfin : ∀ i d, i < 8192 → d < 1024 → ∃ r : ℝ, X i d = (r : EReal))
    {i : ℕ} (hi : i < 8192) (hpos : ssq X i ≠ 0) : 0 < sR X i := by
  have h0 : 0 ≤ sR X i := Finset.sum_nonneg fun d _ => mul_self_nonneg _
  have h1 : sR X i ≠ 0 := by
    intro h
    apply hpos
    rw [ssq_eq X hfin hi, h, EReal.coe_zero]
  exact lt_of_le_of_ne h0 (Ne.symm h1)

/-- The row scaled by the reciprocal square root is the real normalised row. -/
theorem zk_eq (hfin : ∀ i d, i < 8192 → d < 1024 → ∃ r : ℝ, X i d = (r : EReal))
    {i d : ℕ} (hi : i < 8192) (hd : d < 1024) (hpos : ssq X i ≠ 0) :
    zk X i d = (zR X i d : EReal) := by
  have hs := sR_pos X hfin hi hpos
  unfold zk zR
  rw [ssq_eq X hfin hi, X_eq X hfin hi hd, Ideal.rsqrt_coe, if_neg (not_lt.mpr hs.le), if_neg hs.ne',
    EReal.coe_mul]

/-- The row divided by the square root is the real normalised row. -/
theorem zr_eq (hfin : ∀ i d, i < 8192 → d < 1024 → ∃ r : ℝ, X i d = (r : EReal))
    {i d : ℕ} (hi : i < 8192) (hd : d < 1024) (hpos : ssq X i ≠ 0) :
    zr X i d = (zR X i d : EReal) := by
  have hs := sR_pos X hfin hi hpos
  have hq : Real.sqrt (sR X i) ≠ 0 := (Real.sqrt_pos.mpr hs).ne'
  unfold zr zR
  rw [ssq_eq X hfin hi, X_eq X hfin hi hd, zero_eq, zero_add, Ideal.sqrt_coe, if_neg (not_lt.mpr hs.le),
    Ideal.div_coe hq, one_div, EReal.coe_mul]

end Cert.Proof.Spec

end
-- ==== Proof.KerAcc.lean ====
/-
  The kernel's two result arrays as formulas of the argument matrix, at the ideal values.

  Point t of the 2 x 16 grid works on row block a = t / 16 (1024 rows) and column tile k = t % 16 (512 rows of
  the same matrix). From the reset point on the scratch holds the row block normalised; the score tile at (r, c)
  is s(1024 a + r, 512 k + c); the running row sums after tile k are the sums of exp s over the tiles 0..k, the
  running triangle sum after tile k the masked sums over the tiles 0..min k 3. The last tile's point copies both
  out, so the first result holds the full row sums and the second, per row block, the triangle sum.
-/
import proofs.«139039_j44513041056397_2_alg».proof.Proof.KerPieces
import proofs.«139039_j44513041056397_2_alg».proof.Proof.KerPayDot
import proofs.«139039_j44513041056397_2_alg».proof.Proof.KerPayMask
import proofs.«139039_j44513041056397_2_alg».proof.Proof.LibTiles
import proofs.«139039_j44513041056397_2_alg».proof.Proof.Spec
import proofs.«139039_j44513041056397_2_alg».proof.Proof.AlgebraNorm

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

open Idealize.ShloMosaic.ValueIdx Cert.Proof.Spec Cert.KernelIdeal.Pay
open scoped BigOperators

/-- The argument matrix on core `c`, read at natural-number positions. -/
abbrev XX (c : Dev nD) : ℕ → ℕ → EReal := at2 (m ((c.tc : Thread nD τ).loc main_arg0))

/-! ## The windows' blocks -/

theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx1 : ∀ t : Fin cfg0.N, win0_1.index t 0 = t.val % 16 ∧ win0_1.index t 1 = 0 :=
  (by decide +kernel : ∀ t : Fin grid0.N, win0_1.index t 0 = t.val % 16 ∧ win0_1.index t 1 = 0)

/-- The resident block at point `t` is rows 1024 (t / 16) onwards. -/
theorem iblk0_apply (c : Dev nD) (t : Fin cfg0.N) (r : Fin 1024) (d : Fin 1024) :
    iblk m c 0 t (ix2 r d) = XX m c (1024 * (t.val / 16) + r.val) d.val := by
  unfold iblk
  show V m c main_arg0 (((cfg0.win 0).blk t).view.emb (ix2 r d)) = _
  refine at2_of_val _ _ _ _ ?_ ?_
  · show win0_0.index t 0 * 1024 + 1 * r.val = _
    rw [(idx0 t).1]; omega
  · show win0_0.index t 1 * 1024 + 1 * d.val = _
    rw [(idx0 t).2]; omega

/-- The streamed block at point `t` is rows 512 (t % 16) onwards. -/
theorem iblk1_apply (c : Dev nD) (t : Fin cfg0.N) (r : Fin 512) (d : Fin 1024) :
    iblk m c 1 t (ix2 r d) = XX m c (512 * (t.val % 16) + r.val) d.val := by
  unfold iblk
  show V m c main_arg0 (((cfg0.win 1).blk t).view.emb (ix2 r d)) = _
  refine at2_of_val _ _ _ _ ?_ ?_
  · show win0_1.index t 0 * 512 + 1 * r.val = _
    rw [(idx1 t).1]; omega
  · show win0_1.index t 1 * 1024 + 1 * d.val = _
    rw [(idx1 t).2]; omega

/-! ## The normalised rows -/

section Norm
variable (X : ℕ → ℕ → EReal)

/-- A row's sum of squares over the lanes is the range sum. -/
theorem ssq_of_row {n : ℕ} (v : (⟨2, ![n, 1024]⟩ : Shape).Idx → EReal) (r : Fin n) (R : ℕ)
    (hv : ∀ e : Fin 1024, v (ix2 r e) = X R e.val) :
    ∑ e : Fin 1024, v (ix2 r e) * v (ix2 r e) = ssq X R := by
  unfold ssq
  rw [← sum_fin_range (fun e => X R e * X R e) 1024]
  exact Finset.sum_congr rfl fun e _ => by rw [hv e]

/-- The normalised entry as a function of the position in the resident block. -/
def zG (B : ℕ) (y : S1024x1024.Idx) : EReal := zk X (B + (y 0).val) (y 1).val

theorem chunk_apply (x0 : FVec Ideal S1024x1024 .f32) (B : ℕ) (hx0 : ∀ y : S1024x1024.Idx, x0 y = X (B + (y 0).val) (y 1).val)
    (o : ℕ) (inb : ∀ a, (![o, 0] : Fin 2 → ℕ) a + S256x1024.size a ≤ S1024x1024.size a)
    (pay : Vec Ideal S256x1024 .f32 → FVec Ideal S256x1024 .bf16)
    (hpay : ∀ (v : FVec Ideal S256x1024 .f32) (r : Fin 256) (d : Fin 1024),
      pay v (ix2 r d) = v (ix2 r d) * Ideal.rsqrt (∑ e : Fin 1024, v (ix2 r e) * v (ix2 r e)))
    (x : S256x1024.Idx) :
    pay (View.ld x0 (Rect.unit (s := S1024x1024) ![o, 0] S256x1024.size inb)) x
      = zG X B ((Rect.unit (s := S1024x1024) ![o, 0] S256x1024.size inb).emb x) := by
  obtain ⟨r, d, rfl⟩ : ∃ (r : Fin 256) (d : Fin 1024), x = ix2 r d := ⟨x 0, x 1, eq_ix2 x⟩
  have hc0 : ∀ e : Fin 1024, (((Rect.unit (s := S1024x1024) ![o, 0] S256x1024.size inb).emb (ix2 r e)) 0).val = o + r.val := fun e => by
    show o + 1 * r.val = _; omega
  have hc1 : ∀ e : Fin 1024, (((Rect.unit (s := S1024x1024) ![o, 0] S256x1024.size inb).emb (ix2 r e)) 1).val = e.val := fun e => by
    show 0 + 1 * e.val = _; omega
  have hld : ∀ e : Fin 1024, (View.ld (Val := Elt Ideal) (e' := EltTy.f32) x0 (Rect.unit (s := S1024x1024) ![o, 0] S256x1024.size inb) (ix2 r e) : EReal) = X (B + (o + r.val)) e.val := fun e => by
    show x0 ((Rect.unit (s := S1024x1024) ![o, 0] S256x1024.size inb).emb (ix2 r e)) = _
    rw [hx0, hc0, hc1]
  rw [hpay, hld d, ssq_of_row X _ r (B + (o + r.val)) hld]
  unfold zG zk
  rw [hc0 d, hc1 d]
end Norm

/-- The scratch after the reset point: the resident block normalised. -/
theorem zA_apply (X : ℕ → ℕ → EReal) (x0 : FVec Ideal S1024x1024 .f32) (B : ℕ)
    (hx0 : ∀ y : S1024x1024.Idx, x0 y = X (B + (y 0).val) (y 1).val) (y : S1024x1024.Idx) :
    (zA (F := Ideal) x0 y : EReal) = zG X B y := by
  unfold zA
  refine View.canon_apply_of_pieces (Val := Elt Ideal) (zG X B) (zPieces (F := Ideal) x0) ?_ y (zPieces_cover (F := Ideal) x0 y)
  intro p hp x
  simp only [zPieces, List.mem_cons, List.mem_nil_iff, or_false] at hp
  rcases hp with rfl | rfl | rfl | rfl
  · exact chunk_apply X x0 B hx0 768 _ k0_pay2 pay2_apply x
  · exact chunk_apply X x0 B hx0 512 _ k0_pay1 pay1_apply x
  · exact chunk_apply X x0 B hx0 256 _ k0_pay10 pay10_apply x
  · exact chunk_apply X x0 B hx0 0 _ k0_pay9 pay9_apply x

/-- The grid point's coordinates. -/
theorem coords_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- The score tile: entry (r, c) at point `t` is s(1024 (t/16) + r, 512 (t%16) + c), once the scratch holds the
    resident block normalised. -/
theorem tile_apply (c : Dev nD) (t : Fin cfg0.N) (z : FVec Ideal S1024x1024 .bf16)
    (hz : ∀ (r : Fin 1024) (d : Fin 1024), z (ix2 r d) = zk (XX m c) (1024 * (t.val / 16) + r.val) d.val)
    (r : Fin 1024) (cc : Fin 512) :
    k0_pay3 (F := Ideal) (iblk m c 1 t) z (ix2 r cc)
      = sk (XX m c) (1024 * (t.val / 16) + r.val) (512 * (t.val % 16) + cc.val) := by
  rw [pay3_apply]
  unfold sk
  refine congrArg (· * two) ?_
  rw [← sum_fin_range (fun d => zk (XX m c) (1024 * (t.val / 16) + r.val) d * zk (XX m c) (512 * (t.val % 16) + cc.val) d) 1024]
  refine Finset.sum_congr rfl fun d _ => ?_
  rw [hz r d, ssq_of_row (XX m c) (iblk m c 1 t) cc (512 * (t.val % 16) + cc.val) (fun e => iblk1_apply m c t cc e), iblk1_apply]
  rfl

/-! ## The running sums, point by point -/

/-- The row sums of exponentials over the first `n` tiles. -/
def Eacc (X : ℕ → ℕ → EReal) (i n : ℕ) : EReal := ∑ k ∈ Finset.range n, ∑ c ∈ Finset.range 512, Ideal.exp (sk X i (512 * k + c))
/-- The triangle sum of row block `a` over the first `n` tiles. -/
def Tacc (X : ℕ → ℕ → EReal) (a n : ℕ) : EReal :=
  ∑ k ∈ Finset.range n, ∑ r ∈ Finset.range 1024, ∑ c ∈ Finset.range 512,
    if 1024 * a + r < 512 * k + c ∧ 512 * k + c < 2048 then sk X (1024 * a + r) (512 * k + c) else zero

theorem kerE_eq (X : ℕ → ℕ → EReal) (i : ℕ) : kerE X i = Eacc X i 16 := rfl
theorem kerT_eq' (X : ℕ → ℕ → EReal) (a : ℕ) : kerT X a = Tacc X a 4 := rfl

/-- What the three scratch buffers hold after position `n`. -/
structure Inv (c : Dev nD) (n : ℕ) (hn : n < cfg0.N) : Prop where
  z : ∀ (r : Fin 1024) (d : Fin 1024), ((outsAt m c n hn).z (ix2 r d) : EReal) = zk (XX m c) (1024 * (n / 16) + r.val) d.val
  e : ∀ r : Fin 1024, ((outsAt m c n hn).e (ix2 r 0) : EReal) = Eacc (XX m c) (1024 * (n / 16) + r.val) (n % 16 + 1)
  t : ∀ (s : Fin 8) (l : Fin 128), ((outsAt m c n hn).t (ix2 s l) : EReal) = Tacc (XX m c) (n / 16) (min (n % 16 + 1) 4)

/-- One tile's row sum added: the running sums' step. -/
theorem e_step (c : Dev nD) (t : Fin cfg0.N) (z : FVec Ideal S1024x1024 .bf16) (e : FVec Ideal S1024x1 .f32)
    (hz : ∀ (r : Fin 1024) (d : Fin 1024), z (ix2 r d) = zk (XX m c) (1024 * (t.val / 16) + r.val) d.val)
    (k : ℕ) (hk : t.val % 16 = k) (r : Fin 1024)
    (he : e (ix2 r 0) = Eacc (XX m c) (1024 * (t.val / 16) + r.val) k) :
    k0_pay4 (F := Ideal) (iblk m c 1 t) z e (ix2 r 0) = Eacc (XX m c) (1024 * (t.val / 16) + r.val) (k + 1) := by
  rw [pay4_apply, he]
  unfold Eacc
  rw [Finset.sum_range_succ, ← sum_fin_range (fun cc => Ideal.exp (sk (XX m c) (1024 * (t.val / 16) + r.val) (512 * k + cc))) 512]
  refine congrArg (_ + ·) (Finset.sum_congr rfl fun cc _ => ?_)
  rw [tile_apply m c t z hz r cc, hk]

/-- One tile's masked total added: the running triangle sum's step. -/
theorem t_step (c : Dev nD) (t : Fin cfg0.N) (z : FVec Ideal S1024x1024 .bf16) (tt : FVec Ideal S8x128 .f32)
    (hz : ∀ (r : Fin 1024) (d : Fin 1024), z (ix2 r d) = zk (XX m c) (1024 * (t.val / 16) + r.val) d.val)
    (k : ℕ) (hk : t.val % 16 = k) (s : Fin 8) (l : Fin 128)
    (ht : tt (ix2 s l) = Tacc (XX m c) (t.val / 16) k) :
    k0_pay5 (F := Ideal) (grid0.coords t) (iblk m c 1 t) z tt (ix2 s l) = Tacc (XX m c) (t.val / 16) (k + 1) := by
  rw [pay5_apply, ht]
  unfold Tacc
  rw [Finset.sum_range_succ, (coords_val t).1, (coords_val t).2, hk]
  refine congrArg (_ + ·) ?_
  rw [← sum_fin_range (fun r => ∑ cc ∈ Finset.range 512,
      if 1024 * (t.val / 16) + r < 512 * k + cc ∧ 512 * k + cc < 2048 then sk (XX m c) (1024 * (t.val / 16) + r) (512 * k + cc) else zero) 1024]
  refine Finset.sum_congr rfl fun r _ => ?_
  rw [← sum_fin_range (fun cc =>
      if 1024 * (t.val / 16) + r.val < 512 * k + cc ∧ 512 * k + cc < 2048 then sk (XX m c) (1024 * (t.val / 16) + r.val) (512 * k + cc) else zero) 512]
  refine Finset.sum_congr rfl fun cc _ => ?_
  rw [tile_apply m c t z hz r cc, hk]

/-! ## The invariant at every point -/

theorem hx0_of (c : Dev nD) (t : Fin cfg0.N) (y : S1024x1024.Idx) :
    (iblk m c 0 t y : EReal) = XX m c (1024 * (t.val / 16) + (y 0).val) (y 1).val := by
  rw [eq_ix2 y]; exact iblk0_apply m c t (y 0) (y 1)

set_option maxHeartbeats 1600000 in
/-- The reset point of a row block. -/
theorem inv_reset (c : Dev nD) (t : Fin cfg0.N) (h0 : t.val % 16 = 0) : Inv m c t.val t.isLt := by
  have hA : condA (grid0.coords t) := (hcondA t).mpr h0
  have hB : condB (grid0.coords t) := (hcondB t).mpr (by omega)
  have hC : ¬condC (grid0.coords t) := fun h => by have := (hcondC t).mp h; omega
  have hz : ∀ (r : Fin 1024) (d : Fin 1024),
      (zA (F := Ideal) (iblk m c 0 t) (ix2 r d) : EReal) = zk (XX m c) (1024 * (t.val / 16) + r.val) d.val := fun r d =>
    zA_apply (XX m c) (iblk m c 0 t) (1024 * (t.val / 16)) (hx0_of m c t) (ix2 r d)
  have E := outsAt_A m c t h0 hA hB hC
  refine ⟨fun r d => ?_, fun r => ?_, fun s l => ?_⟩
  · rw [E]
    dsimp only
    rw [sZ_A_eq]; exact hz r d
  · rw [E]
    dsimp only
    rw [sE_A_eq, h0]
    refine e_step m c t _ _ hz 0 h0 r ?_
    rw [pay7_apply, zero_eq]; unfold Eacc; simp
  · rw [E]
    dsimp only
    rw [sT_A_eq, h0]
    refine t_step m c t _ _ hz 0 h0 s l ?_
    rw [pay8_apply, zero_eq]; unfold Tacc; simp

set_option maxHeartbeats 1600000 in
/-- A later point of a row block, from the point before. -/
theorem inv_step (c : Dev nD) (t : Fin cfg0.N) (h0 : ¬t.val % 16 = 0)
    (ih : Inv m c (t.val - 1) (Nat.lt_of_le_of_lt (Nat.sub_le _ _) t.isLt)) : Inv m c t.val t.isLt := by
  have hN : t.val < 32 := lt_of_lt_of_eq t.isLt (show cfg0.N = 32 from N_0)
  have hA : ¬condA (grid0.coords t) := fun h => h0 ((hcondA t).mp h)
  have hdiv : (t.val - 1) / 16 = t.val / 16 := by omega
  have hmod : (t.val - 1) % 16 + 1 = t.val % 16 := by omega
  have hz : ∀ (r : Fin 1024) (d : Fin 1024),
      ((outsAt m c (t.val - 1) (Nat.lt_of_le_of_lt (Nat.sub_le _ _) t.isLt)).z (ix2 r d) : EReal) = zk (XX m c) (1024 * (t.val / 16) + r.val) d.val := fun r d => by
    rw [ih.z r d, hdiv]
  have he : ∀ r : Fin 1024,
      ((outsAt m c (t.val - 1) (Nat.lt_of_le_of_lt (Nat.sub_le _ _) t.isLt)).e (ix2 r 0) : EReal) = Eacc (XX m c) (1024 * (t.val / 16) + r.val) (t.val % 16) := fun r => by
    rw [ih.e r, hdiv, hmod]
  have ht : ∀ (s : Fin 8) (l : Fin 128),
      ((outsAt m c (t.val - 1) (Nat.lt_of_le_of_lt (Nat.sub_le _ _) t.isLt)).t (ix2 s l) : EReal) = Tacc (XX m c) (t.val / 16) (min (t.val % 16) 4) := fun s l => by
    rw [ih.t s l, hdiv, hmod]
  by_cases h1 : t.val % 16 < 4
  · have hB : condB (grid0.coords t) := (hcondB t).mpr h1
    have hC : ¬condC (grid0.coords t) := fun h => by have := (hcondC t).mp h; omega
    have E := outsAt_B m c t h0 h1 hA hB hC
    refine ⟨fun r d => by rw [E]; exact hz r d, fun r => ?_, fun s l => ?_⟩
    · rw [E]
      dsimp only
      rw [sE_B_eq]; exact e_step m c t _ _ hz _ rfl r (he r)
    · rw [E]
      dsimp only
      rw [sT_B_eq, show min (t.val % 16 + 1) 4 = t.val % 16 + 1 from by omega]
      refine t_step m c t _ _ hz _ rfl s l ?_
      rw [ht s l, show min (t.val % 16) 4 = t.val % 16 from by omega]
  · have hB : ¬condB (grid0.coords t) := fun h => h1 ((hcondB t).mp h)
    have hT : ∀ (s : Fin 8) (l : Fin 128),
        ((outsAt m c (t.val - 1) (Nat.lt_of_le_of_lt (Nat.sub_le _ _) t.isLt)).t (ix2 s l) : EReal) = Tacc (XX m c) (t.val / 16) (min (t.val % 16 + 1) 4) := fun s l => by
      rw [ht s l, show min (t.val % 16) 4 = 4 from by omega, show min (t.val % 16 + 1) 4 = 4 from by omega]
    by_cases h2 : t.val % 16 = 15
    · have hC : condC (grid0.coords t) := (hcondC t).mpr h2
      have E := outsAt_D m c t h0 h1 h2 hA hB hC
      refine ⟨fun r d => by rw [E]; exact hz r d, fun r => ?_, fun s l => by rw [E]; exact hT s l⟩
      rw [E]
      dsimp only
      rw [sE_D_eq]; exact e_step m c t _ _ hz _ rfl r (he r)
    · have hC : ¬condC (grid0.coords t) := fun h => h2 ((hcondC t).mp h)
      have E := outsAt_C m c t h0 h1 h2 hA hB hC
      refine ⟨fun r d => by rw [E]; exact hz r d, fun r => ?_, fun s l => by rw [E]; exact hT s l⟩
      rw [E]
      dsimp only
      rw [sE_C_eq]; exact e_step m c t _ _ hz _ rfl r (he r)

/-- The invariant at every point. -/
theorem inv_all (c : Dev nD) : ∀ (n : ℕ) (hn : n < cfg0.N), Inv m c n hn
  | 0, hn => inv_reset m c ⟨0, hn⟩ (Nat.zero_mod _)
  | n + 1, hn => by
    by_cases h0 : (n + 1) % 16 = 0
    · exact inv_reset m c ⟨n + 1, hn⟩ h0
    · exact inv_step m c ⟨n + 1, hn⟩ h0 (inv_all c n (Nat.lt_of_succ_lt hn))

/-! ## The two result arrays -/

theorem idx2 : ∀ t : Fin cfg0.N, win0_2.index t 0 = t.val / 16 ∧ win0_2.index t 1 = 0 :=
  (by decide +kernel : ∀ t : Fin grid0.N, win0_2.index t 0 = t.val / 16 ∧ win0_2.index t 1 = 0)
theorem idx3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- The conditions at the last tile's point. -/
theorem last_conds (t : Fin cfg0.N) (h15 : t.val % 16 = 15) :
    ¬t.val % 16 = 0 ∧ ¬t.val % 16 < 4 ∧ ¬condA (grid0.coords t) ∧ ¬condB (grid0.coords t) ∧ condC (grid0.coords t) :=
  ⟨by omega, by omega, fun h => by have := (hcondA t).mp h; omega, fun h => by have := (hcondB t).mp h; omega, (hcondC t).mpr h15⟩

/-- At the last tile's point the first output block is the running sums, -/
theorem o2_last (c : Dev nD) (t : Fin cfg0.N) (h15 : t.val % 16 = 15) (r : Fin 1024) :
    ((outsAt m c t.val t.isLt).o2 (ix2 r 0) : EReal) = kerE (XX m c) (1024 * (t.val / 16) + r.val) := by
  obtain ⟨h0, h1, hA, hB, hC⟩ := last_conds t h15
  have he := (inv_all m c t.val t.isLt).e r
  have E := outsAt_D m c t h0 h1 h15 hA hB hC
  rw [E] at he ⊢
  dsimp only at he ⊢
  rw [sE_D_eq] at he
  rw [o2_D_eq, he, h15, kerE_eq]

/-- and the second output block the running triangle sum. -/
theorem o3_last (c : Dev nD) (t : Fin cfg0.N) (h15 : t.val % 16 = 15) (s : Fin 8) (l : Fin 128) :
    ((outsAt m c t.val t.isLt).o3 (ix3 0 s l) : EReal) = kerT (XX m c) (t.val / 16) := by
  obtain ⟨h0, h1, hA, hB, hC⟩ := last_conds t h15
  have ht := (inv_all m c t.val t.isLt).t s l
  have E := outsAt_D m c t h0 h1 h15 hA hB hC
  rw [E] at ht ⊢
  dsimp only at ht ⊢
  rw [o3_D_eq, pay6_apply, ht, h15, kerT_eq']
  rfl

theorem mem_blk2 (t : Fin cfg0.N) (i : S2048x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_0).slice (win0_2.rect t)).set ↔ _
  rw [View.set_slice_whole, Rect.mem_set_unit]
  exact Iff.rfl

theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_1).slice (win0_3.rect t)).set ↔ _
  rw [View.set_slice_whole, Rect.mem_set_unit]
  exact Iff.rfl

/-- THE FIRST RESULT: row i's sum of exponentials over all 8192 columns. -/
theorem res0_apply (c : Dev nD) (i : S2048x1.Idx) :
    ((dats m 0 c).arrAt 2 cfg0.N i : EReal) = kerE (XX m c) (i 0).val := by
  refine (dats m 0 c).arrAt_forall_of_cover 2 (fun i v => (v : EReal) = kerE (XX m c) (i 0).val) (fun t hf y => ?_) (fun i => ?_) i
  · have h15 := (flush0_2 t).mp hf
    obtain ⟨r, u, rfl⟩ : ∃ (r : Fin 1024) (u : Fin 1), y = ix2 r u := ⟨y 0, y 1, eq_ix2 y⟩
    obtain rfl : u = 0 := Subsingleton.elim _ _
    show ((dats m 0 c).after 2 t (ix2 r 0) : EReal) = kerE (XX m c) (win0_2.index t 0 * 1024 + 1 * r.val)
    rw [after2, o2_last m c t h15 r, (idx2 t).1]
    congr 1; omega
  · have hi : (i 0).val < 2048 := (i 0).isLt
    have hi1 : (i 1).val < 1 := (i 1).isLt
    refine ⟨⟨16 * ((i 0).val / 1024) + 15, by rw [show cfg0.N = 32 from N_0]; omega⟩, (flush0_2 _).mpr (by show (16 * ((i 0).val / 1024) + 15) % 16 = 15; omega), ?_⟩
    rw [mem_blk2]
    intro a
    have e := idx2 ⟨16 * ((i 0).val / 1024) + 15, by rw [show cfg0.N = 32 from N_0]; omega⟩
    match a with
    | ⟨0, _⟩ =>
      show win0_2.index _ 0 * 1024 ≤ (i 0).val ∧ (i 0).val < win0_2.index _ 0 * 1024 + 1024
      rw [e.1]; show (16 * ((i 0).val / 1024) + 15) / 16 * 1024 ≤ _ ∧ _ < (16 * ((i 0).val / 1024) + 15) / 16 * 1024 + 1024; omega
    | ⟨1, _⟩ =>
      show win0_2.index _ 1 * 1 ≤ (i 1).val ∧ (i 1).val < win0_2.index _ 1 * 1 + 1
      rw [e.2]; omega

/-- THE SECOND RESULT: row block a's triangle sum, at every position of its 8 x 128 tile. -/
theorem res1_apply (c : Dev nD) (i : S2x8x128.Idx) :
    ((dats m 0 c).arrAt 3 cfg0.N i : EReal) = kerT (XX m c) (i 0).val := by
  refine (dats m 0 c).arrAt_forall_of_cover 3 (fun i v => (v : EReal) = kerT (XX m c) (i 0).val) (fun t hf y => ?_) (fun i => ?_) i
  · have h15 := (flush0_3 t).mp hf
    obtain ⟨u, s, l, rfl⟩ : ∃ (u : Fin 1) (s : Fin 8) (l : Fin 128), y = ix3 u s l := ⟨y 0, y 1, y 2, eq_ix3 y⟩
    obtain rfl : u = 0 := Subsingleton.elim _ _
    show ((dats m 0 c).after 3 t (ix3 0 s l) : EReal) = kerT (XX m c) (win0_3.index t 0 * 1 + 1 * (0 : Fin 1).val)
    rw [after3, o3_last m c t h15 s l, (idx3 t).1]
    congr 1
    show t.val / 16 = t.val / 16 * 1 + 1 * 0
    omega
  · have hi : (i 0).val < 2 := (i 0).isLt
    have hi1 : (i 1).val < 8 := (i 1).isLt
    have hi2 : (i 2).val < 128 := (i 2).isLt
    refine ⟨⟨16 * (i 0).val + 15, by rw [show cfg0.N = 32 from N_0]; omega⟩, (flush0_3 _).mpr (by show (16 * (i 0).val + 15) % 16 = 15; omega), ?_⟩
    rw [mem_blk3]
    intro a
    have e := idx3 ⟨16 * (i 0).val + 15, by rw [show cfg0.N = 32 from N_0]; omega⟩
    match a with
    | ⟨0, _⟩ =>
      show win0_3.index _ 0 * 1 ≤ (i 0).val ∧ (i 0).val < win0_3.index _ 0 * 1 + 1
      rw [e.1]; show (16 * (i 0).val + 15) / 16 * 1 ≤ _ ∧ _ < (16 * (i 0).val + 15) / 16 * 1 + 1; omega
    | ⟨1, _⟩ =>
      show win0_3.index _ 1 * 8 ≤ (i 1).val ∧ (i 1).val < win0_3.index _ 1 * 8 + 8
      rw [e.2.1]; omega
    | ⟨2, _⟩ =>
      show win0_3.index _ 2 * 128 ≤ (i 2).val ∧ (i 2).val < win0_3.index _ 2 * 128 + 128
      rw [e.2.2]; omega

end Cert.KernelIdeal.Fr

end
-- ==== Proof.KerTailDef.lean ====
/-
  The host lines after the region as one function of the two result arrays: the row sums less the diagonal
  term exp 2, their logarithms weighted by the counts 2047 - i and summed, less the two row blocks' triangle
  sums, times -2047/1024.
-/
import proofs.«139039_j44513041056397_2_alg».proof.Proof.Launch
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The counts 2047 - i as floats: one term in both programs. -/
def cntArr : FVec F S2048 .f32 :=
  sitofp .f32 (subi (broadcastInDim S2048 ![] bcast_S_S2048 (constantI S_ 32 2047#32)) (iotaInDim S2048 32 0))

/-- The host lines' result from the two arrays the region wrote. -/
def kerTail (E : FVec F S2048x1 .f32) (T : FVec F S2x8x128 .f32) : FVec F S_ .f32 :=
  mulf (constant S_ .f32 0xBFFFE000#32)
    (subf
      (Host.reduceAdd
        (mulf (cntArr (F := F))
          (Host.log (subf (shapeCast S2048 E shapeCasts_S2048x1_S2048)
            (broadcastInDim S2048 ![] bcast_S_S2048 (Host.exp (constant S_ .f32 0x40000000#32))))))
        (constant S_ .f32 0x00000000#32) reducesTo_S2048_S_d0 h_S_)
      (Host.reduceAdd
        (shapeCast S2 (extractStridedSlice S2x1x1 ![0, 0, 0] T slices_S2x8x128_S2x1x1_0_0_0) shapeCasts_S2x1x1_S2)
        (constant S_ .f32 0x00000000#32) reducesTo_S2_S_d0 h_S_))

/-- The program's result buffer after the host lines is that function of the two arrays at the region's exit. -/
theorem Wfin_result (c : Dev nD) :
    Wfin m c (Proc.devRef .tc main_v16)
      = kerTail (F := F) ((dats m 0 c).arrAt 2 cfg0.N) ((dats m 0 c).arrAt 3 cfg0.N) := by
  rw [← Wexit_res0 m c, ← Wexit_res1 m c]
  unfold Wfin kerTail cntArr
  after_results
  rfl

end Cert.KernelIdeal.Fr

end
-- ==== Proof.KerTail.lean ====
/-
  The host lines after the region, read at an index.

  The result is the scale -2047/1024 times the difference of two sums: over the 2048 rows, the count 2047 - n times
  the logarithm of the row's sum of exponentials less the diagonal term exp 2; and over the two row blocks, the
  block's triangle sum, which sits at position (a, 0, 0) of the second array. Each host sum into a rank-0 result is
  its initial value plus the sum over every index of its operand; a rank-1 index is its one coordinate; the reshape
  of a column to a vector and the slice and reshape of the second array keep row-major positions.
-/
import proofs.«139039_j44513041056397_2_alg».proof.Proof.KerTailDef
import proofs.«139039_j44513041056397_2_alg».proof.Proof.Spec
import proofs.«139039_j44513041056397_2_alg».proof.Proof.LibTiles
import proofs.«139039_j44513041056397_2_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Tail

open Cert.KernelIdeal Cert.KernelIdeal.Gen Cert.KernelIdeal.Fr Idealize.ShloMosaic Idealize.ShloMosaic.ValueIdx

/-- A sum over the indices of a rank-1 shape is the sum over its one coordinate. -/
theorem sum_idx1 {M : Type*} [AddCommMonoid M] {n : Nat} (f : (⟨1, ![n]⟩ : Shape).Idx → M) :
    ∑ j : (⟨1, ![n]⟩ : Shape).Idx, f j = ∑ a : Fin n, f (ix1 a) := by
  refine Fintype.sum_equiv
    (⟨fun j => j 0, fun a => ix1 a, fun j => (eq_ix1 j).symm, fun a => rfl⟩ : (⟨1, ![n]⟩ : Shape).Idx ≃ Fin n) _ _ fun j => ?_
  exact congrArg f (eq_ix1 j)

/-- The host sum of a vector of length 2048 from the initial value zero. -/
theorem reduce_rows (y : FVec Ideal S2048 .f32) (i : S_.Idx) :
    Host.reduceAdd y (constant S_ .f32 0x00000000#32) reducesTo_S2048_S_d0 h_S_ i
      = Cert.Proof.Spec.zero + ∑ n : Fin 2048, y (ix1 n) := by
  simp only [Host.reduceAdd, Ideal.hostReduceAdd_def]
  rw [Ideal.hostReduceAdd_total reducesTo_S2048_S_d0 (fun b => b.elim0) y _ i, sum_idx1]
  rfl

/-- The host sum of a vector of length 2 from the initial value zero. -/
theorem reduce_blocks (y : FVec Ideal S2 .f32) (i : S_.Idx) :
    Host.reduceAdd y (constant S_ .f32 0x00000000#32) reducesTo_S2_S_d0 h_S_ i
      = Cert.Proof.Spec.zero + ∑ a : Fin 2, y (ix1 a) := by
  simp only [Host.reduceAdd, Ideal.hostReduceAdd_def]
  rw [Ideal.hostReduceAdd_total reducesTo_S2_S_d0 (fun b => b.elim0) y _ i, sum_idx1]
  rfl

/-- The column of row sums reshaped to a vector, at position n, is the column at (n, 0). -/
theorem rows_read (E : FVec Ideal S2048x1 .f32) (n : Fin 2048) :
    shapeCast S2048 E shapeCasts_S2048x1_S2048 (ix1 n) = E (ix2 n 0) :=
  shapeCast_apply E shapeCasts_S2048x1_S2048 (ix1 n) (ix2 n 0)
    (by rw [Shape.rowMajor_val_two, Shape.rowMajor_val_one]; show n.val * 1 + 0 = n.val; omega)

/-- The corner slice of the second array reshaped to a vector, at position a, is the array at (a, 0, 0). -/
theorem blocks_read (T : FVec Ideal S2x8x128 .f32) (a : Fin 2) :
    shapeCast S2 (extractStridedSlice S2x1x1 ![0, 0, 0] T slices_S2x8x128_S2x1x1_0_0_0) shapeCasts_S2x1x1_S2 (ix1 a)
      = T (ix3 a 0 0) := by
  refine (shapeCast_apply _ shapeCasts_S2x1x1_S2 (ix1 a) (ix3 a 0 0)
    (by rw [Shape.rowMajor_val_three, Shape.rowMajor_val_one]; show (a.val * 1 + 0) * 1 + 0 = a.val; omega)).trans ?_
  exact extractStridedSlice_apply ![0, 0, 0] T slices_S2x8x128_S2x1x1_0_0_0 (ix3 a 0 0) (ix3 a 0 0) (fun ax => match ax with
    | ⟨0, _⟩ => by show a.val = 0 + a.val; omega
    | ⟨1, _⟩ => by show 0 = 0 + 0; omega
    | ⟨2, _⟩ => by show 0 = 0 + 0; omega)

/-- The scalar exp 2 broadcast to a vector, at any position, is exp 2. -/
theorem diag_read (n : Fin 2048) :
    broadcastInDim S2048 ![] bcast_S_S2048 (Host.exp (constant (F := Ideal) S_ .f32 0x40000000#32)) (ix1 n)
      = Ideal.exp Cert.Proof.Spec.two :=
  broadcastInDim_apply _ bcast_S_S2048 _ (ix1 n) ix0 (fun a => a.elim0)

/-- The host lines' result: the scale times the weighted sum of logarithms less the sum of the two triangle sums. -/
theorem kerTail_apply (E : FVec Ideal S2048x1 .f32) (T : FVec Ideal S2x8x128 .f32) (i : S_.Idx) :
    kerTail (F := Ideal) E T i
      = Cert.Proof.Spec.scale * ((Cert.Proof.Spec.zero + ∑ n : Fin 2048, cntArr (F := Ideal) (ix1 n) * Ideal.log (E (ix2 n 0) - Ideal.exp Cert.Proof.Spec.two))
          - (Cert.Proof.Spec.zero + ∑ a : Fin 2, T (ix3 a 0 0))) := by
  unfold kerTail
  rw [mulf_apply, subf_apply, reduce_rows, reduce_blocks]
  refine congrArg₂ (· * ·) rfl (congrArg₂ (· - ·) (congrArg (_ + ·) (Finset.sum_congr rfl fun n _ => ?_))
    (congrArg (_ + ·) (Finset.sum_congr rfl fun a _ => blocks_read T a)))
  rw [mulf_apply]
  refine congrArg (_ * ·) ?_
  show Ideal.log (subf (shapeCast S2048 E shapeCasts_S2048x1_S2048)
      (broadcastInDim S2048 ![] bcast_S_S2048 (Host.exp (constant S_ .f32 0x40000000#32))) (ix1 n)) = _
  rw [subf_apply, rows_read, diag_read]

/-- The counts array is the reference's counts array: the same term. -/
theorem cntArr_eq : (cntArr (F := Ideal) : FVec Ideal S2048 .f32) = Cert.ReferenceIdeal.Read.val_main_v32 (F := Ideal) := by
  unfold cntArr Cert.ReferenceIdeal.Read.val_main_v32 Cert.ReferenceIdeal.Read.val_main_v28 Cert.ReferenceIdeal.Read.val_main_v27
    Cert.ReferenceIdeal.Read.val_main_c_4 Cert.ReferenceIdeal.Read.val_main_v8
  rfl

end Cert.KernelIdeal.Tail

end
-- ==== Proof.KerValue.lean ====
/-
  The kernel program's result at the ideal values: the host lines applied to the two result arrays give the
  kernel's formula of the argument matrix.
-/
import proofs.«139039_j44513041056397_2_alg».proof.Proof.KerAcc
import proofs.«139039_j44513041056397_2_alg».proof.Proof.KerTail

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

open Idealize.ShloMosaic.ValueIdx Cert.Proof.Spec Cert.KernelIdeal.Tail
open scoped BigOperators

/-- The result buffer after the run, at its one index. -/
theorem ker_result (c : Dev nD) (i : S_.Idx) :
    (Wfin m c (Proc.devRef .tc main_v16) i : EReal) = kerRes (XX m c) (at1 (cntArr (F := Ideal))) := by
  rw [Wfin_result]
  refine (kerTail_apply _ _ i).trans ?_
  unfold kerRes
  rw [← sum_fin_range (fun n => at1 (cntArr (F := Ideal)) n * Ideal.log (kerE (XX m c) n - Ideal.exp two)) 2048,
    ← sum_fin_range (fun a => kerT (XX m c) a) 2]
  refine congrArg (scale * ·) (congrArg₂ (· - ·) (congrArg (zero + ·) (Finset.sum_congr rfl fun n _ => ?_))
    (congrArg (zero + ·) (Finset.sum_congr rfl fun a _ => ?_)))
  · rw [res0_apply m c (ix2 n 0), at1_ix1]
  · rw [res1_apply m c (ix3 a 0 0)]

end Cert.KernelIdeal.Fr

end
-- ==== Proof.RefValueA.lean ====
/-
  The reference's intermediate arrays, entry by entry, as the formulas of the specification.

  With X the input matrix read at natural-number positions: the sum of squares of a row is `zero + ssq X i`;
  the normalised matrix has entry `zr X i d` (the entry divided by the square root of that sum); the matrix of
  similarities has entry `sr X i j` (the inner product of two normalised rows, divided by one half); its first
  2048 rows, exponentiated, have entry `exp (sr X i j)`; and the sum of such a row over all 8192 columns is
  `refE X i`.
-/
import proofs.«139039_j44513041056397_2_alg».proof.Proof.Gen.ReferenceIdeal.Read
import proofs.«139039_j44513041056397_2_alg».proof.Proof.Spec
import proofs.«139039_j44513041056397_2_alg».proof.Proof.LibTiles
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.Proof.Spec
open Idealize.ShloMosaic Idealize.ShloMosaic.ValueIdx

/-- The input matrix's type, as the reference's first stage takes it. -/
abbrev Inp := (⟨S8192x1024, .f32⟩ : BufTy).Contents (Elt Ideal)

/-- The sum of squares of a row: the zero word plus the sum of the squared entries. -/
theorem rowsq_apply (x : Inp) (r : S8192.Idx) (R : ℕ) (h0 : (r 0).val = R) :
    val_main_call0_v1 (F := Ideal) x r = zero + ssq (at2 x) R := by
  subst h0
  rw [val_main_call0_v1_apply, val_main_call0_cst_apply]
  unfold ssq zero
  rw [← sum_fin_range (fun d => at2 x (r 0).val d * at2 x (r 0).val d) 1024]
  refine congrArg (_ + ·) (Finset.sum_congr rfl fun k _ => ?_)
  rw [val_main_call0_v0_apply, Ideal.mulf_def,
    at2_of_val x (idx_main_call0_v1 r k) (r 0).val k.val rfl rfl]

/-- An entry of the normalised matrix. -/
theorem z_apply (x : Inp) (i : S8192x1024.Idx) (R D : ℕ) (h0 : (i 0).val = R) (h1 : (i 1).val = D) :
    val_main_v2 (F := Ideal) x i = zr (at2 x) R D := by
  rw [val_main_v2_apply, val_main_v1_apply, val_main_v0_apply, val_main_call0_v2_apply,
    rowsq_apply x _ R h0, Ideal.hostDivf_def, Ideal.hostUnary_sqrt_def, at2_of_val x i R D h0 h1]
  rfl

/-- An entry of the matrix of similarities: the inner product of two normalised rows, divided by one half. -/
theorem s_apply (x : Inp) (i : S8192x8192.Idx) (R C : ℕ) (h0 : (i 0).val = R) (h1 : (i 1).val = C) :
    val_main_v6 (F := Ideal) x i = sr (at2 x) R C := by
  rw [val_main_v6_apply, val_main_v5_apply, val_main_cst_apply, val_main_v4_apply, Ideal.hostDivf_def]
  unfold sr half
  rw [← sum_fin_range (fun d => zr (at2 x) R d * zr (at2 x) C d) 1024]
  refine congrArg (Ideal.div · _) (Finset.sum_congr rfl fun k _ => ?_)
  rw [val_main_v3_apply, z_apply x (lidx_main_v4 i k) R k.val h0 rfl,
    z_apply x (idx_main_v3 (ridx_main_v4 i k)) C k.val h1 rfl]

/-- An entry of the first 2048 rows of the matrix of similarities. -/
theorem rows_apply (x : Inp) (i : S2048x8192.Idx) (R C : ℕ) (h0 : (i 0).val = R) (h1 : (i 1).val = C) :
    val_main_v7 (F := Ideal) x i = sr (at2 x) R C := by
  rw [val_main_v7_apply, s_apply x (idx_main_v7 i) R C h0 h1]

/-- An entry of the exponentiated rows. -/
theorem exprows_apply (x : Inp) (i : S2048x8192.Idx) (R C : ℕ) (h0 : (i 0).val = R) (h1 : (i 1).val = C) :
    val_main_v9 (F := Ideal) x i = Ideal.exp (sr (at2 x) R C) := by
  rw [val_main_v9_apply, rows_apply x i R C h0 h1, Ideal.hostUnary_exp_def]

/-- The sum of an exponentiated row over all 8192 columns. -/
theorem rowsum_apply (x : Inp) (i : S2048.Idx) (R : ℕ) (h0 : (i 0).val = R) :
    val_main_v10 (F := Ideal) x i = refE (at2 x) R := by
  rw [val_main_v10_apply, val_main_cst_0_apply]
  unfold refE zero
  rw [← sum_fin_range (fun j => Ideal.exp (sr (at2 x) R j)) 8192]
  refine congrArg (_ + ·) (Finset.sum_congr rfl fun k _ => ?_)
  rw [exprows_apply x (idx_main_v10 i k) R k.val h0 rfl]

end Cert.ReferenceIdeal.RefValue

end
-- ==== Proof.RefValueB.lean ====
/-
  The two parts of the reference that read the matrix of similarities through integer index arrays.

  The diagonal term. The reference builds a [2048, 2] array of index pairs whose row r is (r, r): each column is
  the counter 0, 1, …, 2047 passed through "a negative index counts from the end", which leaves a non-negative
  counter unchanged. Gathering the exponentiated rows at these pairs gives, at position r, the entry (r, r):
  `exp (sr X r r)`.

  The strict upper triangle. The reference replaces the entry (r, c) of the leading 2048 × 2048 block by zero
  where r ≥ c, a comparison of two counters as signed 32-bit words; both are below 2³¹, so it is the comparison of
  the natural numbers.
-/
import proofs.«139039_j44513041056397_2_alg».proof.Proof.Gen.ReferenceIdeal.Read
import proofs.«139039_j44513041056397_2_alg».proof.Proof.Spec
import proofs.«139039_j44513041056397_2_alg».proof.Proof.LibTiles
import proofs.«139039_j44513041056397_2_alg».proof.Proof.RefValueA
import Idealize.ShloMosaic.Lib.DynamicIndex
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.Proof.Spec
open Idealize.ShloMosaic Idealize.ShloMosaic.ValueIdx

/-! ## Signed 32-bit words of small natural numbers -/

/-- "Negative, read signed" is false of the word of a number below 2³¹: the select takes its second branch. -/
theorem select_slt_zero_ofNat {α : Type} (n : ℕ) (hn : n < 2 ^ 31) (A B : α) :
    Scalar.select (IntOp.cmpi .slt (BitVec.ofNat 32 n) 0#32) A B = B := by
  have hlt : (BitVec.ofNat 32 n).slt 0#32 = false := by
    simp only [BitVec.slt, BitVec.toInt_zero, decide_eq_false_iff_not, Int.not_lt]
    rw [toInt_ofNat_of_lt hn]; omega
  show (if BitVec.ofBool ((BitVec.ofNat 32 n).slt 0#32) = 1 then A else B) = B
  rw [hlt]; rfl

/-- "r + 0 ≥ c, read signed" on the words of two numbers below 2³¹ is c ≤ r. -/
theorem select_sge_ofNat {α : Type} (R C : ℕ) (hR : R < 2 ^ 31) (hC : C < 2 ^ 31) (A B : α) :
    Scalar.select (IntOp.cmpi .sge (IntOp.addi (BitVec.ofNat 32 R) 0#32) (BitVec.ofNat 32 C)) A B
      = if C ≤ R then A else B := by
  have e : IntOp.addi (BitVec.ofNat 32 R) 0#32 = BitVec.ofNat 32 R := BitVec.add_zero _
  rw [e]
  show (if BitVec.ofBool ((BitVec.ofNat 32 C).sle (BitVec.ofNat 32 R)) = 1 then A else B) = _
  by_cases h : C ≤ R
  · have hs : (BitVec.ofNat 32 C).sle (BitVec.ofNat 32 R) = true := by
      simp only [BitVec.sle, decide_eq_true_eq]
      rw [toInt_ofNat_of_lt hR, toInt_ofNat_of_lt hC]; omega
    rw [hs, if_pos h]; rfl
  · have hs : (BitVec.ofNat 32 C).sle (BitVec.ofNat 32 R) = false := by
      simp only [BitVec.sle, decide_eq_false_iff_not]
      rw [toInt_ofNat_of_lt hR, toInt_ofNat_of_lt hC]; omega
    rw [hs, if_neg h]; rfl

/-! ## The array of index pairs -/

/-- The first index column at row r is the word of r. -/
theorem col0_apply {F : FTy → Type} [FloatOps F] (r : S2048.Idx) :
    val_main_v15 (F := F) r = BitVec.ofNat 32 (r 0).val := by
  have hr : (r 0).val < 2048 := (r 0).isLt
  rw [val_main_v15_apply, val_main_v12_apply, val_main_v8_apply, val_main_v11_apply, val_main_c_apply,
    select_slt_zero_ofNat _ (by omega)]

/-- The second index column at row r is the word of r. -/
theorem col1_apply {F : FTy → Type} [FloatOps F] (r : S2048.Idx) :
    val_main_v20 (F := F) r = BitVec.ofNat 32 (r 0).val := by
  have hr : (r 0).val < 2048 := (r 0).isLt
  rw [val_main_v20_apply, val_main_v17_apply, val_main_v8_apply, val_main_v16_apply, val_main_c_2_apply,
    select_slt_zero_ofNat _ (by omega)]

/-- Both entries of row r of the array of index pairs are the word of r. -/
theorem pairs_apply {F : FTy → Type} [FloatOps F] (j : S2048x2.Idx) (R : ℕ) (h0 : (j 0).val = R) :
    val_main_v23 (F := F) j = BitVec.ofNat 32 R := by
  subst h0
  unfold val_main_v23
  have h1 : (j 1).val < 2 := (j 1).isLt
  by_cases hc : (j 1).val = 0
  · rw [concatenate_pair_apply_left (t := S2048x2) (s₁ := S2048x1) (s₂ := S2048x1) (1 : Fin S2048x2.rank) _ _ _ j rfl
      (ix2 (n0 := 2048) (n1 := 1) (j 0) ⟨0, Nat.one_pos⟩)
      (fun b => match b with
        | ⟨0, _⟩ => rfl
        | ⟨1, _⟩ => hc.symm)]
    rw [val_main_v21_apply, col0_apply]
  · have hc1 : (j 1).val = 1 := by omega
    rw [concatenate_pair_apply_right (t := S2048x2) (s₁ := S2048x1) (s₂ := S2048x1) (1 : Fin S2048x2.rank) _ _ _ j rfl rfl
      (ix2 (n0 := 2048) (n1 := 1) (j 0) ⟨0, Nat.one_pos⟩)
      (fun b => match b with
        | ⟨0, _⟩ => fun _ => rfl
        | ⟨1, _⟩ => fun hb => absurd rfl hb)
      (by show 0 + 1 = (j 1).val; omega)]
    rw [val_main_v22_apply, col1_apply]

/-! ## The diagonal term: the gather of the exponentiated rows at the index pairs -/

/-- The start of the slice the gather takes for result position i on the row axis of the exponentiated rows:
    the word of i's position read signed, clamped into the axis; it is i's position. -/
theorem gather_start0 (i : S2048.Idx) :
    gather_S2048x8192_S2048x2_S2048_n_01_n_n_01_1_11.start i (val_main_v23 (F := Ideal)) (0 : Fin S2048x8192.rank) = (i 0).val := by
  have hi : (i 0).val < 2048 := (i 0).isLt
  unfold GatherDims.start
  rw [dif_pos (show (0 : Fin S2048x8192.rank) ∈ gather_S2048x8192_S2048x2_S2048_n_01_n_n_01_1_11.startIndexMap by decide),
    pairs_apply _ (i 0).val rfl, toInt_ofNat_of_lt (by omega)]
  show min (i 0).val (2048 - 1) = _
  omega

/-- The same on the column axis. -/
theorem gather_start1 (i : S2048.Idx) :
    gather_S2048x8192_S2048x2_S2048_n_01_n_n_01_1_11.start i (val_main_v23 (F := Ideal)) (1 : Fin S2048x8192.rank) = (i 0).val := by
  have hi : (i 0).val < 2048 := (i 0).isLt
  unfold GatherDims.start
  rw [dif_pos (show (1 : Fin S2048x8192.rank) ∈ gather_S2048x8192_S2048x2_S2048_n_01_n_n_01_1_11.startIndexMap by decide),
    pairs_apply _ (i 0).val rfl, toInt_ofNat_of_lt (by omega)]
  show min (i 0).val (8192 - 1) = _
  omega

/-- The gathered entry at position r is the diagonal entry (r, r) of the exponentiated rows. -/
theorem diag_apply (x : Inp) (i : S2048.Idx) (R : ℕ) (h0 : (i 0).val = R) :
    val_main_v24 (F := Ideal) x i = Ideal.exp (sr (at2 x) R R) := by
  subst h0
  unfold val_main_v24 Host.gather
  have hc0 : ((gather_S2048x8192_S2048x2_S2048_n_01_n_n_01_1_11.operandIdx i (val_main_v23 (F := Ideal))) 0).val = (i 0).val := by
    show gather_S2048x8192_S2048x2_S2048_n_01_n_n_01_1_11.start i (val_main_v23 (F := Ideal)) 0 + gather_S2048x8192_S2048x2_S2048_n_01_n_n_01_1_11.batchCoord i 0 + gather_S2048x8192_S2048x2_S2048_n_01_n_n_01_1_11.offCoord i 0 = _
    rw [GatherDims.batchCoord_eq_zero _ _ _ List.not_mem_nil,
      GatherDims.offCoord_eq_zero _ _ _ (fun h => ((GatherDims.mem_sKept _ _).mp h).1 (by decide)),
      gather_start0, Nat.add_zero]
  have hc1 : ((gather_S2048x8192_S2048x2_S2048_n_01_n_n_01_1_11.operandIdx i (val_main_v23 (F := Ideal))) 1).val = (i 0).val := by
    show gather_S2048x8192_S2048x2_S2048_n_01_n_n_01_1_11.start i (val_main_v23 (F := Ideal)) 1 + gather_S2048x8192_S2048x2_S2048_n_01_n_n_01_1_11.batchCoord i 1 + gather_S2048x8192_S2048x2_S2048_n_01_n_n_01_1_11.offCoord i 1 = _
    rw [GatherDims.batchCoord_eq_zero _ _ _ List.not_mem_nil,
      GatherDims.offCoord_eq_zero _ _ _ (fun h => ((GatherDims.mem_sKept _ _).mp h).1 (by decide)),
      gather_start1, Nat.add_zero]
  exact exprows_apply x _ (i 0).val (i 0).val hc0 hc1

/-! ## The strict upper triangle -/

/-- An entry of the leading 2048 × 2048 block with the part on and below the diagonal replaced by zero. -/
theorem triu_apply (x : Inp) (j : S2048x2048.Idx) (R C : ℕ) (h0 : (j 0).val = R) (h1 : (j 1).val = C) :
    val_main_v30 (F := Ideal) x j = if C ≤ R then zero else sr (at2 x) R C := by
  have hR : R < 2048 := h0 ▸ (j 0).isLt
  have hC : C < 2048 := h1 ▸ (j 1).isLt
  rw [val_main_v30_apply, val_main_call1_v4_apply, val_main_call1_v2_apply, val_main_call1_v0_apply,
    val_main_call1_v1_apply, val_main_call1_c_apply, val_main_call1_v3_apply, val_main_call1_v5_apply,
    val_main_call1_cst_apply, val_main_v29_apply, rows_apply x (idx_main_v29 j) R C h0 h1, h0, h1,
    select_sge_ofNat R C (by omega) (by omega)]
  rfl

end Cert.ReferenceIdeal.RefValue

end
-- ==== Proof.RefValue.lean ====
/-
  The reference's result as the specification's formula `refRes`.

  The reference's result is the scale word times the difference of two totals. The first is the zero word plus the
  sum over the first 2048 rows r of cnt(r) · log(E(r) − D(r)), where cnt is the array of pair counts converted to
  floats (kept as a parameter: nothing here depends on its entries), E(r) the sum of the exponentiated row r over all
  8192 columns and D(r) its diagonal entry. The second is the total of the strict upper triangle of the leading
  2048 × 2048 block of similarities, a sum over all index pairs that is rewritten as the double sum over rows and
  columns.
-/
import proofs.«139039_j44513041056397_2_alg».proof.Proof.Gen.ReferenceIdeal.Read
import proofs.«139039_j44513041056397_2_alg».proof.Proof.Spec
import proofs.«139039_j44513041056397_2_alg».proof.Proof.LibTiles
import proofs.«139039_j44513041056397_2_alg».proof.Proof.RefValueA
import proofs.«139039_j44513041056397_2_alg».proof.Proof.RefValueB
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.Proof.Spec
open Idealize.ShloMosaic Idealize.ShloMosaic.ValueIdx

/-! ## A sum over the positions of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The two totals and the result -/

/-- The total of the strict upper triangle. -/
theorem tri_total (x : Inp) (i : S_.Idx) : val_main_v31 (F := Ideal) x i = refT (at2 x) := by
  rw [val_main_v31_apply, val_main_cst_5_apply, sum_idx2]
  unfold refT
  rw [← sum_fin_range (fun r => ∑ c ∈ Finset.range 2048, if c ≤ r then zero else sr (at2 x) r c) 2048]
  refine congrArg (_ + ·) (Finset.sum_congr rfl fun a _ => ?_)
  rw [← sum_fin_range (fun c => if c ≤ a.val then zero else sr (at2 x) a.val c) 2048]
  refine Finset.sum_congr rfl fun b _ => ?_
  exact triu_apply x (ix2 a b) a.val b.val rfl rfl

/-- The sum over the first 2048 rows of the pair count times the logarithm of the row's sum of exponentials less its
    diagonal term. -/
theorem log_total (x : Inp) (i : S_.Idx) :
    val_main_v34 (F := Ideal) x i
      = zero + ∑ r ∈ Finset.range 2048, at1 (val_main_v32 (F := Ideal)) r
          * Ideal.log (refE (at2 x) r - Ideal.exp (sr (at2 x) r r)) := by
  rw [val_main_v34_apply, val_main_cst_6_apply, sum_idx1]
  unfold zero
  rw [← sum_fin_range (fun r => at1 (val_main_v32 (F := Ideal)) r
      * Ideal.log (refE (at2 x) r - Ideal.exp (sr (at2 x) r r))) 2048]
  refine congrArg (_ + ·) (Finset.sum_congr rfl fun a _ => ?_)
  rw [val_main_v33_apply, val_main_v26_apply, val_main_v25_apply,
    rowsum_apply x (ix1 a) a.val rfl, diag_apply x (ix1 a) a.val rfl,
    at1_ix1 (val_main_v32 (F := Ideal)) a]
  rfl

/-- THE REFERENCE'S RESULT: the scale word times the difference of the two totals. -/
theorem ref_value (x : (⟨Cert.ReferenceIdeal.S8192x1024, .f32⟩ : BufTy).Contents (Elt Ideal)) (i : Cert.ReferenceIdeal.S_.Idx) :
    Cert.ReferenceIdeal.Read.val_main_v36 (F := Ideal) x i
      = Cert.Proof.Spec.refRes (Cert.Proof.Spec.at2 x) (Cert.Proof.Spec.at1 (Cert.ReferenceIdeal.Read.val_main_v32 (F := Ideal))) := by
  rw [val_main_v36_apply, val_main_cst_7_apply, val_main_v35_apply, log_total, tri_total]
  rfl

end Cert.ReferenceIdeal.RefValue

end
-- ==== Proof.AlgebraSums.lean ====
/-
  The entries of the two similarity matrices and the row sums of exponentials.

  Over the reals both programs' entry (i, j) is twice the inner product of the normalised rows i and j; the diagonal
  entry is 2 because a normalised row has unit length; and the kernel's sixteen tiles of 512 columns are the
  reference's 8192 columns.
-/
import proofs.«139039_j44513041056397_2_alg».proof.Proof.AlgebraNorm
import proofs.«139039_j44513041056397_2_alg».proof.Proof.LibTiles

noncomputable section

open scoped BigOperators

namespace Cert.Proof.Spec

open Idealize.ShloMosaic

variable (X : ℕ → ℕ → EReal)

/-! ## The two similarity matrices agree -/

/-- The kernel's entry `(i, j)` is the real number `SR i j`. -/
theorem sk_eq (hfin : ∀ i d, i < 8192 → d < 1024 → ∃ r : ℝ, X i d = (r : EReal))
    (hpos : ∀ i, i < 8192 → ssq X i ≠ 0) {i j : ℕ} (hi : i < 8192) (hj : j < 8192) :
    sk X i j = (SR X i j : EReal) := by
  unfold sk SR
  rw [two_eq, EReal.coe_mul, coe_sum]
  congr 1
  refine Finset.sum_congr rfl fun d hd => ?_
  have hd' := Finset.mem_range.mp hd
  rw [zk_eq X hfin hi hd' (hpos i hi), zk_eq X hfin hj hd' (hpos j hj), EReal.coe_mul]

/-- The reference's entry `(i, j)` is the same real number: dividing by 1/2 is doubling. -/
theorem sr_eq (hfin : ∀ i d, i < 8192 → d < 1024 → ∃ r : ℝ, X i d = (r : EReal))
    (hpos : ∀ i, i < 8192 → ssq X i ≠ 0) {i j : ℕ} (hi : i < 8192) (hj : j < 8192) :
    sr X i j = (SR X i j : EReal) := by
  have h2 : (1 / (1 / 2 : ℝ)) = 2 := by norm_num
  unfold sr SR
  rw [half_eq, Ideal.div_coe (by norm_num : (1 / 2 : ℝ) ≠ 0), h2, EReal.coe_mul, coe_sum]
  congr 1
  refine Finset.sum_congr rfl fun d hd => ?_
  have hd' := Finset.mem_range.mp hd
  rw [zr_eq X hfin hi hd' (hpos i hi), zr_eq X hfin hj hd' (hpos j hj), EReal.coe_mul]

theorem sk_eq_sr (hfin : ∀ i d, i < 8192 → d < 1024 → ∃ r : ℝ, X i d = (r : EReal))
    (hpos : ∀ i, i < 8192 → ssq X i ≠ 0) {i j : ℕ} (hi : i < 8192) (hj : j < 8192) :
    sk X i j = sr X i j := by
  rw [sk_eq X hfin hpos hi hj, sr_eq X hfin hpos hi hj]

/-! ## The diagonal -/

/-- A normalised row has unit length, so the diagonal entry is 2. -/
theorem SR_diag {i : ℕ} (hs : 0 < sR X i) : SR X i i = 2 := by
  have hinv : (Real.sqrt (sR X i))⁻¹ * (Real.sqrt (sR X i))⁻¹ = (sR X i)⁻¹ := by
    rw [← mul_inv, Real.mul_self_sqrt hs.le]
  have h1 : ∀ d, zR X i d * zR X i d = (xr X i d * xr X i d) * (sR X i)⁻¹ := by
    intro d
    unfold zR
    rw [← hinv]; ring
  have h2 : ∑ d ∈ Finset.range 1024, xr X i d * xr X i d = sR X i := rfl
  unfold SR
  simp only [h1]
  rw [← Finset.sum_mul, h2, mul_inv_cancel₀ hs.ne', one_mul]

/-- The reference's diagonal exponential is the exponential of 2. -/
theorem exp_sr_diag (hfin : ∀ i d, i < 8192 → d < 1024 → ∃ r : ℝ, X i d = (r : EReal))
    (hpos : ∀ i, i < 8192 → ssq X i ≠ 0) {i : ℕ} (hi : i < 8192) :
    Ideal.exp (sr X i i) = Ideal.exp two := by
  rw [sr_eq X hfin hpos hi hi, SR_diag X (sR_pos X hfin hi (hpos i hi)), two_eq]

/-! ## The row sums of exponentials -/

/-- Sixteen tiles of 512 columns are all 8192 columns. -/
theorem kerE_eq_refE (hfin : ∀ i d, i < 8192 → d < 1024 → ∃ r : ℝ, X i d = (r : EReal))
    (hpos : ∀ i, i < 8192 → ssq X i ≠ 0) {i : ℕ} (hi : i < 8192) : kerE X i = refE X i := by
  unfold kerE refE
  rw [zero_eq, zero_add, show (8192 : ℕ) = 16 * 512 from rfl, sum_range_mul]
  refine Finset.sum_congr rfl fun k hk => Finset.sum_congr rfl fun c hc => ?_
  have hk' := Finset.mem_range.mp hk
  have hc' := Finset.mem_range.mp hc
  rw [sk_eq_sr X hfin hpos hi (by omega)]

end Cert.Proof.Spec

end
-- ==== Proof.Algebra.lean ====
/-
  The kernel's formula and the reference's formula are one extended real.

  The triangle: the kernel sums, per block of 1024 rows, the four tiles of 512 columns below column 2048 under
  the mask "row < column < 2048"; the reference sums 2048 × 2048 entries under the mask "column ≤ row". Rows
  1024·a + r and columns 512·k + c enumerate the same square, the tile sums are regrouped row by row, and below
  column 2048 the two masks are complementary. With the row sums of exponentials and the diagonal term of the
  previous module the two results agree term by term.
-/
import proofs.«139039_j44513041056397_2_alg».proof.Proof.AlgebraSums

noncomputable section

open scoped BigOperators

namespace Cert.Proof.Spec

open Idealize.ShloMosaic

variable (X : ℕ → ℕ → EReal)

/-! ## The triangle -/

/-- 2048 rows are two blocks of 1024 rows. -/
theorem sum_rows (f : ℕ → EReal) :
    ∑ i ∈ Finset.range 2048, f i = ∑ a ∈ Finset.range 2, ∑ r ∈ Finset.range 1024, f (1024 * a + r) :=
  sum_range_mul f 2 1024

/-- 2048 columns are four tiles of 512 columns. -/
theorem sum_cols (f : ℕ → EReal) :
    ∑ j ∈ Finset.range 2048, f j = ∑ k ∈ Finset.range 4, ∑ c ∈ Finset.range 512, f (512 * k + c) :=
  sum_range_mul f 4 512

/-- Row block `a`'s sum, row by row: the kernel's mask is the strict upper triangle, since a column of one of the
    four tiles is below 2048. -/
theorem kerT_eq (hfin : ∀ i d, i < 8192 → d < 1024 → ∃ r : ℝ, X i d = (r : EReal))
    (hpos : ∀ i, i < 8192 → ssq X i ≠ 0) {a : ℕ} (ha : a < 2) :
    kerT X a = ∑ r ∈ Finset.range 1024, ∑ j ∈ Finset.range 2048,
      if j ≤ 1024 * a + r then zero else sr X (1024 * a + r) j := by
  unfold kerT
  rw [Finset.sum_comm]
  refine Finset.sum_congr rfl fun r hr => ?_
  rw [sum_cols]
  refine Finset.sum_congr rfl fun k hk => Finset.sum_congr rfl fun c hc => ?_
  have hr' := Finset.mem_range.mp hr
  have hk' := Finset.mem_range.mp hk
  have hc' := Finset.mem_range.mp hc
  by_cases h : 1024 * a + r < 512 * k + c
  · have h1 : 1024 * a + r < 512 * k + c ∧ 512 * k + c < 2048 := ⟨h, by omega⟩
    have h2 : ¬ (512 * k + c ≤ 1024 * a + r) := by omega
    rw [if_pos h1, if_neg h2, sk_eq_sr X hfin hpos (by omega) (by omega)]
  · have h1 : ¬ (1024 * a + r < 512 * k + c ∧ 512 * k + c < 2048) := fun h' => h h'.1
    have h2 : 512 * k + c ≤ 1024 * a + r := by omega
    rw [if_neg h1, if_pos h2]

/-- The two blocks' sums make up the reference's triangle. -/
theorem kerT_sum_eq_refT (hfin : ∀ i d, i < 8192 → d < 1024 → ∃ r : ℝ, X i d = (r : EReal))
    (hpos : ∀ i, i < 8192 → ssq X i ≠ 0) : zero + ∑ a ∈ Finset.range 2, kerT X a = refT X := by
  unfold refT
  rw [sum_rows]
  exact congrArg (fun t => zero + t)
    (Finset.sum_congr rfl fun a ha => kerT_eq X hfin hpos (Finset.mem_range.mp ha))

/-! ## The results -/

/-- For a finite input with no zero row the kernel's formula and the reference's are one extended real. -/
theorem kerRes_eq_refRes (X : ℕ → ℕ → EReal) (cnt : ℕ → EReal)
    (hfin : ∀ i d, i < 8192 → d < 1024 → ∃ r : ℝ, X i d = (r : EReal))
    (hpos : ∀ i, i < 8192 → Cert.Proof.Spec.ssq X i ≠ 0) :
    Cert.Proof.Spec.kerRes X cnt = Cert.Proof.Spec.refRes X cnt := by
  have hsum : ∑ i ∈ Finset.range 2048, cnt i * Ideal.log (kerE X i - Ideal.exp two)
      = ∑ i ∈ Finset.range 2048, cnt i * Ideal.log (refE X i - Ideal.exp (sr X i i)) := by
    refine Finset.sum_congr rfl fun i hi => ?_
    have hi' : i < 8192 := by have := Finset.mem_range.mp hi; omega
    rw [kerE_eq_refE X hfin hpos hi', exp_sr_diag X hfin hpos hi']
  unfold kerRes refRes
  rw [kerT_sum_eq_refT X hfin hpos, hsum]

end Cert.Proof.Spec

end
-- ==== Proof.PreDecode.lean ====
/-
  What the precondition says of the input matrix.

  The predicate holds when every entry has absolute value below +∞ and every row's sum of squares is above 0. Over the
  extended reals the first says that every entry is a real number (an absolute value below +∞ excludes both
  infinities), and the second that no row's sum of squares is zero. Both are read off the predicate's two
  conjunctions: a conjunction over all positions that came out true was true at every position.
-/
import proofs.«139039_j44513041056397_2_alg».proof.Pre_finite_inputs
import proofs.«139039_j44513041056397_2_alg».proof.Proof.Gen.Pre_finite_inputs
import proofs.«139039_j44513041056397_2_alg».proof.Proof.Spec
import proofs.«139039_j44513041056397_2_alg».proof.Proof.LibTiles
import Idealize.ShloMosaic.Lib.ReduceAll
import Idealize.ShloMosaic.Lib.ValueIdx
import Idealize.ShloMosaic.PureOps.Ideal.Laws

noncomputable section

open scoped BigOperators

namespace Cert.Proof.PreDecode

open Idealize.ShloMosaic Idealize.ShloMosaic.ValueIdx Cert.Pre_finite_inputs

attribute [local instance] Cert.Pre_finite_inputs.Gen.facts

/-- A rank-0 array has one index. -/
instance : Subsingleton S_.Idx := ⟨fun a b => funext fun d => d.elim0⟩

/-- The word of +∞ denotes the top element. -/
theorem top_word : Ideal.ofBits .f32 0x7F800000#32 = ⊤ := by simp [Ideal.ofBits, Ideal.ieee]

/-- The word of +0 denotes zero. -/
theorem zero_word : Ideal.ofBits .f32 0x00000000#32 = 0 := by simp [Ideal.ofBits, Ideal.ieee]

/-- An extended real whose absolute value max(v, -v) is below +∞ is a real: at -∞ and at +∞ the absolute value is +∞. -/
theorem real_of_abs_lt_top (v : EReal)
    (h : Ideal.cmp .olt (max v (-v)) (Ideal.ofBits .f32 0x7F800000#32) = 1#1) : ∃ r : ℝ, v = (r : EReal) := by
  rw [top_word] at h
  induction v using EReal.rec with
  | bot => simp [Ideal.cmp] at h
  | coe r => exact ⟨r, rfl⟩
  | top => simp [Ideal.cmp] at h

/-- A comparison "greater than zero" that came out true. -/
theorem pos_of_cmp_ogt (v : EReal)
    (h : Ideal.cmp .ogt v (Ideal.ofBits .f32 0x00000000#32) = 1#1) : 0 < v := by
  rw [zero_word] at h
  by_contra hn
  simp [Ideal.cmp, hn] at h

/-- The row sum the predicate compares with zero, at row i, is the sum of squares of row i:
    0 + Σ_{d < 1024} x(i,d)·x(i,d). -/
theorem row_sum_eq (x : FVec Ideal Cert.Pre_finite_inputs.S8192x1024 .f32) (i : ℕ) (hi : i < 8192) :
    Host.reduceAdd (F := Ideal) (mulf x x) (constant S_ .f32 0x00000000#32)
        Facts.reducesTo_S8192x1024_S8192_d1 Facts.h_S_ (ix1 ⟨i, hi⟩)
      = Cert.Proof.Spec.ssq (Cert.Proof.Spec.at2 x) i := by
  simp only [Host.reduceAdd, Ideal.hostReduceAdd_def]
  rw [Ideal.hostReduceAdd_single Facts.reducesTo_S8192x1024_S8192_d1 (by decide)]
  show Ideal.ofBits .f32 0x00000000#32 + _ = _
  rw [zero_word, zero_add]
  unfold Cert.Proof.Spec.ssq
  rw [← Cert.Proof.Spec.sum_fin_range (fun d => Cert.Proof.Spec.at2 x i d * Cert.Proof.Spec.at2 x i d) 1024]
  refine Finset.sum_congr rfl fun k _ => ?_
  have ek : Cert.Proof.Spec.at2 x i k.val = x (ix2 ⟨i, hi⟩ k) := Cert.Proof.Spec.at2_ix2 x ⟨i, hi⟩ k
  rw [ek]
  -- the position of row i with column k inserted is (i, k)
  exact congrArg (fun y => x y * x y)
    (funext fun a => Fin.ext (by match a with | ⟨0, _⟩ => rfl | ⟨1, _⟩ => rfl))

/-- Under the precondition every entry of the matrix is a real number and no row has sum of squares zero. -/
theorem pre_decode (x : FVec Ideal Cert.Pre_finite_inputs.S8192x1024 .f32)
    (h : Cert.Pre_finite_inputs.fn (F := Ideal) x = fun _ => 1#1) :
    (∀ i d, i < 8192 → d < 1024 → ∃ r : ℝ, Cert.Proof.Spec.at2 x i d = (r : EReal))
    ∧ (∀ i, i < 8192 → Cert.Proof.Spec.ssq (Cert.Proof.Spec.at2 x) i ≠ 0) := by
  have h0 := congrFun h ValueIdx.ix0
  dsimp only [Cert.Pre_finite_inputs.fn] at h0
  -- the predicate is the conjunction of its two halves
  obtain ⟨h3, h8⟩ := IntOp.andi_eq_one.1 h0
  -- each half is a conjunction over all positions, so it holds at every position
  have e3 := fun i => Host.reduce_andi_all _ _ _ _ _ h3 i
  have e8 := fun j => Host.reduce_andi_all _ _ _ _ _ h8 j
  refine ⟨fun i d hi hd => ?_, fun i hi => ?_⟩
  · rw [show Cert.Proof.Spec.at2 x i d = x (ix2 ⟨i, hi⟩ ⟨d, hd⟩) from
      Cert.Proof.Spec.at2_ix2 x ⟨i, hi⟩ ⟨d, hd⟩]
    exact real_of_abs_lt_top _ (e3 (ix2 ⟨i, hi⟩ ⟨d, hd⟩))
  · have e := pos_of_cmp_ogt _ (e8 (ix1 ⟨i, hi⟩))
    rw [row_sum_eq x i hi] at e
    exact ne_of_gt e

end Cert.Proof.PreDecode

end
-- ==== Proof.lean ====
/-
  The certificate: a contrastive (NT-Xent) loss over 8192 embeddings of dimension 1024, temperature 1/2, as a
  tiled kernel and as its plain reference, agree on the extended reals whenever every input is finite and
  no row is zero (the reference divides each row by its norm).

  Both normalise the rows to unit length, form s(i,j) = twice the inner product of rows i and j, and return
  -2047/1024 times ( Σ_{i<2048} (2047 - i) log(Σ_j exp s(i,j) - d_i)  -  Σ_{i<j<2048} s(i,j) ), where d_i is the
  diagonal term: the reference reads exp s(i,i) off the matrix, the kernel uses exp 2 — equal because a
  normalised non-zero row has inner product 1 with itself. The kernel multiplies by the reciprocal square root
  where the reference divides by the square root (equal for a positive finite sum of squares), multiplies by
  2 where the reference divides by 1/2, sums the exponentials tile by tile (16 tiles of 512 columns) and the
  triangle per block of 1024 rows over four tiles: regroupings of finite sums.

  The three frames: the kernel programs' by the body's run at each of the 32 grid points (four cases of its
  three branches; the three scratch buffers carried from point to point; the one argument array shared by the
  two input windows in half shares), the reference's by its run. Nothing was rewritten by the idealization.
-/
import proofs.«139039_j44513041056397_2_alg».proof.Defs
import proofs.«139039_j44513041056397_2_alg».proof.Proof.Gen.Kernel
import proofs.«139039_j44513041056397_2_alg».proof.Proof.Gen.KernelIdeal
import proofs.«139039_j44513041056397_2_alg».proof.Proof.Gen.ReferenceIdeal
import proofs.«139039_j44513041056397_2_alg».proof.Proof.Gen.ReferenceIdeal.Run
import proofs.«139039_j44513041056397_2_alg».proof.Proof.Gen.ReferenceIdeal.Read
import proofs.«139039_j44513041056397_2_alg».proof.Proof.Gen.Pre_finite_inputs
import proofs.«139039_j44513041056397_2_alg».proof.Proof.KLaunch
import proofs.«139039_j44513041056397_2_alg».proof.Proof.Launch
import proofs.«139039_j44513041056397_2_alg».proof.Proof.KerValue
import proofs.«139039_j44513041056397_2_alg».proof.Proof.RefValue
import proofs.«139039_j44513041056397_2_alg».proof.Proof.Algebra
import proofs.«139039_j44513041056397_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at one extended real: the kernel's run leaves its formula of the argument matrix, the
    reference's run its own, and under the precondition (entries real, rows non-zero) the two formulas agree. -/
theorem algebraic : Cert.algebraic_KernelIdeal_ReferenceIdeal := by
  intro m ρ m' ρ' hpre hagree
  refine ⟨fun c => Cert.KernelIdeal.Fr.Wfin m c (Proc.devRef .tc Cert.KernelIdeal.main_v16), ?_, ?_⟩
  · exact (θ_run Cert.KernelIdeal.defs _ _).mono (fun _ h c => ⟨(h c).2 Cert.KernelIdeal.main_v16 (by decide),
        ((h c).1 0).trans (((Cert.KernelIdeal.Fr.dats m 0 c).arrAt_in 0 rfl _).trans
          ((Cert.KernelIdeal.Fr.A_eq m c 0).trans (Cert.KernelIdeal.Fr.V_main_arg0 m c)))⟩)
      (Cert.KernelIdeal.Fr.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, hagree c]
    funext i
    obtain ⟨hfin, hpos⟩ := Cert.Proof.PreDecode.pre_decode _ (hpre c)
    rw [Cert.ReferenceIdeal.RefValue.ref_value]
    refine Eq.trans ?_ (Cert.KernelIdeal.Fr.ker_result m c i).symm
    rw [Cert.KernelIdeal.Tail.cntArr_eq]
    exact (Cert.Proof.Spec.kerRes_eq_refRes _ _ hfin hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
